-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x38x38 : Shape := ⟨4, ![1, 512, 38, 38]⟩
abbrev S128x4 : Shape := ⟨2, ![128, 4]⟩
abbrev S_ : Shape := ⟨0, ![]⟩

class Facts : Prop where
  bcast_S_S1x512x38x38 : S_.BroadcastsInDim S1x512x38x38 (![] : Fin 0 → Fin S1x512x38x38.rank)
  reducesTo_S1x512x38x38_S_d0_1_2_3 : S1x512x38x38.ReducesTo [0, 1, 2, 3] S_
  h_S_ : 0 < S_.numel
  bcast_S_S128x4 : S_.BroadcastsInDim S128x4 (![] : Fin 0 → Fin S128x4.rank)
  reducesTo_S128x4_S_d0_1 : S128x4.ReducesTo [0, 1] S_

variable [Facts]

def fn {F : FTy → Type} [FloatOps F] (main_arg0 : FVec F S1x512x38x38 .f32) (main_arg1 : FVec F S128x4 .f32) : IVec S_ 1 :=
  let main_v0 : FVec F S1x512x38x38 .f32 := Host.absf main_arg0
  let main_cst : FVec F S_ .f32 := constant S_ .f32 0x7F800000#32
  let main_v1 : FVec F S1x512x38x38 .f32 := broadcastInDim S1x512x38x38 ![] bcast_S_S1x512x38x38 main_cst
  let main_v2 : IVec S1x512x38x38 1 := cmpf .olt main_v0 main_v1
  let main_c : IVec S_ 1 := constantI S_ 1 1#1
  let main_v3 : IVec S_ 1 := (fun x v => Host.reduce IntOp.andi x v reducesTo_S1x512x38x38_S_d0_1_2_3 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  main_v8
-- ==== Kernel.lean ====
abbrev S1x512x38x38 : Shape := ⟨4, ![1, 512, 38, 38]⟩
abbrev S128x4 : Shape := ⟨2, ![128, 4]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S38 : Shape := ⟨1, ![38]⟩
abbrev S1x1x38 : Shape := ⟨3, ![1, 1, 38]⟩
abbrev S128x7x1 : Shape := ⟨3, ![128, 7, 1]⟩
abbrev S128x7x38 : Shape := ⟨3, ![128, 7, 38]⟩
abbrev S512x38x38 : Shape := ⟨3, ![512, 38, 38]⟩
abbrev S128x512x7x7 : Shape := ⟨4, ![128, 512, 7, 7]⟩
abbrev S1x7x38 : Shape := ⟨3, ![1, 7, 38]⟩
abbrev S1x512x7x7 : Shape := ⟨4, ![1, 512, 7, 7]⟩
abbrev S512x7x38 : Shape := ⟨3, ![512, 7, 38]⟩
abbrev S7x38 : Shape := ⟨2, ![7, 38]⟩
abbrev S1x38 : Shape := ⟨2, ![1, 38]⟩
abbrev S512x38 : Shape := ⟨2, ![512, 38]⟩
abbrev S512x1x38 : Shape := ⟨3, ![512, 1, 38]⟩
abbrev S512x7 : Shape := ⟨2, ![512, 7]⟩
abbrev S1x512x1x7 : Shape := ⟨4, ![1, 512, 1, 7]⟩

abbrev nBuf : Space → Nat
  | .hbm => 183
  | .vmem => 8
  | .smem => 0
  | _ => 0

abbrev hbmTy0_0 (i : Nat) : BufTy := match i % 128 with
  | 0 => ⟨S1x512x38x38, .f32⟩
  | 1 => ⟨S128x4, .f32⟩
  | 2 => ⟨S_, .f32⟩
  | 3 => ⟨S128x4, .f32⟩
  | 4 => ⟨S128x4, .f32⟩
  | 5 => ⟨S128x4, .f32⟩
  | 6 => ⟨S128x4, .i32⟩
  | 7 => ⟨S128x1, .i32⟩
  | 8 => ⟨S128, .i32⟩
  | 9 => ⟨S128x1, .i32⟩
  | 10 => ⟨S128, .i32⟩
  | 11 => ⟨S128x1, .i32⟩
  | 12 => ⟨S128, .i32⟩
  | 13 => ⟨S128x1, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S_, .i32⟩
  | 21 => ⟨S128, .i32⟩
  | 22 => ⟨S128, .i32⟩
  | 23 => ⟨S7, .i32⟩
  | 24 => ⟨S128x1, .i32⟩
  | 25 => ⟨S1x7, .i32⟩
  | 26 => ⟨S128x1, .i32⟩
  | 27 => ⟨S128x7, .i32⟩
  | 28 => ⟨S128x7, .i32⟩
  | 29 => ⟨S128x7, .i32⟩
  | 30 => ⟨S_, .i32⟩
  | 31 => ⟨S_, .i32⟩
  | 32 => ⟨S128x7, .i32⟩
  | 33 => ⟨S128x7, .i32⟩
  | 34 => ⟨S128x7, .i32⟩
  | 35 => ⟨S_, .i32⟩
  | 36 => ⟨S128x7, .i32⟩
  | 37 => ⟨S128x7, .i1⟩
  | 38 => ⟨S128x7, .i32⟩
  | 39 => ⟨S128x7, .i32⟩
  | 40 => ⟨S_, .i32⟩
  | 41 => ⟨S128x7, .i32⟩
  | 42 => ⟨S128x7, .i1⟩
  | 43 => ⟨S128x7, .i1⟩
  | 44 => ⟨S_, .i32⟩
  | 45 => ⟨S128x7, .i32⟩
  | 46 => ⟨S128x7, .i32⟩
  | 47 => ⟨S128x7, .i32⟩
  | 48 => ⟨S128x7, .i32⟩
  | 49 => ⟨S128x7, .i32⟩
  | 50 => ⟨S128x1, .i32⟩
  | 51 => ⟨S1x7, .i32⟩
  | 52 => ⟨S_, .i32⟩
  | 53 => ⟨S1x7, .i32⟩
  | 54 => ⟨S1x7, .i32⟩
  | 55 => ⟨S128x1, .i32⟩
  | 56 => ⟨S128x7, .i32⟩
  | 57 => ⟨S128x7, .i32⟩
  | 58 => ⟨S128x7, .i32⟩
  | 59 => ⟨S_, .i32⟩
  | 60 => ⟨S128x7, .i32⟩
  | 61 => ⟨S128x7, .i32⟩
  | 62 => ⟨S_, .i32⟩
  | 63 => ⟨S128x7, .i32⟩
  | 64 => ⟨S128x7, .i32⟩
  | 65 => ⟨S_, .i32⟩
  | 66 => ⟨S_, .i32⟩
  | 67 => ⟨S128x7, .i32⟩
  | 68 => ⟨S128x7, .i32⟩
  | 69 => ⟨S128x7, .i32⟩
  | 70 => ⟨S_, .i32⟩
  | 71 => ⟨S128x7, .i32⟩
  | 72 => ⟨S128x7, .i1⟩
  | 73 => ⟨S128x7, .i32⟩
  | 74 => ⟨S128x7, .i32⟩
  | 75 => ⟨S_, .i32⟩
  | 76 => ⟨S128x7, .i32⟩
  | 77 => ⟨S128x7, .i1⟩
  | 78 => ⟨S128x7, .i1⟩
  | 79 => ⟨S_, .i32⟩
  | 80 => ⟨S128x7, .i32⟩
  | 81 => ⟨S128x7, .i32⟩
  | 82 => ⟨S128x7, .i32⟩
  | 83 => ⟨S128x7, .i32⟩
  | 84 => ⟨S128x7, .i32⟩
  | 85 => ⟨S38, .i32⟩
  | 86 => ⟨S1x1x38, .i32⟩
  | 87 => ⟨S128x7x1, .i32⟩
  | 88 => ⟨S128x7x38, .i32⟩
  | 89 => ⟨S128x7x38, .i32⟩
  | 90 => ⟨S128x7x38, .i1⟩
  | 91 => ⟨S1x1x38, .i32⟩
  | 92 => ⟨S128x7x1, .i32⟩
  | 93 => ⟨S128x7x38, .i32⟩
  | 94 => ⟨S128x7x38, .i32⟩
  | 95 => ⟨S128x7x38, .i1⟩
  | 96 => ⟨S128x7x38, .i1⟩
  | 97 => ⟨S_, .f32⟩
  | 98 => ⟨S_, .f32⟩
  | 99 => ⟨S128x7x38, .f32⟩
  | 100 => ⟨S128x7x38, .f32⟩
  | 101 => ⟨S128x7x38, .f32⟩
  | 102 => ⟨S7, .i32⟩
  | 103 => ⟨S128x1, .i32⟩
  | 104 => ⟨S1x7, .i32⟩
  | 105 => ⟨S128x1, .i32⟩
  | 106 => ⟨S128x7, .i32⟩
  | 107 => ⟨S128x7, .i32⟩
  | 108 => ⟨S128x7, .i32⟩
  | 109 => ⟨S_, .i32⟩
  | 110 => ⟨S_, .i32⟩
  | 111 => ⟨S128x7, .i32⟩
  | 112 => ⟨S128x7, .i32⟩
  | 113 => ⟨S128x7, .i32⟩
  | 114 => ⟨S_, .i32⟩
  | 115 => ⟨S128x7, .i32⟩
  | 116 => ⟨S128x7, .i1⟩
  | 117 => ⟨S128x7, .i32⟩
  | 118 => ⟨S128x7, .i32⟩
  | 119 => ⟨S_, .i32⟩
  | 120 => ⟨S128x7, .i32⟩
  | 121 => ⟨S128x7, .i1⟩
  | 122 => ⟨S128x7, .i1⟩
  | 123 => ⟨S_, .i32⟩
  | 124 => ⟨S128x7, .i32⟩
  | 125 => ⟨S128x7, .i32⟩
  | 126 => ⟨S128x7, .i32⟩
  | 127 => ⟨S128x7, .i32⟩
  | _ => ⟨S1x512x38x38, .f32⟩

abbrev hbmTy0_1 (i : Nat) : BufTy := match i % 128 with
  | 0 => ⟨S128x7, .i32⟩
  | 1 => ⟨S128x1, .i32⟩
  | 2 => ⟨S1x7, .i32⟩
  | 3 => ⟨S_, .i32⟩
  | 4 => ⟨S1x7, .i32⟩
  | 5 => ⟨S1x7, .i32⟩
  | 6 => ⟨S128x1, .i32⟩
  | 7 => ⟨S128x7, .i32⟩
  | 8 => ⟨S128x7, .i32⟩
  | 9 => ⟨S128x7, .i32⟩
  | 10 => ⟨S_, .i32⟩
  | 11 => ⟨S128x7, .i32⟩
  | 12 => ⟨S128x7, .i32⟩
  | 13 => ⟨S_, .i32⟩
  | 14 => ⟨S128x7, .i32⟩
  | 15 => ⟨S128x7, .i32⟩
  | 16 => ⟨S_, .i32⟩
  | 17 => ⟨S_, .i32⟩
  | 18 => ⟨S128x7, .i32⟩
  | 19 => ⟨S128x7, .i32⟩
  | 20 => ⟨S128x7, .i32⟩
  | 21 => ⟨S_, .i32⟩
  | 22 => ⟨S128x7, .i32⟩
  | 23 => ⟨S128x7, .i1⟩
  | 24 => ⟨S128x7, .i32⟩
  | 25 => ⟨S128x7, .i32⟩
  | 26 => ⟨S_, .i32⟩
  | 27 => ⟨S128x7, .i32⟩
  | 28 => ⟨S128x7, .i1⟩
  | 29 => ⟨S128x7, .i1⟩
  | 30 => ⟨S_, .i32⟩
  | 31 => ⟨S128x7, .i32⟩
  | 32 => ⟨S128x7, .i32⟩
  | 33 => ⟨S128x7, .i32⟩
  | 34 => ⟨S128x7, .i32⟩
  | 35 => ⟨S128x7, .i32⟩
  | 36 => ⟨S38, .i32⟩
  | 37 => ⟨S1x1x38, .i32⟩
  | 38 => ⟨S128x7x1, .i32⟩
  | 39 => ⟨S128x7x38, .i32⟩
  | 40 => ⟨S128x7x38, .i32⟩
  | 41 => ⟨S128x7x38, .i1⟩
  | 42 => ⟨S1x1x38, .i32⟩
  | 43 => ⟨S128x7x1, .i32⟩
  | 44 => ⟨S128x7x38, .i32⟩
  | 45 => ⟨S128x7x38, .i32⟩
  | 46 => ⟨S128x7x38, .i1⟩
  | 47 => ⟨S128x7x38, .i1⟩
  | 48 => ⟨S_, .f32⟩
  | 49 => ⟨S_, .f32⟩
  | 50 => ⟨S128x7x38, .f32⟩
  | 51 => ⟨S128x7x38, .f32⟩
  | 52 => ⟨S128x7x38, .f32⟩
  | 53 => ⟨S512x38x38, .f32⟩
  | 54 => ⟨S128x512x7x7, .f32⟩
  | _ => ⟨S1x512x38x38, .f32⟩

abbrev hbmTy (i : Nat) : BufTy := match i / 128 with
  | 0 => hbmTy0_0 i
  | 1 => hbmTy0_1 i
  | _ => ⟨S1x512x38x38, .f32⟩

abbrev bufTy : (tb : Table) → Fin (tcTables nBuf tb) → BufTy
  | .hbm, ⟨i, _⟩ => hbmTy i
  | .local _ .vmem, ⟨0, _⟩ => ⟨S512x38x38, .f32⟩
  | .local _ .vmem, ⟨1, _⟩ => ⟨S1x7x38, .f32⟩
  | .local _ .vmem, ⟨2, _⟩ => ⟨S1x7x38, .f32⟩
  | .local _ .vmem, ⟨3, _⟩ => ⟨S1x7x38, .f32⟩
  | .local _ .vmem, ⟨4, _⟩ => ⟨S1x7x38, .f32⟩
  | .local _ .vmem, ⟨5, _⟩ => ⟨S1x512x7x7, .f32⟩
  | .local _ .vmem, ⟨6, _⟩ => ⟨S1x512x7x7, .f32⟩
  | .local _ .vmem, ⟨7, _⟩ => ⟨S512x7x38, .f32⟩
  | _, _ => ⟨S1x512x38x38, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_3 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_6 : Ref sig .tc := ⟨.hbm, 97, rfl⟩
abbrev main_cst_7 : Ref sig .tc := ⟨.hbm, 98, rfl⟩
abbrev main_call2_v0 : Ref sig .tc := ⟨.hbm, 99, rfl⟩
abbrev main_call2_v1 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_8 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_c : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_0 : Ref sig .tc := ⟨.hbm, 123, rfl⟩
abbrev main_call3_v12 : Ref sig .tc := ⟨.hbm, 124, rfl⟩
abbrev main_call3_v13 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_c_9 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_c_10 : Ref sig .tc := ⟨.hbm, 138, rfl⟩
abbrev main_v74 : Ref sig .tc := ⟨.hbm, 139, rfl⟩
abbrev main_v75 : Ref sig .tc := ⟨.hbm, 140, rfl⟩
abbrev main_c_11 : Ref sig .tc := ⟨.hbm, 141, rfl⟩
abbrev main_v76 : Ref sig .tc := ⟨.hbm, 142, rfl⟩
abbrev main_v77 : Ref sig .tc := ⟨.hbm, 143, rfl⟩
abbrev main_c_12 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_cst_13 : Ref sig .tc := ⟨.hbm, 176, rfl⟩
abbrev main_cst_14 : Ref sig .tc := ⟨.hbm, 177, rfl⟩
abbrev main_call5_v0 : Ref sig .tc := ⟨.hbm, 178, rfl⟩
abbrev main_call5_v1 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S512x38x38 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x7x38 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x7x38 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x7x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S128_S128x1_0 : S128.BroadcastsInDim S128x1 (![0] : Fin 1 → Fin S128x1.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S1x7 : S_.BroadcastsInDim S1x7 (![] : Fin 0 → Fin S1x7.rank)
  bcast_S38_S1x1x38_2 : S38.BroadcastsInDim S1x1x38 (![2] : Fin 1 → Fin S1x1x38.rank)
  bcast_S128x7_S128x7x1_0_1 : S128x7.BroadcastsInDim S128x7x1 (![0, 1] : Fin 2 → Fin S128x7x1.rank)
  bcast_S1x1x38_S128x7x38_0_1_2 : S1x1x38.BroadcastsInDim S128x7x38 (![0, 1, 2] : Fin 3 → Fin S128x7x38.rank)
  bcast_S128x7x1_S128x7x38_0_1_2 : S128x7x1.BroadcastsInDim S128x7x38 (![0, 1, 2] : Fin 3 → Fin S128x7x38.rank)
  bcast_S_S128x7x38 : S_.BroadcastsInDim S128x7x38 (![] : Fin 0 → Fin S128x7x38.rank)
  shapeCasts_S1x512x38x38_S512x38x38 : S1x512x38x38.ShapeCasts S512x38x38
  inb_S512x38x38_S512x38x38_0_0_0 : ∀ a, (![0, 0, 0] : Fin 3 → Nat) a + S512x38x38.size a ≤ S512x38x38.size a
  h_S512x38x38 : 0 < S512x38x38.numel
  shapeCasts_S512x38x38_S512x38x38 : S512x38x38.ShapeCasts S512x38x38
  inb_S1x7x38_S1x7x38_0_0_0 : ∀ a, (![0, 0, 0] : Fin 3 → Nat) a + S1x7x38.size a ≤ S1x7x38.size a
  h_S1x7x38 : 0 < S1x7x38.numel
  shapeCasts_S1x7x38_S7x38 : S1x7x38.ShapeCasts S7x38
  slices_S7x38_o0_0_S1x38 : S7x38.Slices ![0, 0] S1x38
  shapeCasts_S1x38_S38 : S1x38.ShapeCasts S38
  shapeCasts_S38_S1x1x38 : S38.ShapeCasts S1x1x38
  broadcasts_S1x1x38_S512x38x38 : S1x1x38.Broadcasts S512x38x38
  reduces_S512x38x38_S512x38 : S512x38x38.Reduces [2] S512x38
  inb_S512x7x38_S512x1x38_0_0_0 : ∀ a, (![0, 0, 0] : Fin 3 → Nat) a + S512x1x38.size a ≤ S512x7x38.size a
  h_S512x1x38 : 0 < S512x1x38.numel
  shapeCasts_S512x1x38_S512x38 : S512x1x38.ShapeCasts S512x38
  shapeCasts_S512x38_S512x1x38 : S512x38.ShapeCasts S512x1x38
  slices_S7x38_o1_0_S1x38 : S7x38.Slices ![1, 0] S1x38
  inb_S512x7x38_S512x1x38_0_1_0 : ∀ a, (![0, 1, 0] : Fin 3 → Nat) a + S512x1x38.size a ≤ S512x7x38.size a
  slices_S7x38_o2_0_S1x38 : S7x38.Slices ![2, 0] S1x38
  inb_S512x7x38_S512x1x38_0_2_0 : ∀ a, (![0, 2, 0] : Fin 3 → Nat) a + S512x1x38.size a ≤ S512x7x38.size a
  slices_S7x38_o3_0_S1x38 : S7x38.Slices ![3, 0] S1x38
  inb_S512x7x38_S512x1x38_0_3_0 : ∀ a, (![0, 3, 0] : Fin 3 → Nat) a + S512x1x38.size a ≤ S512x7x38.size a
  slices_S7x38_o4_0_S1x38 : S7x38.Slices ![4, 0] S1x38
  inb_S512x7x38_S512x1x38_0_4_0 : ∀ a, (![0, 4, 0] : Fin 3 → Nat) a + S512x1x38.size a ≤ S512x7x38.size a
  slices_S7x38_o5_0_S1x38 : S7x38.Slices ![5, 0] S1x38
  inb_S512x7x38_S512x1x38_0_5_0 : ∀ a, (![0, 5, 0] : Fin 3 → Nat) a + S512x1x38.size a ≤ S512x7x38.size a
  slices_S7x38_o6_0_S1x38 : S7x38.Slices ![6, 0] S1x38
  inb_S512x7x38_S512x1x38_0_6_0 : ∀ a, (![0, 6, 0] : Fin 3 → Nat) a + S512x1x38.size a ≤ S512x7x38.size a
  inb_S512x7x38_S512x7x38_0_0_0 : ∀ a, (![0, 0, 0] : Fin 3 → Nat) a + S512x7x38.size a ≤ S512x7x38.size a
  h_S512x7x38 : 0 < S512x7x38.numel
  broadcasts_S1x1x38_S512x7x38 : S1x1x38.Broadcasts S512x7x38
  reduces_S512x7x38_S512x7 : S512x7x38.Reduces [2] S512x7
  inb_S1x512x7x7_S1x512x1x7_0_0_0_0 : ∀ a, (![0, 0, 0, 0] : Fin 4 → Nat) a + S1x512x1x7.size a ≤ S1x512x7x7.size a
  h_S1x512x1x7 : 0 < S1x512x1x7.numel
  shapeCasts_S1x512x1x7_S512x7 : S1x512x1x7.ShapeCasts S512x7
  shapeCasts_S512x7_S1x512x1x7 : S512x7.ShapeCasts S1x512x1x7
  inb_S1x512x7x7_S1x512x1x7_0_0_1_0 : ∀ a, (![0, 0, 1, 0] : Fin 4 → Nat) a + S1x512x1x7.size a ≤ S1x512x7x7.size a
  inb_S1x512x7x7_S1x512x1x7_0_0_2_0 : ∀ a, (![0, 0, 2, 0] : Fin 4 → Nat) a + S1x512x1x7.size a ≤ S1x512x7x7.size a
  inb_S1x512x7x7_S1x512x1x7_0_0_3_0 : ∀ a, (![0, 0, 3, 0] : Fin 4 → Nat) a + S1x512x1x7.size a ≤ S1x512x7x7.size a
  inb_S1x512x7x7_S1x512x1x7_0_0_4_0 : ∀ a, (![0, 0, 4, 0] : Fin 4 → Nat) a + S1x512x1x7.size a ≤ S1x512x7x7.size a
  inb_S1x512x7x7_S1x512x1x7_0_0_5_0 : ∀ a, (![0, 0, 5, 0] : Fin 4 → Nat) a + S1x512x1x7.size a ≤ S1x512x7x7.size a
  inb_S1x512x7x7_S1x512x1x7_0_0_6_0 : ∀ a, (![0, 0, 6, 0] : Fin 4 → Nat) a + S1x512x1x7.size a ≤ S1x512x7x7.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x38x38.size a ≤ S512x38x38.size a
  hwx0_0 : ∀ i : grid0.Coords, EltTy.bits .f32 = 32 ∨ (Rect.block (s := S512x38x38) S512x38x38.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x7x38.size a ≤ S128x7x38.size a
  hwx0_1 : ∀ i : grid0.Coords, EltTy.bits .f32 = 32 ∨ (Rect.block (s := S128x7x38) S1x7x38.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x7x38.size a ≤ S128x7x38.size a
  hwx0_2 : ∀ i : grid0.Coords, EltTy.bits .f32 = 32 ∨ (Rect.block (s := S128x7x38) S1x7x38.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x7x7.size a ≤ S128x512x7x7.size a
  hwx0_3 : ∀ i : grid0.Coords, EltTy.bits .f32 = 32 ∨ (Rect.block (s := S128x512x7x7) S1x512x7x7.size (cc0_transform_3 i) (hinb0_3 i)).WholeWords (EltTy.packing .f32)

variable [Facts₀]

abbrev win0_0 : Pipeline.Window sig grid0 :=
  Pipeline.Window.ofSpec (Memref.whole main_v94) S512x38x38.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v93) S1x7x38.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S1x7x38.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v95) S1x512x7x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x512x38x38 : Shape := ⟨4, ![1, 512, 38, 38]⟩
abbrev S128x4 : Shape := ⟨2, ![128, 4]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S38 : Shape := ⟨1, ![38]⟩
abbrev S1x1x38 : Shape := ⟨3, ![1, 1, 38]⟩
abbrev S128x7x1 : Shape := ⟨3, ![128, 7, 1]⟩
abbrev S128x7x38 : Shape := ⟨3, ![128, 7, 38]⟩
abbrev S128x1x38 : Shape := ⟨3, ![128, 1, 38]⟩
abbrev S128x38 : Shape := ⟨2, ![128, 38]⟩
abbrev S128x1x1x38 : Shape := ⟨4, ![128, 1, 1, 38]⟩
abbrev S128x512x38x38 : Shape := ⟨4, ![128, 512, 38, 38]⟩
abbrev S128x512x38 : Shape := ⟨3, ![128, 512, 38]⟩
abbrev S128x512x38x1 : Shape := ⟨4, ![128, 512, 38, 1]⟩
abbrev S128x512x38x7 : Shape := ⟨4, ![128, 512, 38, 7]⟩
abbrev S128x1x38x1 : Shape := ⟨4, ![128, 1, 38, 1]⟩
abbrev S128x512x7 : Shape := ⟨3, ![128, 512, 7]⟩
abbrev S128x512x1x7 : Shape := ⟨4, ![128, 512, 1, 7]⟩
abbrev S128x512x7x7 : Shape := ⟨4, ![128, 512, 7, 7]⟩

abbrev nBuf : Space → Nat
  | .hbm => 320
  | .vmem => 0
  | .smem => 0
  | _ => 0

abbrev hbmTy0_0 (i : Nat) : BufTy := match i % 128 with
  | 0 => ⟨S1x512x38x38, .f32⟩
  | 1 => ⟨S128x4, .f32⟩
  | 2 => ⟨S_, .f32⟩
  | 3 => ⟨S128x4, .f32⟩
  | 4 => ⟨S128x4, .f32⟩
  | 5 => ⟨S128x4, .f32⟩
  | 6 => ⟨S128x4, .i32⟩
  | 7 => ⟨S128x1, .i32⟩
  | 8 => ⟨S128, .i32⟩
  | 9 => ⟨S128x1, .i32⟩
  | 10 => ⟨S128, .i32⟩
  | 11 => ⟨S128x1, .i32⟩
  | 12 => ⟨S128, .i32⟩
  | 13 => ⟨S128x1, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S_, .i32⟩
  | 21 => ⟨S128, .i32⟩
  | 22 => ⟨S128, .i32⟩
  | 23 => ⟨S7, .i32⟩
  | 24 => ⟨S128x1, .i32⟩
  | 25 => ⟨S1x7, .i32⟩
  | 26 => ⟨S128x1, .i32⟩
  | 27 => ⟨S128x7, .i32⟩
  | 28 => ⟨S128x7, .i32⟩
  | 29 => ⟨S128x7, .i32⟩
  | 30 => ⟨S_, .i32⟩
  | 31 => ⟨S_, .i32⟩
  | 32 => ⟨S128x7, .i32⟩
  | 33 => ⟨S128x7, .i32⟩
  | 34 => ⟨S128x7, .i32⟩
  | 35 => ⟨S_, .i32⟩
  | 36 => ⟨S128x7, .i32⟩
  | 37 => ⟨S128x7, .i1⟩
  | 38 => ⟨S128x7, .i32⟩
  | 39 => ⟨S128x7, .i32⟩
  | 40 => ⟨S_, .i32⟩
  | 41 => ⟨S128x7, .i32⟩
  | 42 => ⟨S128x7, .i1⟩
  | 43 => ⟨S128x7, .i1⟩
  | 44 => ⟨S_, .i32⟩
  | 45 => ⟨S128x7, .i32⟩
  | 46 => ⟨S128x7, .i32⟩
  | 47 => ⟨S128x7, .i32⟩
  | 48 => ⟨S128x7, .i32⟩
  | 49 => ⟨S128x7, .i32⟩
  | 50 => ⟨S128x1, .i32⟩
  | 51 => ⟨S1x7, .i32⟩
  | 52 => ⟨S_, .i32⟩
  | 53 => ⟨S1x7, .i32⟩
  | 54 => ⟨S1x7, .i32⟩
  | 55 => ⟨S128x1, .i32⟩
  | 56 => ⟨S128x7, .i32⟩
  | 57 => ⟨S128x7, .i32⟩
  | 58 => ⟨S128x7, .i32⟩
  | 59 => ⟨S_, .i32⟩
  | 60 => ⟨S128x7, .i32⟩
  | 61 => ⟨S128x7, .i32⟩
  | 62 => ⟨S_, .i32⟩
  | 63 => ⟨S128x7, .i32⟩
  | 64 => ⟨S128x7, .i32⟩
  | 65 => ⟨S_, .i32⟩
  | 66 => ⟨S_, .i32⟩
  | 67 => ⟨S128x7, .i32⟩
  | 68 => ⟨S128x7, .i32⟩
  | 69 => ⟨S128x7, .i32⟩
  | 70 => ⟨S_, .i32⟩
  | 71 => ⟨S128x7, .i32⟩
  | 72 => ⟨S128x7, .i1⟩
  | 73 => ⟨S128x7, .i32⟩
  | 74 => ⟨S128x7, .i32⟩
  | 75 => ⟨S_, .i32⟩
  | 76 => ⟨S128x7, .i32⟩
  | 77 => ⟨S128x7, .i1⟩
  | 78 => ⟨S128x7, .i1⟩
  | 79 => ⟨S_, .i32⟩
  | 80 => ⟨S128x7, .i32⟩
  | 81 => ⟨S128x7, .i32⟩
  | 82 => ⟨S128x7, .i32⟩
  | 83 => ⟨S128x7, .i32⟩
  | 84 => ⟨S128x7, .i32⟩
  | 85 => ⟨S38, .i32⟩
  | 86 => ⟨S1x1x38, .i32⟩
  | 87 => ⟨S128x7x1, .i32⟩
  | 88 => ⟨S128x7x38, .i32⟩
  | 89 => ⟨S128x7x38, .i32⟩
  | 90 => ⟨S128x7x38, .i1⟩
  | 91 => ⟨S1x1x38, .i32⟩
  | 92 => ⟨S128x7x1, .i32⟩
  | 93 => ⟨S128x7x38, .i32⟩
  | 94 => ⟨S128x7x38, .i32⟩
  | 95 => ⟨S128x7x38, .i1⟩
  | 96 => ⟨S128x7x38, .i1⟩
  | 97 => ⟨S7, .i32⟩
  | 98 => ⟨S128x1, .i32⟩
  | 99 => ⟨S1x7, .i32⟩
  | 100 => ⟨S128x1, .i32⟩
  | 101 => ⟨S128x7, .i32⟩
  | 102 => ⟨S128x7, .i32⟩
  | 103 => ⟨S128x7, .i32⟩
  | 104 => ⟨S_, .i32⟩
  | 105 => ⟨S_, .i32⟩
  | 106 => ⟨S128x7, .i32⟩
  | 107 => ⟨S128x7, .i32⟩
  | 108 => ⟨S128x7, .i32⟩
  | 109 => ⟨S_, .i32⟩
  | 110 => ⟨S128x7, .i32⟩
  | 111 => ⟨S128x7, .i1⟩
  | 112 => ⟨S128x7, .i32⟩
  | 113 => ⟨S128x7, .i32⟩
  | 114 => ⟨S_, .i32⟩
  | 115 => ⟨S128x7, .i32⟩
  | 116 => ⟨S128x7, .i1⟩
  | 117 => ⟨S128x7, .i1⟩
  | 118 => ⟨S_, .i32⟩
  | 119 => ⟨S128x7, .i32⟩
  | 120 => ⟨S128x7, .i32⟩
  | 121 => ⟨S128x7, .i32⟩
  | 122 => ⟨S128x7, .i32⟩
  | 123 => ⟨S128x7, .i32⟩
  | 124 => ⟨S128x1, .i32⟩
  | 125 => ⟨S1x7, .i32⟩
  | 126 => ⟨S_, .i32⟩
  | 127 => ⟨S1x7, .i32⟩
  | _ => ⟨S1x512x38x38, .f32⟩

abbrev hbmTy0_1 (i : Nat) : BufTy := match i % 128 with
  | 0 => ⟨S1x7, .i32⟩
  | 1 => ⟨S128x1, .i32⟩
  | 2 => ⟨S128x7, .i32⟩
  | 3 => ⟨S128x7, .i32⟩
  | 4 => ⟨S128x7, .i32⟩
  | 5 => ⟨S_, .i32⟩
  | 6 => ⟨S128x7, .i32⟩
  | 7 => ⟨S128x7, .i32⟩
  | 8 => ⟨S_, .i32⟩
  | 9 => ⟨S128x7, .i32⟩
  | 10 => ⟨S128x7, .i32⟩
  | 11 => ⟨S_, .i32⟩
  | 12 => ⟨S_, .i32⟩
  | 13 => ⟨S128x7, .i32⟩
  | 14 => ⟨S128x7, .i32⟩
  | 15 => ⟨S128x7, .i32⟩
  | 16 => ⟨S_, .i32⟩
  | 17 => ⟨S128x7, .i32⟩
  | 18 => ⟨S128x7, .i1⟩
  | 19 => ⟨S128x7, .i32⟩
  | 20 => ⟨S128x7, .i32⟩
  | 21 => ⟨S_, .i32⟩
  | 22 => ⟨S128x7, .i32⟩
  | 23 => ⟨S128x7, .i1⟩
  | 24 => ⟨S128x7, .i1⟩
  | 25 => ⟨S_, .i32⟩
  | 26 => ⟨S128x7, .i32⟩
  | 27 => ⟨S128x7, .i32⟩
  | 28 => ⟨S128x7, .i32⟩
  | 29 => ⟨S128x7, .i32⟩
  | 30 => ⟨S128x7, .i32⟩
  | 31 => ⟨S38, .i32⟩
  | 32 => ⟨S1x1x38, .i32⟩
  | 33 => ⟨S128x7x1, .i32⟩
  | 34 => ⟨S128x7x38, .i32⟩
  | 35 => ⟨S128x7x38, .i32⟩
  | 36 => ⟨S128x7x38, .i1⟩
  | 37 => ⟨S1x1x38, .i32⟩
  | 38 => ⟨S128x7x1, .i32⟩
  | 39 => ⟨S128x7x38, .i32⟩
  | 40 => ⟨S128x7x38, .i32⟩
  | 41 => ⟨S128x7x38, .i1⟩
  | 42 => ⟨S128x7x38, .i1⟩
  | 43 => ⟨S128x1x38, .i1⟩
  | 44 => ⟨S128x38, .i1⟩
  | 45 => ⟨S128x1x1x38, .i1⟩
  | 46 => ⟨S_, .f32⟩
  | 47 => ⟨S128x512x38x38, .i1⟩
  | 48 => ⟨S128x512x38x38, .f32⟩
  | 49 => ⟨S128x512x38x38, .f32⟩
  | 50 => ⟨S128x512x38x38, .f32⟩
  | 51 => ⟨S_, .f32⟩
  | 52 => ⟨S128x512x38, .f32⟩
  | 53 => ⟨S128x1x38, .i1⟩
  | 54 => ⟨S128x38, .i1⟩
  | 55 => ⟨S128x1x1x38, .i1⟩
  | 56 => ⟨S_, .f32⟩
  | 57 => ⟨S128x512x38x38, .i1⟩
  | 58 => ⟨S128x512x38x38, .f32⟩
  | 59 => ⟨S128x512x38x38, .f32⟩
  | 60 => ⟨S128x512x38x38, .f32⟩
  | 61 => ⟨S_, .f32⟩
  | 62 => ⟨S128x512x38, .f32⟩
  | 63 => ⟨S128x1x38, .i1⟩
  | 64 => ⟨S128x38, .i1⟩
  | 65 => ⟨S128x1x1x38, .i1⟩
  | 66 => ⟨S_, .f32⟩
  | 67 => ⟨S128x512x38x38, .i1⟩
  | 68 => ⟨S128x512x38x38, .f32⟩
  | 69 => ⟨S128x512x38x38, .f32⟩
  | 70 => ⟨S128x512x38x38, .f32⟩
  | 71 => ⟨S_, .f32⟩
  | 72 => ⟨S128x512x38, .f32⟩
  | 73 => ⟨S128x1x38, .i1⟩
  | 74 => ⟨S128x38, .i1⟩
  | 75 => ⟨S128x1x1x38, .i1⟩
  | 76 => ⟨S_, .f32⟩
  | 77 => ⟨S128x512x38x38, .i1⟩
  | 78 => ⟨S128x512x38x38, .f32⟩
  | 79 => ⟨S128x512x38x38, .f32⟩
  | 80 => ⟨S128x512x38x38, .f32⟩
  | 81 => ⟨S_, .f32⟩
  | 82 => ⟨S128x512x38, .f32⟩
  | 83 => ⟨S128x1x38, .i1⟩
  | 84 => ⟨S128x38, .i1⟩
  | 85 => ⟨S128x1x1x38, .i1⟩
  | 86 => ⟨S_, .f32⟩
  | 87 => ⟨S128x512x38x38, .i1⟩
  | 88 => ⟨S128x512x38x38, .f32⟩
  | 89 => ⟨S128x512x38x38, .f32⟩
  | 90 => ⟨S128x512x38x38, .f32⟩
  | 91 => ⟨S_, .f32⟩
  | 92 => ⟨S128x512x38, .f32⟩
  | 93 => ⟨S128x1x38, .i1⟩
  | 94 => ⟨S128x38, .i1⟩
  | 95 => ⟨S128x1x1x38, .i1⟩
  | 96 => ⟨S_, .f32⟩
  | 97 => ⟨S128x512x38x38, .i1⟩
  | 98 => ⟨S128x512x38x38, .f32⟩
  | 99 => ⟨S128x512x38x38, .f32⟩
  | 100 => ⟨S128x512x38x38, .f32⟩
  | 101 => ⟨S_, .f32⟩
  | 102 => ⟨S128x512x38, .f32⟩
  | 103 => ⟨S128x1x38, .i1⟩
  | 104 => ⟨S128x38, .i1⟩
  | 105 => ⟨S128x1x1x38, .i1⟩
  | 106 => ⟨S_, .f32⟩
  | 107 => ⟨S128x512x38x38, .i1⟩
  | 108 => ⟨S128x512x38x38, .f32⟩
  | 109 => ⟨S128x512x38x38, .f32⟩
  | 110 => ⟨S128x512x38x38, .f32⟩
  | 111 => ⟨S_, .f32⟩
  | 112 => ⟨S128x512x38, .f32⟩
  | 113 => ⟨S128x512x38x1, .f32⟩
  | 114 => ⟨S128x512x38x1, .f32⟩
  | 115 => ⟨S128x512x38x1, .f32⟩
  | 116 => ⟨S128x512x38x1, .f32⟩
  | 117 => ⟨S128x512x38x1, .f32⟩
  | 118 => ⟨S128x512x38x1, .f32⟩
  | 119 => ⟨S128x512x38x1, .f32⟩
  | 120 => ⟨S128x512x38x7, .f32⟩
  | 121 => ⟨S128x1x38, .i1⟩
  | 122 => ⟨S128x38, .i1⟩
  | 123 => ⟨S128x1x38x1, .i1⟩
  | 124 => ⟨S_, .f32⟩
  | 125 => ⟨S128x512x38x7, .i1⟩
  | 126 => ⟨S128x512x38x7, .f32⟩
  | 127 => ⟨S128x512x38x7, .f32⟩
  | _ => ⟨S1x512x38x38, .f32⟩

abbrev hbmTy0_2 (i : Nat) : BufTy := match i % 128 with
  | 0 => ⟨S_, .f32⟩
  | 1 => ⟨S128x512x7, .f32⟩
  | 2 => ⟨S128x1x38, .i1⟩
  | 3 => ⟨S128x38, .i1⟩
  | 4 => ⟨S128x1x38x1, .i1⟩
  | 5 => ⟨S_, .f32⟩
  | 6 => ⟨S128x512x38x7, .i1⟩
  | 7 => ⟨S128x512x38x7, .f32⟩
  | 8 => ⟨S128x512x38x7, .f32⟩
  | 9 => ⟨S_, .f32⟩
  | 10 => ⟨S128x512x7, .f32⟩
  | 11 => ⟨S128x1x38, .i1⟩
  | 12 => ⟨S128x38, .i1⟩
  | 13 => ⟨S128x1x38x1, .i1⟩
  | 14 => ⟨S_, .f32⟩
  | 15 => ⟨S128x512x38x7, .i1⟩
  | 16 => ⟨S128x512x38x7, .f32⟩
  | 17 => ⟨S128x512x38x7, .f32⟩
  | 18 => ⟨S_, .f32⟩
  | 19 => ⟨S128x512x7, .f32⟩
  | 20 => ⟨S128x1x38, .i1⟩
  | 21 => ⟨S128x38, .i1⟩
  | 22 => ⟨S128x1x38x1, .i1⟩
  | 23 => ⟨S_, .f32⟩
  | 24 => ⟨S128x512x38x7, .i1⟩
  | 25 => ⟨S128x512x38x7, .f32⟩
  | 26 => ⟨S128x512x38x7, .f32⟩
  | 27 => ⟨S_, .f32⟩
  | 28 => ⟨S128x512x7, .f32⟩
  | 29 => ⟨S128x1x38, .i1⟩
  | 30 => ⟨S128x38, .i1⟩
  | 31 => ⟨S128x1x38x1, .i1⟩
  | 32 => ⟨S_, .f32⟩
  | 33 => ⟨S128x512x38x7, .i1⟩
  | 34 => ⟨S128x512x38x7, .f32⟩
  | 35 => ⟨S128x512x38x7, .f32⟩
  | 36 => ⟨S_, .f32⟩
  | 37 => ⟨S128x512x7, .f32⟩
  | 38 => ⟨S128x1x38, .i1⟩
  | 39 => ⟨S128x38, .i1⟩
  | 40 => ⟨S128x1x38x1, .i1⟩
  | 41 => ⟨S_, .f32⟩
  | 42 => ⟨S128x512x38x7, .i1⟩
  | 43 => ⟨S128x512x38x7, .f32⟩
  | 44 => ⟨S128x512x38x7, .f32⟩
  | 45 => ⟨S_, .f32⟩
  | 46 => ⟨S128x512x7, .f32⟩
  | 47 => ⟨S128x1x38, .i1⟩
  | 48 => ⟨S128x38, .i1⟩
  | 49 => ⟨S128x1x38x1, .i1⟩
  | 50 => ⟨S_, .f32⟩
  | 51 => ⟨S128x512x38x7, .i1⟩
  | 52 => ⟨S128x512x38x7, .f32⟩
  | 53 => ⟨S128x512x38x7, .f32⟩
  | 54 => ⟨S_, .f32⟩
  | 55 => ⟨S128x512x7, .f32⟩
  | 56 => ⟨S128x512x1x7, .f32⟩
  | 57 => ⟨S128x512x1x7, .f32⟩
  | 58 => ⟨S128x512x1x7, .f32⟩
  | 59 => ⟨S128x512x1x7, .f32⟩
  | 60 => ⟨S128x512x1x7, .f32⟩
  | 61 => ⟨S128x512x1x7, .f32⟩
  | 62 => ⟨S128x512x1x7, .f32⟩
  | 63 => ⟨S128x512x7x7, .f32⟩
  | _ => ⟨S1x512x38x38, .f32⟩

abbrev hbmTy (i : Nat) : BufTy := match i / 128 with
  | 0 => hbmTy0_0 i
  | 1 => hbmTy0_1 i
  | 2 => hbmTy0_2 i
  | _ => ⟨S1x512x38x38, .f32⟩

abbrev bufTy : (tb : Table) → Fin (tcTables nBuf tb) → BufTy
  | .hbm, ⟨i, _⟩ => hbmTy i
  | _, _ => ⟨S1x512x38x38, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_3 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_6 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_c : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_0 : Ref sig .tc := ⟨.hbm, 118, rfl⟩
abbrev main_call2_v12 : Ref sig .tc := ⟨.hbm, 119, rfl⟩
abbrev main_call2_v13 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_c_7 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_c_8 : Ref sig .tc := ⟨.hbm, 133, rfl⟩
abbrev main_v73 : Ref sig .tc := ⟨.hbm, 134, rfl⟩
abbrev main_v74 : Ref sig .tc := ⟨.hbm, 135, rfl⟩
abbrev main_c_9 : Ref sig .tc := ⟨.hbm, 136, rfl⟩
abbrev main_v75 : Ref sig .tc := ⟨.hbm, 137, rfl⟩
abbrev main_v76 : Ref sig .tc := ⟨.hbm, 138, rfl⟩
abbrev main_c_10 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_c : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_c_0 : Ref sig .tc := ⟨.hbm, 153, rfl⟩
abbrev main_call3_v12 : Ref sig .tc := ⟨.hbm, 154, rfl⟩
abbrev main_call3_v13 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_11 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_v95 : Ref sig .tc := ⟨.hbm, 178, rfl⟩
abbrev main_cst_12 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_cst_13 : Ref sig .tc := ⟨.hbm, 184, rfl⟩
abbrev main_call5_v0 : Ref sig .tc := ⟨.hbm, 185, rfl⟩
abbrev main_call5_v1 : Ref sig .tc := ⟨.hbm, 186, rfl⟩
abbrev main_call5_v2 : Ref sig .tc := ⟨.hbm, 187, rfl⟩
abbrev main_v100 : Ref sig .tc := ⟨.hbm, 188, rfl⟩
abbrev main_cst_14 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_15 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_v105 : Ref sig .tc := ⟨.hbm, 198, rfl⟩
abbrev main_cst_16 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_cst_17 : Ref sig .tc := ⟨.hbm, 204, rfl⟩
abbrev main_call7_v0 : Ref sig .tc := ⟨.hbm, 205, rfl⟩
abbrev main_call7_v1 : Ref sig .tc := ⟨.hbm, 206, rfl⟩
abbrev main_call7_v2 : Ref sig .tc := ⟨.hbm, 207, rfl⟩
abbrev main_v110 : Ref sig .tc := ⟨.hbm, 208, rfl⟩
abbrev main_cst_18 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_19 : Ref sig .tc := ⟨.hbm, 214, rfl⟩
abbrev main_call8_v0 : Ref sig .tc := ⟨.hbm, 215, rfl⟩
abbrev main_call8_v1 : Ref sig .tc := ⟨.hbm, 216, rfl⟩
abbrev main_call8_v2 : Ref sig .tc := ⟨.hbm, 217, rfl⟩
abbrev main_v115 : Ref sig .tc := ⟨.hbm, 218, rfl⟩
abbrev main_cst_20 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_cst_21 : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_v120 : Ref sig .tc := ⟨.hbm, 228, rfl⟩
abbrev main_cst_22 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_cst_23 : Ref sig .tc := ⟨.hbm, 234, rfl⟩
abbrev main_call10_v0 : Ref sig .tc := ⟨.hbm, 235, rfl⟩
abbrev main_call10_v1 : Ref sig .tc := ⟨.hbm, 236, rfl⟩
abbrev main_call10_v2 : Ref sig .tc := ⟨.hbm, 237, rfl⟩
abbrev main_v125 : Ref sig .tc := ⟨.hbm, 238, rfl⟩
abbrev main_cst_24 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_cst_25 : Ref sig .tc := ⟨.hbm, 252, rfl⟩
abbrev main_call11_v0 : Ref sig .tc := ⟨.hbm, 253, rfl⟩
abbrev main_call11_v1 : Ref sig .tc := ⟨.hbm, 254, rfl⟩
abbrev main_v138 : Ref sig .tc := ⟨.hbm, 255, rfl⟩
abbrev main_cst_26 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_cst_27 : Ref sig .tc := ⟨.hbm, 261, rfl⟩
abbrev main_call12_v0 : Ref sig .tc := ⟨.hbm, 262, rfl⟩
abbrev main_call12_v1 : Ref sig .tc := ⟨.hbm, 263, rfl⟩
abbrev main_v143 : Ref sig .tc := ⟨.hbm, 264, rfl⟩
abbrev main_cst_28 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_cst_29 : Ref sig .tc := ⟨.hbm, 270, rfl⟩
abbrev main_call13_v0 : Ref sig .tc := ⟨.hbm, 271, rfl⟩
abbrev main_call13_v1 : Ref sig .tc := ⟨.hbm, 272, rfl⟩
abbrev main_v148 : Ref sig .tc := ⟨.hbm, 273, rfl⟩
abbrev main_cst_30 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_cst_31 : Ref sig .tc := ⟨.hbm, 279, rfl⟩
abbrev main_call14_v0 : Ref sig .tc := ⟨.hbm, 280, rfl⟩
abbrev main_call14_v1 : Ref sig .tc := ⟨.hbm, 281, rfl⟩
abbrev main_v153 : Ref sig .tc := ⟨.hbm, 282, rfl⟩
abbrev main_cst_32 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩
abbrev main_cst_33 : Ref sig .tc := ⟨.hbm, 288, rfl⟩
abbrev main_call15_v0 : Ref sig .tc := ⟨.hbm, 289, rfl⟩
abbrev main_call15_v1 : Ref sig .tc := ⟨.hbm, 290, rfl⟩
abbrev main_v158 : Ref sig .tc := ⟨.hbm, 291, rfl⟩
abbrev main_cst_34 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_cst_35 : Ref sig .tc := ⟨.hbm, 297, rfl⟩
abbrev main_call16_v0 : Ref sig .tc := ⟨.hbm, 298, rfl⟩
abbrev main_call16_v1 : Ref sig .tc := ⟨.hbm, 299, rfl⟩
abbrev main_v163 : Ref sig .tc := ⟨.hbm, 300, rfl⟩
abbrev main_cst_36 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_v167 : Ref sig .tc := ⟨.hbm, 305, rfl⟩
abbrev main_cst_37 : Ref sig .tc := ⟨.hbm, 306, rfl⟩
abbrev main_call17_v0 : Ref sig .tc := ⟨.hbm, 307, rfl⟩
abbrev main_call17_v1 : Ref sig .tc := ⟨.hbm, 308, rfl⟩
abbrev main_v168 : Ref sig .tc := ⟨.hbm, 309, rfl⟩
abbrev main_cst_38 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩

abbrev nD : Nat := 1
abbrev τ : Topo := Topo.v7x

variable {F : FTy → Type} [FloatOps F]

class Facts₀ : Prop where
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S128_S128x1_0 : S128.BroadcastsInDim S128x1 (![0] : Fin 1 → Fin S128x1.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S1x7 : S_.BroadcastsInDim S1x7 (![] : Fin 0 → Fin S1x7.rank)
  bcast_S38_S1x1x38_2 : S38.BroadcastsInDim S1x1x38 (![2] : Fin 1 → Fin S1x1x38.rank)
  bcast_S128x7_S128x7x1_0_1 : S128x7.BroadcastsInDim S128x7x1 (![0, 1] : Fin 2 → Fin S128x7x1.rank)
  bcast_S1x1x38_S128x7x38_0_1_2 : S1x1x38.BroadcastsInDim S128x7x38 (![0, 1, 2] : Fin 3 → Fin S128x7x38.rank)
  bcast_S128x7x1_S128x7x38_0_1_2 : S128x7x1.BroadcastsInDim S128x7x38 (![0, 1, 2] : Fin 3 → Fin S128x7x38.rank)
  slices_S128x7x38_S128x1x38_0_0_0 : S128x7x38.Slices ![0, 0, 0] S128x1x38
  shapeCasts_S128x1x38_S128x38 : S128x1x38.ShapeCasts S128x38
  bcast_S128x38_S128x1x1x38_0_3 : S128x38.BroadcastsInDim S128x1x1x38 (![0, 3] : Fin 2 → Fin S128x1x1x38.rank)
  bcast_S128x1x1x38_S128x512x38x38_0_1_2_3 : S128x1x1x38.BroadcastsInDim S128x512x38x38 (![0, 1, 2, 3] : Fin 4 → Fin S128x512x38x38.rank)
  bcast_S1x512x38x38_S128x512x38x38_0_1_2_3 : S1x512x38x38.BroadcastsInDim S128x512x38x38 (![0, 1, 2, 3] : Fin 4 → Fin S128x512x38x38.rank)
  bcast_S_S128x512x38x38 : S_.BroadcastsInDim S128x512x38x38 (![] : Fin 0 → Fin S128x512x38x38.rank)
  reducesTo_S128x512x38x38_S128x512x38_d3 : S128x512x38x38.ReducesTo [3] S128x512x38
  h_S_ : 0 < S_.numel
  slices_S128x7x38_S128x1x38_0_1_0 : S128x7x38.Slices ![0, 1, 0] S128x1x38
  slices_S128x7x38_S128x1x38_0_2_0 : S128x7x38.Slices ![0, 2, 0] S128x1x38
  slices_S128x7x38_S128x1x38_0_3_0 : S128x7x38.Slices ![0, 3, 0] S128x1x38
  slices_S128x7x38_S128x1x38_0_4_0 : S128x7x38.Slices ![0, 4, 0] S128x1x38
  slices_S128x7x38_S128x1x38_0_5_0 : S128x7x38.Slices ![0, 5, 0] S128x1x38
  slices_S128x7x38_S128x1x38_0_6_0 : S128x7x38.Slices ![0, 6, 0] S128x1x38
  bcast_S128x512x38_S128x512x38x1_0_1_2 : S128x512x38.BroadcastsInDim S128x512x38x1 (![0, 1, 2] : Fin 3 → Fin S128x512x38x1.rank)
  concatenates_S128x512x38x1_S128x512x38x1_S128x512x38x1_S128x512x38x1_S128x512x38x1_S128x512x38x1_S128x512x38x1_S128x512x38x7_d3 : Shape.Concatenates [S128x512x38x1, S128x512x38x1, S128x512x38x1, S128x512x38x1, S128x512x38x1, S128x512x38x1, S128x512x38x1] S128x512x38x7 3
  bcast_S128x38_S128x1x38x1_0_2 : S128x38.BroadcastsInDim S128x1x38x1 (![0, 2] : Fin 2 → Fin S128x1x38x1.rank)
  bcast_S128x1x38x1_S128x512x38x7_0_1_2_3 : S128x1x38x1.BroadcastsInDim S128x512x38x7 (![0, 1, 2, 3] : Fin 4 → Fin S128x512x38x7.rank)
  bcast_S_S128x512x38x7 : S_.BroadcastsInDim S128x512x38x7 (![] : Fin 0 → Fin S128x512x38x7.rank)
  reducesTo_S128x512x38x7_S128x512x7_d2 : S128x512x38x7.ReducesTo [2] S128x512x7
  bcast_S128x512x7_S128x512x1x7_0_1_3 : S128x512x7.BroadcastsInDim S128x512x1x7 (![0, 1, 3] : Fin 3 → Fin S128x512x1x7.rank)
  concatenates_S128x512x1x7_S128x512x1x7_S128x512x1x7_S128x512x1x7_S128x512x1x7_S128x512x1x7_S128x512x1x7_S128x512x7x7_d2 : Shape.Concatenates [S128x512x1x7, S128x512x1x7, S128x512x1x7, S128x512x1x7, S128x512x1x7, S128x512x1x7, S128x512x1x7] S128x512x7x7 2

variable [Facts₀]

class Facts : Prop extends Facts₀ where

variable [Facts]
-- ==== Proof.Spec.lean ====
/-
  Region-of-interest max pooling as one function of the feature map and two membership tables.

  For a box n, an output row ph and an output column pw, the pooled value of channel c is the maximum,
  over the rows h that belong to bin ph of box n and the columns w that belong to bin pw of box n, of
  the feature map at (c, h, w); an empty bin gives -∞. It is taken in two passes: first over the columns
  of each row, then over the rows.

  Two spellings of "restrict a maximum to a bin" occur. One adds a bias that is 0 inside the bin and -∞
  outside it before taking the maximum; the other selects the value inside the bin and -∞ outside it.
  On the extended reals a + 0 = a and a + (-∞) = -∞ for every a, so the two agree entry by entry
  (add_bias), whatever the entries are.
-/
import Idealize.ShloMosaic.PureOps.Ideal
import Idealize.ShloMosaic.PureOps.Ideal.Laws
import Idealize.ShloMosaic.Lib.ValueIdx

noncomputable section

namespace Cert.RoiPool

open Idealize.ShloMosaic Idealize.ShloMosaic.ValueIdx

/-- The feature map with its leading unit axis. -/
abbrev Sx : Shape := ⟨4, ![1, 512, 38, 38]⟩
/-- The feature map without it. -/
abbrev Sx2d : Shape := ⟨3, ![512, 38, 38]⟩
/-- A table over (box, bin, position). -/
abbrev Sbin : Shape := ⟨3, ![128, 7, 38]⟩
/-- The pooled output over (box, channel, row bin, column bin). -/
abbrev Sout : Shape := ⟨4, ![128, 512, 7, 7]⟩

/-- -∞, as both programs spell it. -/
abbrev negInf : EReal := Ideal.ofBits .f32 0xFF800000#32
/-- 0, as the bias spells it. -/
abbrev zeroF : EReal := Ideal.ofBits .f32 0x00000000#32

theorem negInf_eq : negInf = ⊥ := by simp [negInf, Ideal.ofBits, Ideal.ieee]
theorem zeroF_eq : zeroF = 0 := Ideal.ofBits_zero_f32

/-- The maximum of 38 values, from -∞. -/
def foldMax (f : Fin 38 → EReal) : EReal := (Finset.univ : Finset (Fin 38)).fold max negInf f

/-- The bias of a membership bit: 0 inside the bin, -∞ outside. -/
def biasOf (b : BitVec 1) : EReal := Scalar.select b zeroF negInf

/-- Pooling by additive biases, at explicit coordinates. -/
def pooledKAt (x : Sx2d.Idx → EReal) (bw bh : Sbin.Idx → EReal) (n : Fin 128) (c : Fin 512) (ph pw : Fin 7) : EReal :=
  foldMax fun h => foldMax (fun w => x (ix3 c h w) + bw (ix3 n pw w)) + bh (ix3 n ph h)

/-- Pooling by additive biases, as a whole array. -/
def pooledK (x : Sx2d.Idx → EReal) (bw bh : Sbin.Idx → EReal) : Sout.Idx → EReal :=
  fun i => pooledKAt x bw bh (i 0) (i 1) (i 2) (i 3)

/-- Pooling by selection, at explicit coordinates. -/
def pooledRAt (x : Sx.Idx → EReal) (mw mh : Sbin.Idx → BitVec 1) (n : Fin 128) (c : Fin 512) (ph pw : Fin 7) : EReal :=
  foldMax fun h => Scalar.select (mh (ix3 n ph h))
    (foldMax fun w => Scalar.select (mw (ix3 n pw w)) (x (ix4 0 c h w)) negInf) negInf

/-- Pooling by selection, as a whole array. -/
def pooledR (x : Sx.Idx → EReal) (mw mh : Sbin.Idx → BitVec 1) : Sout.Idx → EReal :=
  fun i => pooledRAt x mw mh (i 0) (i 1) (i 2) (i 3)

theorem pooledK_apply (x : Sx2d.Idx → EReal) (bw bh : Sbin.Idx → EReal) (n : Fin 128) (c : Fin 512) (ph pw : Fin 7) :
    pooledK x bw bh (ix4 n c ph pw) = pooledKAt x bw bh n c ph pw := rfl

theorem pooledR_apply (x : Sx.Idx → EReal) (mw mh : Sbin.Idx → BitVec 1) (n : Fin 128) (c : Fin 512) (ph pw : Fin 7) :
    pooledR x mw mh (ix4 n c ph pw) = pooledRAt x mw mh n c ph pw := rfl

/-- Adding the bias of a membership bit is selecting by it: a + 0 = a inside the bin, a + (-∞) = -∞ outside. -/
theorem add_bias (a : EReal) (b : BitVec 1) : a + biasOf b = Scalar.select b a negInf := by
  rcases BitVec.eq_zero_or_eq_one b with h | h <;> subst h
  · show a + Scalar.select 0#1 zeroF negInf = Scalar.select 0#1 a negInf
    rw [select_zero, select_zero, negInf_eq, EReal.add_bot]
  · show a + Scalar.select 1#1 zeroF negInf = Scalar.select 1#1 a negInf
    rw [select_one, select_one, zeroF_eq, add_zero]

/-- The two poolings agree when the biases are those of the membership bits and the two feature maps hold the
    same entries. -/
theorem pooledKAt_eq_pooledRAt (x2 : Sx2d.Idx → EReal) (x : Sx.Idx → EReal) (mw mh : Sbin.Idx → BitVec 1)
    (hx : ∀ (c : Fin 512) (h w : Fin 38), x2 (ix3 c h w) = x (ix4 0 c h w)) (n : Fin 128) (c : Fin 512) (ph pw : Fin 7) :
    pooledKAt x2 (fun j => biasOf (mw j)) (fun j => biasOf (mh j)) n c ph pw = pooledRAt x mw mh n c ph pw := by
  unfold pooledKAt pooledRAt
  simp only [add_bias, hx]

theorem pooledK_eq_pooledR (x2 : Sx2d.Idx → EReal) (x : Sx.Idx → EReal) (mw mh : Sbin.Idx → BitVec 1)
    (hx : ∀ (c : Fin 512) (h w : Fin 38), x2 (ix3 c h w) = x (ix4 0 c h w)) :
    pooledK x2 (fun j => biasOf (mw j)) (fun j => biasOf (mh j)) = pooledR x mw mh :=
  funext fun i => pooledKAt_eq_pooledRAt x2 x mw mh hx (i 0) (i 1) (i 2) (i 3)

end Cert.RoiPool

end
-- ==== Proof.KHost.lean ====
/-
  What the pooling region finds in its three input arrays, read off the host operations before it.

  The feature map arrives with its leading unit axis dropped: entry (c, h, w) is the argument's entry (0, c, h, w).
  Each bias table is the selection, by a membership bit, between the constants 0 and -∞: entry by entry it is the
  bias of that bit. The membership tables themselves stay folded here.
-/
import proofs.«123092_j51488067944902_1_alg».proof.Proof.Gen.KernelIdeal.Frame.Runs
import proofs.«123092_j51488067944902_1_alg».proof.Proof.Spec
import Idealize.ShloMosaic.Lib.StableHlo.Run
import Idealize.ShloMosaic.Lib.Pipeline.Value
import Idealize.ShloMosaic.Lib.ValueLayout

noncomputable section

namespace Cert.KernelIdeal.KHost

open Cert.KernelIdeal Cert.KernelIdeal.Gen Idealize.ShloMosaic Idealize.ShloMosaic.TcCoe Idealize.SL.Sem Idealize.ShloMosaic.StableHlo
open Cert.RoiPool Idealize.ShloMosaic.ValueIdx

variable (m : (ℓ : Loc nD τ sig) → Buf (Elt Ideal) ℓ)

set_option maxRecDepth 16384 in
set_option maxHeartbeats 4000000 in
/-- The column-bin bias table is, entry by entry, the bias of the column membership bit. -/
theorem biasW (c : Dev nD) :
    (V m c main_v93 : S128x7x38.Idx → EReal) = fun j => biasOf ((V m c main_v92 : S128x7x38.Idx → BitVec 1) j) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 16384 in
set_option maxHeartbeats 4000000 in
/-- The row-bin bias table is, entry by entry, the bias of the row membership bit. -/
theorem biasH (c : Dev nD) :
    (V m c main_v55 : S128x7x38.Idx → EReal) = fun j => biasOf ((V m c main_v54 : S128x7x38.Idx → BitVec 1) j) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 16384 in
set_option maxHeartbeats 4000000 in
/-- The feature map the region finds is the argument with its leading unit axis dropped. -/
theorem x2d (c : Dev nD) :
    (V m c main_v94 : S512x38x38.Idx → EReal)
      = shapeCast S512x38x38 (V m c main_arg0 : S1x512x38x38.Idx → EReal) shapeCasts_S1x512x38x38_S512x38x38 := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- Entry (ch, h, w) of the feature map the region finds is the argument's entry (0, ch, h, w). -/
theorem x2d_apply (c : Dev nD) (ch : Fin 512) (h w : Fin 38) :
    (V m c main_v94 : S512x38x38.Idx → EReal) (ix3 ch h w) = (V m c main_arg0 : S1x512x38x38.Idx → EReal) (ix4 0 ch h w) := by
  rw [x2d]
  exact shapeCast_1abc_abc_apply _ _ ch h w

end Cert.KernelIdeal.KHost

end
-- ==== Proof.RefOps.lean ====
/-
  The reference program's @main as lists of its host operations, in order: each operation of a called
  module-local function stands at its call site over that call's own buffers. The list is cut at the ends
  of the printed windows of @main, after the column-membership table (main_v91), and before and after each
  of the two joins: the table of per-row column maxima (main_v134) and the result (main_v177).
-/
import proofs.«123092_j51488067944902_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 92 operations of @main (a stretch of its window main_part0), in order. -/
abbrev ops_c0 : List (HloOp τ sig (Elt F)) :=
  [ StableHlo.nullary main_cst (constant S_ .f32 0x3D800000#32),
    StableHlo.unary main_cst main_v0 (broadcastInDim S128x4 ![] bcast_S_S128x4 : (⟨S_, .f32⟩ : BufTy).Contents (Elt F) → (⟨S128x4, .f32⟩ : BufTy).Contents (Elt F)),
    StableHlo.binary main_arg1 main_v0 main_v1 (mulf : (⟨S128x4, .f32⟩ : BufTy).Contents (Elt F) → (⟨S128x4, .f32⟩ : BufTy).Contents (Elt F) → (⟨S128x4, .f32⟩ : BufTy).Contents (Elt F)),
    StableHlo.unary main_v1 main_v2 (Host.floor : (⟨S128x4, .f32⟩ : BufTy).Contents (Elt F) → (⟨S128x4, .f32⟩ : BufTy).Contents (Elt F)),
    StableHlo.unary main_v2 main_v3 (fptosi 32 : (⟨S128x4, .f32⟩ : BufTy).Contents (Elt F) → (⟨S128x4, .i32⟩ : BufTy).Contents (Elt F)),
    StableHlo.unary main_v3 main_v4 ((extractStridedSlice S128x1 ![0, 0] · slices_S128x4_S128x1_0_0) : (⟨S128x4, .i32⟩ : BufTy).Contents (Elt F) → (⟨S128x1, .i32⟩ : BufTy).Contents (Elt F)),
    StableHlo.reshape main_v4 main_v5 rfl shapeCasts_S128x1_S128,
    StableHlo.unary main_v3 main_v6 ((extractStridedSlice S128x1 ![0, 1] · slices_S128x4_S128x1_0_1) : (⟨S128x4, .i32⟩ : BufTy).Contents (Elt F) → (⟨S128x1, .i32⟩ : BufTy).Contents (Elt F)),
    StableHlo.reshape main_v6 main_v7 rfl shapeCasts_S128x1_S128,
    StableHlo.unary main_v3 main_v8 ((extractStridedSlice S128x1 ![0, 2] · slices_S128x4_S128x1_0_2) : (⟨S128x4, .i32⟩ : BufTy).Contents (Elt F) → (⟨S128x1, .i32⟩ : BufTy).Contents (Elt F)),
    StableHlo.reshape main_v8 main_v9 rfl shapeCasts_S128x1_S128,
    StableHlo.unary main_v3 main_v10 ((extractStridedSlice S128x1 ![0, 3] · slices_S128x4_S128x1_0_3) : (⟨S128x4, .i32⟩ : BufTy).Contents (Elt F) → (⟨S128x1, .i32⟩ : BufTy).Contents (Elt F)),
    StableHlo.reshape main_v10 main_v11 rfl shapeCasts_S128x1_S128,
    StableHlo.binary main_v9 main_v5 main_v12 (subi : (⟨S128, .i32⟩ : BufTy).Contents (Elt F) → (⟨S128, .i32⟩ : BufTy).Contents (Elt F) → (⟨S128, .i32⟩ : BufTy).Contents (Elt F)),
    StableHlo.nullary main_c (constantI S_ 32 1#32),
    StableHlo.unary main_c main_v13 (broadcastInDim S128 ![] bcast_S_S128 : (⟨S_, .i32⟩ : BufTy).Contents (Elt F) → (⟨S128, .i32⟩ : BufTy).Contents (Elt F)),
    StableHlo.binary main_v12 main_v13 main_v14 (addi : (⟨S128, .i32⟩ : BufTy).Contents (Elt F) → (⟨S128, .i32⟩ : BufTy).Contents (Elt F) → (⟨S128, .i32⟩ : BufTy).Contents (Elt F)),
    StableHlo.binary main_v11 main_v7 main_v15 (subi : (⟨S128, .i32⟩ : BufTy).Contents (Elt F) → (⟨S128, .i32⟩ : BufTy).Contents (Elt F) → (⟨S128, .i32⟩ : BufTy).Contents (Elt F)),
    StableHlo.nullary main_c_0 (constantI S_ 32 1#32),
    StableHlo.unary main_c_0 main_v16 (broadcastInDim S128 ![] bcast_S_S128 : (⟨S_, .i32⟩ : BufTy).Contents (Elt F) → (⟨S128, .i32⟩ : BufTy).Contents (Elt F)),
    StableHlo.binary main_v15 main_v16 main_v17 (addi : (⟨S128, .i32⟩ : BufTy).Contents (Elt F) → (⟨S128, .i32⟩ : BufTy).Contents (Elt F) → (⟨S128, .i32⟩ : BufTy).Contents (Elt F)),
    StableHlo.nullary main_v18 (iotaInDim S7 32 0),
    StableHlo.unary main_v5 main_v19 (broadcastInDim S128x1 ![0] bcast_S128_S128x1_0 : (⟨S128, .i32⟩ : BufTy).Contents (Elt F) → (⟨S128x1, .i32⟩ : BufTy).Contents (Elt F)),
    StableHlo.unary main_v18 main_v20 (broadcastInDim S1x7 ![1] bcast_S7_S1x7_1 : (⟨S7, .i32⟩ : BufTy).Contents (Elt F) → (⟨S1x7, .i32⟩ : BufTy).Contents (Elt F)),
    StableHlo.unary main_v14 main_v21 (broadcastInDim S128x1 ![0] bcast_S128_S128x1_0 : (⟨S128, .i32⟩ : BufTy).Contents (Elt F) → (⟨S128x1, .i32⟩ : BufTy).Contents (Elt F)),
    StableHlo.unary main_v20 main_v22 (broadcastInDim S128x7 ![0, 1] bcast_S1x7_S128x7_0_1 : (⟨S1x7, .i32⟩ : BufTy).Contents (Elt F) → (⟨S128x7, .i32⟩ : BufTy).Contents (Elt F)),
    StableHlo.unary main_v21 main_v23 (broadcastInDim S128x7 ![0, 1] bcast_S128x1_S128x7_0_1 : (⟨S128x1, .i32⟩ : BufTy).Contents (Elt F) → (⟨S128x7, .i32⟩ : BufTy).Contents (Elt F)),
    StableHlo.binary main_v22 main_v23 main_v24 (muli : (⟨S128x7, .i32⟩ : BufTy).Contents (Elt F) → (⟨S128x7, .i32⟩ : BufTy).Contents (Elt F) → (⟨S128x7, .i32⟩ : BufTy).Contents (Elt F)),
    StableHlo.nullary main_c_1 (constantI S_ 32 7#32),
    StableHlo.unary main_c_1 main_call0_v0 (id : (⟨S_, .i32⟩ : BufTy).Contents (Elt F) → (⟨S_, .i32⟩ : BufTy).Contents (Elt F)),
    StableHlo.unary main_call0_v0 main_call0_v1 (broadcastInDim S128x7 ![] bcast_S_S128x7 : (⟨S_, .i32⟩ : BufTy).Contents (Elt F) → (⟨S128x7, .i32⟩ : BufTy).Contents (Elt F)),
    StableHlo.binary main_v24 main_call0_v1 main_call0_v2 (Host.divsi : (⟨S128x7, .i32⟩ : BufTy).Contents (Elt F) → (⟨S128x7, .i32⟩ : BufTy).Contents (Elt F) → (⟨S128x7, .i32⟩ : BufTy).Contents (Elt F)),
    StableHlo.unary main_v24 main_call0_v3 (signi : (⟨S128x7, .i32⟩ : BufTy).Contents (Elt F) → (⟨S128x7, .i32⟩ : BufTy).Contents (Elt F)),
    StableHlo.unary main_call0_v0 main_call0_v4 (signi : (⟨S_, .i32⟩ : BufTy).Contents (Elt F) → (⟨S_, .i32⟩ : BufTy).Contents (Elt F)),
    StableHlo.unary main_call0_v4 main_call0_v5 (broadcastInDim S128x7 ![] bcast_S_S128x7 : (⟨S_, .i32⟩ : BufTy).Contents (Elt F) → (⟨S128x7, .i32⟩ : BufTy).Contents (Elt F)),
    StableHlo.binary main_call0_v3 main_call0_v5 main_call0_v6 (cmpi .ne : (⟨S128x7, .i32⟩ : BufTy).Contents (Elt F) → (⟨S128x7, .i32⟩ : BufTy).Contents (Elt F) → (⟨S128x7, .i1⟩ : BufTy).Contents (Elt F)),
    StableHlo.unary main_call0_v0 main_call0_v7 (broadcastInDim S128x7 ![] bcast_S_S128x7 : (⟨S_, .i32⟩ : BufTy).Contents (Elt F) → (⟨S128x7, .i32⟩ : BufTy).Contents (Elt F)),
    StableHlo.binary main_v24 main_call0_v7 main_call0_v8 (Host.remsi : (⟨S128x7, .i32⟩ : BufTy).Contents (Elt F) → (⟨S128x7, .i32⟩ : BufTy).Contents (Elt F) → (⟨S128x7, .i32⟩ : BufTy).Contents (Elt F)),
    StableHlo.nullary main_call0_c (constantI S_ 32 0#32),
    StableHlo.unary main_call0_c main_call0_v9 (broadcastInDim S128x7 ![] bcast_S_S128x7 : (⟨S_, .i32⟩ : BufTy).Contents (Elt F) → (⟨S128x7, .i32⟩ : BufTy).Contents (Elt F)),
    StableHlo.binary main_call0_v8 main_call0_v9 main_call0_v10 (cmpi .ne : (⟨S128x7, .i32⟩ : BufTy).Contents (Elt F) → (⟨S128x7, .i32⟩ : BufTy).Contents (Elt F) → (⟨S128x7, .i1⟩ : BufTy).Contents (Elt F)),
    StableHlo.binary main_call0_v6 main_call0_v10 main_call0_v11 (andi : (⟨S128x7, .i1⟩ : BufTy).Contents (Elt F) → (⟨S128x7, .i1⟩ : BufTy).Contents (Elt F) → (⟨S128x7, .i1⟩ : BufTy).Contents (Elt F)),
    StableHlo.nullary main_call0_c_0 (constantI S_ 32 1#32),
    StableHlo.unary main_call0_c_0 main_call0_v12 (broadcastInDim S128x7 ![] bcast_S_S128x7 : (⟨S_, .i32⟩ : BufTy).Contents (Elt F) → (⟨S128x7, .i32⟩ : BufTy).Contents (Elt F)),
    StableHlo.binary main_call0_v2 main_call0_v12 main_call0_v13 (subi : (⟨S128x7, .i32⟩ : BufTy).Contents (Elt F) → (⟨S128x7, .i32⟩ : BufTy).Contents (Elt F) → (⟨S128x7, .i32⟩ : BufTy).Contents (Elt F)),
    StableHlo.ternary main_call0_v11 main_call0_v13 main_call0_v2 main_v25 (select : (⟨S128x7, .i1⟩ : BufTy).Contents (Elt F) → (⟨S128x7, .i32⟩ : BufTy).Contents (Elt F) → (⟨S128x7, .i32⟩ : BufTy).Contents (Elt F) → (⟨S128x7, .i32⟩ : BufTy).Contents (Elt F)),
    StableHlo.unary main_v19 main_v26 (broadcastInDim S128x7 ![0, 1] bcast_S128x1_S128x7_0_1 : (⟨S128x1, .i32⟩ : BufTy).Contents (Elt F) → (⟨S128x7, .i32⟩ : BufTy).Contents (Elt F)),
    StableHlo.binary main_v26 main_v25 main_v27 (addi : (⟨S128x7, .i32⟩ : BufTy).Contents (Elt F) → (⟨S128x7, .i32⟩ : BufTy).Contents (Elt F) → (⟨S128x7, .i32⟩ : BufTy).Contents (Elt F)),
    StableHlo.unary main_v5 main_v28 (broadcastInDim S128x1 ![0] bcast_S128_S128x1_0 : (⟨S128, .i32⟩ : BufTy).Contents (Elt F) → (⟨S128x1, .i32⟩ : BufTy).Contents (Elt F)),
    StableHlo.unary main_v18 main_v29 (broadcastInDim S1x7 ![1] bcast_S7_S1x7_1 : (⟨S7, .i32⟩ : BufTy).Contents (Elt F) → (⟨S1x7, .i32⟩ : BufTy).Contents (Elt F)),
    StableHlo.nullary main_c_2 (constantI S_ 32 1#32),
    StableHlo.unary main_c_2 main_v30 (broadcastInDim S1x7 ![] bcast_S_S1x7 : (⟨S_, .i32⟩ : BufTy).Contents (Elt F) → (⟨S1x7, .i32⟩ : BufTy).Contents (Elt F)),
    StableHlo.binary main_v29 main_v30 main_v31 (addi : (⟨S1x7, .i32⟩ : BufTy).Contents (Elt F) → (⟨S1x7, .i32⟩ : BufTy).Contents (Elt F) → (⟨S1x7, .i32⟩ : BufTy).Contents (Elt F)),
    StableHlo.unary main_v14 main_v32 (broadcastInDim S128x1 ![0] bcast_S128_S128x1_0 : (⟨S128, .i32⟩ : BufTy).Contents (Elt F) → (⟨S128x1, .i32⟩ : BufTy).Contents (Elt F)),
    StableHlo.unary main_v31 main_v33 (broadcastInDim S128x7 ![0, 1] bcast_S1x7_S128x7_0_1 : (⟨S1x7, .i32⟩ : BufTy).Contents (Elt F) → (⟨S128x7, .i32⟩ : BufTy).Contents (Elt F)),
    StableHlo.unary main_v32 main_v34 (broadcastInDim S128x7 ![0, 1] bcast_S128x1_S128x7_0_1 : (⟨S128x1, .i32⟩ : BufTy).Contents (Elt F) → (⟨S128x7, .i32⟩ : BufTy).Contents (Elt F)),
    StableHlo.binary main_v33 main_v34 main_v35 (muli : (⟨S128x7, .i32⟩ : BufTy).Contents (Elt F) → (⟨S128x7, .i32⟩ : BufTy).Contents (Elt F) → (⟨S128x7, .i32⟩ : BufTy).Contents (Elt F)),
    StableHlo.nullary main_c_3 (constantI S_ 32 7#32),
    StableHlo.unary main_c_3 main_v36 (broadcastInDim S128x7 ![] bcast_S_S128x7 : (⟨S_, .i32⟩ : BufTy).Contents (Elt F) → (⟨S128x7, .i32⟩ : BufTy).Contents (Elt F)),
    StableHlo.binary main_v35 main_v36 main_v37 (addi : (⟨S128x7, .i32⟩ : BufTy).Contents (Elt F) → (⟨S128x7, .i32⟩ : BufTy).Contents (Elt F) → (⟨S128x7, .i32⟩ : BufTy).Contents (Elt F)),
    StableHlo.nullary main_c_4 (constantI S_ 32 1#32),
    StableHlo.unary main_c_4 main_v38 (broadcastInDim S128x7 ![] bcast_S_S128x7 : (⟨S_, .i32⟩ : BufTy).Contents (Elt F) → (⟨S128x7, .i32⟩ : BufTy).Contents (Elt F)),
    StableHlo.binary main_v37 main_v38 main_v39 (subi : (⟨S128x7, .i32⟩ : BufTy).Contents (Elt F) → (⟨S128x7, .i32⟩ : BufTy).Contents (Elt F) → (⟨S128x7, .i32⟩ : BufTy).Contents (Elt F)),
    StableHlo.nullary main_c_5 (constantI S_ 32 7#32),
    StableHlo.unary main_c_5 main_call1_v0 (id : (⟨S_, .i32⟩ : BufTy).Contents (Elt F) → (⟨S_, .i32⟩ : BufTy).Contents (Elt F)),
    StableHlo.unary main_call1_v0 main_call1_v1 (broadcastInDim S128x7 ![] bcast_S_S128x7 : (⟨S_, .i32⟩ : BufTy).Contents (Elt F) → (⟨S128x7, .i32⟩ : BufTy).Contents (Elt F)),
    StableHlo.binary main_v39 main_call1_v1 main_call1_v2 (Host.divsi : (⟨S128x7, .i32⟩ : BufTy).Contents (Elt F) → (⟨S128x7, .i32⟩ : BufTy).Contents (Elt F) → (⟨S128x7, .i32⟩ : BufTy).Contents (Elt F)),
    StableHlo.unary main_v39 main_call1_v3 (signi : (⟨S128x7, .i32⟩ : BufTy).Contents (Elt F) → (⟨S128x7, .i32⟩ : BufTy).Contents (Elt F)),
    StableHlo.unary main_call1_v0 main_call1_v4 (signi : (⟨S_, .i32⟩ : BufTy).Contents (Elt F) → (⟨S_, .i32⟩ : BufTy).Contents (Elt F)),
    StableHlo.unary main_call1_v4 main_call1_v5 (broadcastInDim S128x7 ![] bcast_S_S128x7 : (⟨S_, .i32⟩ : BufTy).Contents (Elt F) → (⟨S128x7, .i32⟩ : BufTy).Contents (Elt F)),
    StableHlo.binary main_call1_v3 main_call1_v5 main_call1_v6 (cmpi .ne : (⟨S128x7, .i32⟩ : BufTy).Contents (Elt F) → (⟨S128x7, .i32⟩ : BufTy).Contents (Elt F) → (⟨S128x7, .i1⟩ : BufTy).Contents (Elt F)),
    StableHlo.unary main_call1_v0 main_call1_v7 (broadcastInDim S128x7 ![] bcast_S_S128x7 : (⟨S_, .i32⟩ : BufTy).Contents (Elt F) → (⟨S128x7, .i32⟩ : BufTy).Contents (Elt F)),
    StableHlo.binary main_v39 main_call1_v7 main_call1_v8 (Host.remsi : (⟨S128x7, .i32⟩ : BufTy).Contents (Elt F) → (⟨S128x7, .i32⟩ : BufTy).Contents (Elt F) → (⟨S128x7, .i32⟩ : BufTy).Contents (Elt F)),
    StableHlo.nullary main_call1_c (constantI S_ 32 0#32),
    StableHlo.unary main_call1_c main_call1_v9 (broadcastInDim S128x7 ![] bcast_S_S128x7 : (⟨S_, .i32⟩ : BufTy).Contents (Elt F) → (⟨S128x7, .i32⟩ : BufTy).Contents (Elt F)),
    StableHlo.binary main_call1_v8 main_call1_v9 main_call1_v10 (cmpi .ne : (⟨S128x7, .i32⟩ : BufTy).Contents (Elt F) → (⟨S128x7, .i32⟩ : BufTy).Contents (Elt F) → (⟨S128x7, .i1⟩ : BufTy).Contents (Elt F)),
    StableHlo.binary main_call1_v6 main_call1_v10 main_call1_v11 (andi : (⟨S128x7, .i1⟩ : BufTy).Contents (Elt F) → (⟨S128x7, .i1⟩ : BufTy).Contents (Elt F) → (⟨S128x7, .i1⟩ : BufTy).Contents (Elt F)),
    StableHlo.nullary main_call1_c_0 (constantI S_ 32 1#32),
    StableHlo.unary main_call1_c_0 main_call1_v12 (broadcastInDim S128x7 ![] bcast_S_S128x7 : (⟨S_, .i32⟩ : BufTy).Contents (Elt F) → (⟨S128x7, .i32⟩ : BufTy).Contents (Elt F)),
    StableHlo.binary main_call1_v2 main_call1_v12 main_call1_v13 (subi : (⟨S128x7, .i32⟩ : BufTy).Contents (Elt F) → (⟨S128x7, .i32⟩ : BufTy).Contents (Elt F) → (⟨S128x7, .i32⟩ : BufTy).Contents (Elt F)),
    StableHlo.ternary main_call1_v11 main_call1_v13 main_call1_v2 main_v40 (select : (⟨S128x7, .i1⟩ : BufTy).Contents (Elt F) → (⟨S128x7, .i32⟩ : BufTy).Contents (Elt F) → (⟨S128x7, .i32⟩ : BufTy).Contents (Elt F) → (⟨S128x7, .i32⟩ : BufTy).Contents (Elt F)),
    StableHlo.unary main_v28 main_v41 (broadcastInDim S128x7 ![0, 1] bcast_S128x1_S128x7_0_1 : (⟨S128x1, .i32⟩ : BufTy).Contents (Elt F) → (⟨S128x7, .i32⟩ : BufTy).Contents (Elt F)),
    StableHlo.binary main_v41 main_v40 main_v42 (addi : (⟨S128x7, .i32⟩ : BufTy).Contents (Elt F) → (⟨S128x7, .i32⟩ : BufTy).Contents (Elt F) → (⟨S128x7, .i32⟩ : BufTy).Contents (Elt F)),
    StableHlo.nullary main_v43 (iotaInDim S38 32 0),
    StableHlo.unary main_v43 main_v44 (broadcastInDim S1x1x38 ![2] bcast_S38_S1x1x38_2 : (⟨S38, .i32⟩ : BufTy).Contents (Elt F) → (⟨S1x1x38, .i32⟩ : BufTy).Contents (Elt F)),
    StableHlo.unary main_v27 main_v45 (broadcastInDim S128x7x1 ![0, 1] bcast_S128x7_S128x7x1_0_1 : (⟨S128x7, .i32⟩ : BufTy).Contents (Elt F) → (⟨S128x7x1, .i32⟩ : BufTy).Contents (Elt F)),
    StableHlo.unary main_v44 main_v46 (broadcastInDim S128x7x38 ![0, 1, 2] bcast_S1x1x38_S128x7x38_0_1_2 : (⟨S1x1x38, .i32⟩ : BufTy).Contents (Elt F) → (⟨S128x7x38, .i32⟩ : BufTy).Contents (Elt F)),
    StableHlo.unary main_v45 main_v47 (broadcastInDim S128x7x38 ![0, 1, 2] bcast_S128x7x1_S128x7x38_0_1_2 : (⟨S128x7x1, .i32⟩ : BufTy).Contents (Elt F) → (⟨S128x7x38, .i32⟩ : BufTy).Contents (Elt F)),
    StableHlo.binary main_v46 main_v47 main_v48 (cmpi .sge : (⟨S128x7x38, .i32⟩ : BufTy).Contents (Elt F) → (⟨S128x7x38, .i32⟩ : BufTy).Contents (Elt F) → (⟨S128x7x38, .i1⟩ : BufTy).Contents (Elt F)),
    StableHlo.unary main_v43 main_v49 (broadcastInDim S1x1x38 ![2] bcast_S38_S1x1x38_2 : (⟨S38, .i32⟩ : BufTy).Contents (Elt F) → (⟨S1x1x38, .i32⟩ : BufTy).Contents (Elt F)),
    StableHlo.unary main_v42 main_v50 (broadcastInDim S128x7x1 ![0, 1] bcast_S128x7_S128x7x1_0_1 : (⟨S128x7, .i32⟩ : BufTy).Contents (Elt F) → (⟨S128x7x1, .i32⟩ : BufTy).Contents (Elt F)),
    StableHlo.unary main_v49 main_v51 (broadcastInDim S128x7x38 ![0, 1, 2] bcast_S1x1x38_S128x7x38_0_1_2 : (⟨S1x1x38, .i32⟩ : BufTy).Contents (Elt F) → (⟨S128x7x38, .i32⟩ : BufTy).Contents (Elt F)) ]
set_option maxRecDepth 8192 in
theorem ops_c0_sub : (ops_c0 : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub ..⟩

/-- 77 operations of @main (a stretch of its window main_part1), in order. -/
abbrev ops_c1 : List (HloOp τ sig (Elt F)) :=
  [ StableHlo.unary main_v50 main_v52 (broadcastInDim S128x7x38 ![0, 1, 2] bcast_S128x7x1_S128x7x38_0_1_2 : (⟨S128x7x1, .i32⟩ : BufTy).Contents (Elt F) → (⟨S128x7x38, .i32⟩ : BufTy).Contents (Elt F)),
    StableHlo.binary main_v51 main_v52 main_v53 (cmpi .slt : (⟨S128x7x38, .i32⟩ : BufTy).Contents (Elt F) → (⟨S128x7x38, .i32⟩ : BufTy).Contents (Elt F) → (⟨S128x7x38, .i1⟩ : BufTy).Contents (Elt F)),
    StableHlo.binary main_v48 main_v53 main_v54 (andi : (⟨S128x7x38, .i1⟩ : BufTy).Contents (Elt F) → (⟨S128x7x38, .i1⟩ : BufTy).Contents (Elt F) → (⟨S128x7x38, .i1⟩ : BufTy).Contents (Elt F)),
    StableHlo.nullary main_v55 (iotaInDim S7 32 0),
    StableHlo.unary main_v7 main_v56 (broadcastInDim S128x1 ![0] bcast_S128_S128x1_0 : (⟨S128, .i32⟩ : BufTy).Contents (Elt F) → (⟨S128x1, .i32⟩ : BufTy).Contents (Elt F)),
    StableHlo.unary main_v55 main_v57 (broadcastInDim S1x7 ![1] bcast_S7_S1x7_1 : (⟨S7, .i32⟩ : BufTy).Contents (Elt F) → (⟨S1x7, .i32⟩ : BufTy).Contents (Elt F)),
    StableHlo.unary main_v17 main_v58 (broadcastInDim S128x1 ![0] bcast_S128_S128x1_0 : (⟨S128, .i32⟩ : BufTy).Contents (Elt F) → (⟨S128x1, .i32⟩ : BufTy).Contents (Elt F)),
    StableHlo.unary main_v57 main_v59 (broadcastInDim S128x7 ![0, 1] bcast_S1x7_S128x7_0_1 : (⟨S1x7, .i32⟩ : BufTy).Contents (Elt F) → (⟨S128x7, .i32⟩ : BufTy).Contents (Elt F)),
    StableHlo.unary main_v58 main_v60 (broadcastInDim S128x7 ![0, 1] bcast_S128x1_S128x7_0_1 : (⟨S128x1, .i32⟩ : BufTy).Contents (Elt F) → (⟨S128x7, .i32⟩ : BufTy).Contents (Elt F)),
    StableHlo.binary main_v59 main_v60 main_v61 (muli : (⟨S128x7, .i32⟩ : BufTy).Contents (Elt F) → (⟨S128x7, .i32⟩ : BufTy).Contents (Elt F) → (⟨S128x7, .i32⟩ : BufTy).Contents (Elt F)),
    StableHlo.nullary main_c_6 (constantI S_ 32 7#32),
    StableHlo.unary main_c_6 main_call2_v0 (id : (⟨S_, .i32⟩ : BufTy).Contents (Elt F) → (⟨S_, .i32⟩ : BufTy).Contents (Elt F)),
    StableHlo.unary main_call2_v0 main_call2_v1 (broadcastInDim S128x7 ![] bcast_S_S128x7 : (⟨S_, .i32⟩ : BufTy).Contents (Elt F) → (⟨S128x7, .i32⟩ : BufTy).Contents (Elt F)),
    StableHlo.binary main_v61 main_call2_v1 main_call2_v2 (Host.divsi : (⟨S128x7, .i32⟩ : BufTy).Contents (Elt F) → (⟨S128x7, .i32⟩ : BufTy).Contents (Elt F) → (⟨S128x7, .i32⟩ : BufTy).Contents (Elt F)),
    StableHlo.unary main_v61 main_call2_v3 (signi : (⟨S128x7, .i32⟩ : BufTy).Contents (Elt F) → (⟨S128x7, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 (broadcastInDim S128x7 ![] bcast_S_S128x7 : (⟨S_, .i32⟩ : BufTy).Contents (Elt F) → (⟨S128x7, .i32⟩ : BufTy).Contents (Elt F)),
    StableHlo.binary main_call2_v3 main_call2_v5 main_call2_v6 (cmpi .ne : (⟨S128x7, .i32⟩ : BufTy).Contents (Elt F) → (⟨S128x7, .i32⟩ : BufTy).Contents (Elt F) → (⟨S128x7, .i1⟩ : BufTy).Contents (Elt F)),
    StableHlo.unary main_call2_v0 main_call2_v7 (broadcastInDim S128x7 ![] bcast_S_S128x7 : (⟨S_, .i32⟩ : BufTy).Contents (Elt F) → (⟨S128x7, .i32⟩ : BufTy).Contents (Elt F)),
    StableHlo.binary main_v61 main_call2_v7 main_call2_v8 (Host.remsi : (⟨S128x7, .i32⟩ : BufTy).Contents (Elt F) → (⟨S128x7, .i32⟩ : BufTy).Contents (Elt F) → (⟨S128x7, .i32⟩ : BufTy).Contents (Elt F)),
    StableHlo.nullary main_call2_c (constantI S_ 32 0#32),
    StableHlo.unary main_call2_c main_call2_v9 (broadcastInDim S128x7 ![] bcast_S_S128x7 : (⟨S_, .i32⟩ : BufTy).Contents (Elt F) → (⟨S128x7, .i32⟩ : BufTy).Contents (Elt F)),
    StableHlo.binary main_call2_v8 main_call2_v9 main_call2_v10 (cmpi .ne : (⟨S128x7, .i32⟩ : BufTy).Contents (Elt F) → (⟨S128x7, .i32⟩ : BufTy).Contents (Elt F) → (⟨S128x7, .i1⟩ : BufTy).Contents (Elt F)),
    StableHlo.binary main_call2_v6 main_call2_v10 main_call2_v11 (andi : (⟨S128x7, .i1⟩ : BufTy).Contents (Elt F) → (⟨S128x7, .i1⟩ : BufTy).Contents (Elt F) → (⟨S128x7, .i1⟩ : BufTy).Contents (Elt F)),
    StableHlo.nullary main_call2_c_0 (constantI S_ 32 1#32),
    StableHlo.unary main_call2_c_0 main_call2_v12 (broadcastInDim S128x7 ![] bcast_S_S128x7 : (⟨S_, .i32⟩ : BufTy).Contents (Elt F) → (⟨S128x7, .i32⟩ : BufTy).Contents (Elt F)),
    StableHlo.binary main_call2_v2 main_call2_v12 main_call2_v13 (subi : (⟨S128x7, .i32⟩ : BufTy).Contents (Elt F) → (⟨S128x7, .i32⟩ : BufTy).Contents (Elt F) → (⟨S128x7, .i32⟩ : BufTy).Contents (Elt F)),
    StableHlo.ternary main_call2_v11 main_call2_v13 main_call2_v2 main_v62 (select : (⟨S128x7, .i1⟩ : BufTy).Contents (Elt F) → (⟨S128x7, .i32⟩ : BufTy).Contents (Elt F) → (⟨S128x7, .i32⟩ : BufTy).Contents (Elt F) → (⟨S128x7, .i32⟩ : BufTy).Contents (Elt F)),
    StableHlo.unary main_v56 main_v63 (broadcastInDim S128x7 ![0, 1] bcast_S128x1_S128x7_0_1 : (⟨S128x1, .i32⟩ : BufTy).Contents (Elt F) → (⟨S128x7, .i32⟩ : BufTy).Contents (Elt F)),
    StableHlo.binary main_v63 main_v62 main_v64 (addi : (⟨S128x7, .i32⟩ : BufTy).Contents (Elt F) → (⟨S128x7, .i32⟩ : BufTy).Contents (Elt F) → (⟨S128x7, .i32⟩ : BufTy).Contents (Elt F)),
    StableHlo.unary main_v7 main_v65 (broadcastInDim S128x1 ![0] bcast_S128_S128x1_0 : (⟨S128, .i32⟩ : BufTy).Contents (Elt F) → (⟨S128x1, .i32⟩ : BufTy).Contents (Elt F)),
    StableHlo.unary main_v55 main_v66 (broadcastInDim S1x7 ![1] bcast_S7_S1x7_1 : (⟨S7, .i32⟩ : BufTy).Contents (Elt F) → (⟨S1x7, .i32⟩ : BufTy).Contents (Elt F)),
    StableHlo.nullary main_c_7 (constantI S_ 32 1#32),
    StableHlo.unary main_c_7 main_v67 (broadcastInDim S1x7 ![] bcast_S_S1x7 : (⟨S_, .i32⟩ : BufTy).Contents (Elt F) → (⟨S1x7, .i32⟩ : BufTy).Contents (Elt F)),
    StableHlo.binary main_v66 main_v67 main_v68 (addi : (⟨S1x7, .i32⟩ : BufTy).Contents (Elt F) → (⟨S1x7, .i32⟩ : BufTy).Contents (Elt F) → (⟨S1x7, .i32⟩ : BufTy).Contents (Elt F)),
    StableHlo.unary main_v17 main_v69 (broadcastInDim S128x1 ![0] bcast_S128_S128x1_0 : (⟨S128, .i32⟩ : BufTy).Contents (Elt F) → (⟨S128x1, .i32⟩ : BufTy).Contents (Elt F)),
    StableHlo.unary main_v68 main_v70 (broadcastInDim S128x7 ![0, 1] bcast_S1x7_S128x7_0_1 : (⟨S1x7, .i32⟩ : BufTy).Contents (Elt F) → (⟨S128x7, .i32⟩ : BufTy).Contents (Elt F)),
    StableHlo.unary main_v69 main_v71 (broadcastInDim S128x7 ![0, 1] bcast_S128x1_S128x7_0_1 : (⟨S128x1, .i32⟩ : BufTy).Contents (Elt F) → (⟨S128x7, .i32⟩ : BufTy).Contents (Elt F)),
    StableHlo.binary main_v70 main_v71 main_v72 (muli : (⟨S128x7, .i32⟩ : BufTy).Contents (Elt F) → (⟨S128x7, .i32⟩ : BufTy).Contents (Elt F) → (⟨S128x7, .i32⟩ : BufTy).Contents (Elt F)),
    StableHlo.nullary main_c_8 (constantI S_ 32 7#32),
    StableHlo.unary main_c_8 main_v73 (broadcastInDim S128x7 ![] bcast_S_S128x7 : (⟨S_, .i32⟩ : BufTy).Contents (Elt F) → (⟨S128x7, .i32⟩ : BufTy).Contents (Elt F)),
    StableHlo.binary main_v72 main_v73 main_v74 (addi : (⟨S128x7, .i32⟩ : BufTy).Contents (Elt F) → (⟨S128x7, .i32⟩ : BufTy).Contents (Elt F) → (⟨S128x7, .i32⟩ : BufTy).Contents (Elt F)),
    StableHlo.nullary main_c_9 (constantI S_ 32 1#32),
    StableHlo.unary main_c_9 main_v75 (broadcastInDim S128x7 ![] bcast_S_S128x7 : (⟨S_, .i32⟩ : BufTy).Contents (Elt F) → (⟨S128x7, .i32⟩ : BufTy).Contents (Elt F)),
    StableHlo.binary main_v74 main_v75 main_v76 (subi : (⟨S128x7, .i32⟩ : BufTy).Contents (Elt F) → (⟨S128x7, .i32⟩ : BufTy).Contents (Elt F) → (⟨S128x7, .i32⟩ : BufTy).Contents (Elt F)),
    StableHlo.nullary main_c_10 (constantI S_ 32 7#32),
    StableHlo.unary main_c_10 main_call3_v0 (id : (⟨S_, .i32⟩ : BufTy).Contents (Elt F) → (⟨S_, .i32⟩ : BufTy).Contents (Elt F)),
    StableHlo.unary main_call3_v0 main_call3_v1 (broadcastInDim S128x7 ![] bcast_S_S128x7 : (⟨S_, .i32⟩ : BufTy).Contents (Elt F) → (⟨S128x7, .i32⟩ : BufTy).Contents (Elt F)),
    StableHlo.binary main_v76 main_call3_v1 main_call3_v2 (Host.divsi : (⟨S128x7, .i32⟩ : BufTy).Contents (Elt F) → (⟨S128x7, .i32⟩ : BufTy).Contents (Elt F) → (⟨S128x7, .i32⟩ : BufTy).Contents (Elt F)),
    StableHlo.unary main_v76 main_call3_v3 (signi : (⟨S128x7, .i32⟩ : BufTy).Contents (Elt F) → (⟨S128x7, .i32⟩ : BufTy).Contents (Elt F)),
    StableHlo.unary main_call3_v0 main_call3_v4 (signi : (⟨S_, .i32⟩ : BufTy).Contents (Elt F) → (⟨S_, .i32⟩ : BufTy).Contents (Elt F)),
    StableHlo.unary main_call3_v4 main_call3_v5 (broadcastInDim S128x7 ![] bcast_S_S128x7 : (⟨S_, .i32⟩ : BufTy).Contents (Elt F) → (⟨S128x7, .i32⟩ : BufTy).Contents (Elt F)),
    StableHlo.binary main_call3_v3 main_call3_v5 main_call3_v6 (cmpi .ne : (⟨S128x7, .i32⟩ : BufTy).Contents (Elt F) → (⟨S128x7, .i32⟩ : BufTy).Contents (Elt F) → (⟨S128x7, .i1⟩ : BufTy).Contents (Elt F)),
    StableHlo.unary main_call3_v0 main_call3_v7 (broadcastInDim S128x7 ![] bcast_S_S128x7 : (⟨S_, .i32⟩ : BufTy).Contents (Elt F) → (⟨S128x7, .i32⟩ : BufTy).Contents (Elt F)),
    StableHlo.binary main_v76 main_call3_v7 main_call3_v8 (Host.remsi : (⟨S128x7, .i32⟩ : BufTy).Contents (Elt F) → (⟨S128x7, .i32⟩ : BufTy).Contents (Elt F) → (⟨S128x7, .i32⟩ : BufTy).Contents (Elt F)),
    StableHlo.nullary main_call3_c (constantI S_ 32 0#32),
    StableHlo.unary main_call3_c main_call3_v9 (broadcastInDim S128x7 ![] bcast_S_S128x7 : (⟨S_, .i32⟩ : BufTy).Contents (Elt F) → (⟨S128x7, .i32⟩ : BufTy).Contents (Elt F)),
    StableHlo.binary main_call3_v8 main_call3_v9 main_call3_v10 (cmpi .ne : (⟨S128x7, .i32⟩ : BufTy).Contents (Elt F) → (⟨S128x7, .i32⟩ : BufTy).Contents (Elt F) → (⟨S128x7, .i1⟩ : BufTy).Contents (Elt F)),
    StableHlo.binary main_call3_v6 main_call3_v10 main_call3_v11 (andi : (⟨S128x7, .i1⟩ : BufTy).Contents (Elt F) → (⟨S128x7, .i1⟩ : BufTy).Contents (Elt F) → (⟨S128x7, .i1⟩ : BufTy).Contents (Elt F)),
    StableHlo.nullary main_call3_c_0 (constantI S_ 32 1#32),
    StableHlo.unary main_call3_c_0 main_call3_v12 (broadcastInDim S128x7 ![] bcast_S_S128x7 : (⟨S_, .i32⟩ : BufTy).Contents (Elt F) → (⟨S128x7, .i32⟩ : BufTy).Contents (Elt F)),
    StableHlo.binary main_call3_v2 main_call3_v12 main_call3_v13 (subi : (⟨S128x7, .i32⟩ : BufTy).Contents (Elt F) → (⟨S128x7, .i32⟩ : BufTy).Contents (Elt F) → (⟨S128x7, .i32⟩ : BufTy).Contents (Elt F)),
    StableHlo.ternary main_call3_v11 main_call3_v13 main_call3_v2 main_v77 (select : (⟨S128x7, .i1⟩ : BufTy).Contents (Elt F) → (⟨S128x7, .i32⟩ : BufTy).Contents (Elt F) → (⟨S128x7, .i32⟩ : BufTy).Contents (Elt F) → (⟨S128x7, .i32⟩ : BufTy).Contents (Elt F)),
    StableHlo.unary main_v65 main_v78 (broadcastInDim S128x7 ![0, 1] bcast_S128x1_S128x7_0_1 : (⟨S128x1, .i32⟩ : BufTy).Contents (Elt F) → (⟨S128x7, .i32⟩ : BufTy).Contents (Elt F)),
    StableHlo.binary main_v78 main_v77 main_v79 (addi : (⟨S128x7, .i32⟩ : BufTy).Contents (Elt F) → (⟨S128x7, .i32⟩ : BufTy).Contents (Elt F) → (⟨S128x7, .i32⟩ : BufTy).Contents (Elt F)),
    StableHlo.nullary main_v80 (iotaInDim S38 32 0),
    StableHlo.unary main_v80 main_v81 (broadcastInDim S1x1x38 ![2] bcast_S38_S1x1x38_2 : (⟨S38, .i32⟩ : BufTy).Contents (Elt F) → (⟨S1x1x38, .i32⟩ : BufTy).Contents (Elt F)),
    StableHlo.unary main_v64 main_v82 (broadcastInDim S128x7x1 ![0, 1] bcast_S128x7_S128x7x1_0_1 : (⟨S128x7, .i32⟩ : BufTy).Contents (Elt F) → (⟨S128x7x1, .i32⟩ : BufTy).Contents (Elt F)),
    StableHlo.unary main_v81 main_v83 (broadcastInDim S128x7x38 ![0, 1, 2] bcast_S1x1x38_S128x7x38_0_1_2 : (⟨S1x1x38, .i32⟩ : BufTy).Contents (Elt F) → (⟨S128x7x38, .i32⟩ : BufTy).Contents (Elt F)),
    StableHlo.unary main_v82 main_v84 (broadcastInDim S128x7x38 ![0, 1, 2] bcast_S128x7x1_S128x7x38_0_1_2 : (⟨S128x7x1, .i32⟩ : BufTy).Contents (Elt F) → (⟨S128x7x38, .i32⟩ : BufTy).Contents (Elt F)),
    StableHlo.binary main_v83 main_v84 main_v85 (cmpi .sge : (⟨S128x7x38, .i32⟩ : BufTy).Contents (Elt F) → (⟨S128x7x38, .i32⟩ : BufTy).Contents (Elt F) → (⟨S128x7x38, .i1⟩ : BufTy).Contents (Elt F)),
    StableHlo.unary main_v80 main_v86 (broadcastInDim S1x1x38 ![2] bcast_S38_S1x1x38_2 : (⟨S38, .i32⟩ : BufTy).Contents (Elt F) → (⟨S1x1x38, .i32⟩ : BufTy).Contents (Elt F)),
    StableHlo.unary main_v79 main_v87 (broadcastInDim S128x7x1 ![0, 1] bcast_S128x7_S128x7x1_0_1 : (⟨S128x7, .i32⟩ : BufTy).Contents (Elt F) → (⟨S128x7x1, .i32⟩ : BufTy).Contents (Elt F)),
    StableHlo.unary main_v86 main_v88 (broadcastInDim S128x7x38 ![0, 1, 2] bcast_S1x1x38_S128x7x38_0_1_2 : (⟨S1x1x38, .i32⟩ : BufTy).Contents (Elt F) → (⟨S128x7x38, .i32⟩ : BufTy).Contents (Elt F)),
    StableHlo.unary main_v87 main_v89 (broadcastInDim S128x7x38 ![0, 1, 2] bcast_S128x7x1_S128x7x38_0_1_2 : (⟨S128x7x1, .i32⟩ : BufTy).Contents (Elt F) → (⟨S128x7x38, .i32⟩ : BufTy).Contents (Elt F)),
    StableHlo.binary main_v88 main_v89 main_v90 (cmpi .slt : (⟨S128x7x38, .i32⟩ : BufTy).Contents (Elt F) → (⟨S128x7x38, .i32⟩ : BufTy).Contents (Elt F) → (⟨S128x7x38, .i1⟩ : BufTy).Contents (Elt F)),
    StableHlo.binary main_v85 main_v90 main_v91 (andi : (⟨S128x7x38, .i1⟩ : BufTy).Contents (Elt F) → (⟨S128x7x38, .i1⟩ : BufTy).Contents (Elt F) → (⟨S128x7x38, .i1⟩ : BufTy).Contents (Elt F)) ]
set_option maxRecDepth 8192 in
theorem ops_c1_sub : (ops_c1 : List (HloOp τ sig (Elt F))).Forall fun op => op.bufs ⊆ tcRefs τ sig :=
  ⟨StableHlo.unary_bufs_sub .., StableHlo.binary_bufs_sub .., StableHlo.binary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub ..⟩

/-- 21 operations of @main (a stretch of its window main_part1), in order. -/
abbrev ops_c2 : List (HloOp τ sig (Elt F)) :=
  [ StableHlo.unary main_v91 main_v92 ((extractStridedSlice S128x1x38 ![0, 0, 0] · slices_S128x7x38_S128x1x38_0_0_0) : (⟨S128x7x38, .i1⟩ : BufTy).Contents (Elt F) → (⟨S128x1x38, .i1⟩ : BufTy).Contents (Elt F)),
    StableHlo.reshape main_v92 main_v93 rfl shapeCasts_S128x1x38_S128x38,
    StableHlo.unary main_v93 main_v94 (broadcastInDim S128x1x1x38 ![0, 3] bcast_S128x38_S128x1x1x38_0_3 : (⟨S128x38, .i1⟩ : BufTy).Contents (Elt F) → (⟨S128x1x1x38, .i1⟩ : BufTy).Contents (Elt F)),
    StableHlo.nullary main_cst_11 (constant S_ .f32 0xFF800000#32),
    StableHlo.unary main_v94 main_call4_v0 (broadcastInDim S128x512x38x38 ![0, 1, 2, 3] bcast_S128x1x1x38_S128x512x38x38_0_1_2_3 : (⟨S128x1x1x38, .i1⟩ : BufTy).Contents (Elt F) → (⟨S128x512x38x38, .i1⟩ : BufTy).Contents (Elt F)),
    StableHlo.unary main_arg0 main_call4_v1 (broadcastInDim S128x512x38x38 ![0, 1, 2, 3] bcast_S1x512x38x38_S128x512x38x38_0_1_2_3 : (⟨S1x512x38x38, .f32⟩ : BufTy).Contents (Elt F) → (⟨S128x512x38x38, .f32⟩ : BufTy).Contents (Elt F)),
    StableHlo.unary main_cst_11 main_call4_v2 (broadcastInDim S128x512x38x38 ![] bcast_S_S128x512x38x38 : (⟨S_, .f32⟩ : BufTy).Contents (Elt F) → (⟨S128x512x38x38, .f32⟩ : BufTy).Contents (Elt F)),
    StableHlo.ternary main_call4_v0 main_call4_v1 main_call4_v2 main_v95 (select : (⟨S128x512x38x38, .i1⟩ : BufTy).Contents (Elt F) → (⟨S128x512x38x38, .f32⟩ : BufTy).Contents (Elt F) → (⟨S128x512x38x38, .f32⟩ : BufTy).Contents (Elt F) → (⟨S128x512x38x38, .f32⟩ : BufTy).Contents (Elt F)),
    StableHlo.nullary main_cst_12 (constant S_ .f32 0xFF800000#32),
    StableHlo.binary main_v95 main_cst_12 main_v96 ((fun x v => Host.reduce FloatOps.maximumf x v reducesTo_S128x512x38x38_S128x512x38_d3 h_S_) : (⟨S128x512x38x38, .f32⟩ : BufTy).Contents (Elt F) → (⟨S_, .f32⟩ : BufTy).Contents (Elt F) → (⟨S128x512x38, .f32⟩ : BufTy).Contents (Elt F)),
    StableHlo.unary main_v91 main_v97 ((extractStridedSlice S128x1x38 ![0, 1, 0] · slices_S128x7x38_S128x1x38_0_1_0) : (⟨S128x7x38, .i1⟩ : BufTy).Contents (Elt F) → (⟨S128x1x38, .i1⟩ : BufTy).Contents (Elt F)),
    StableHlo.reshape main_v97 main_v98 rfl shapeCasts_S128x1x38_S128x38,
    StableHlo.unary main_v98 main_v99 (broadcastInDim S128x1x1x38 ![0, 3] bcast_S128x38_S128x1x1x38_0_3 : (⟨S128x38, .i1⟩ : BufTy).Contents (Elt F) → (⟨S128x1x1x38, .i1⟩ : BufTy).Contents (Elt F)),
    StableHlo.nullary main_cst_13 (constant S_ .f32 0xFF800000#32),
    StableHlo.unary main_v99 main_call5_v0 (broadcastInDim S128x512x38x38 ![0, 1, 2, 3] bcast_S128x1x1x38_S128x512x38x38_0_1_2_3 : (⟨S128x1x1x38, .i1⟩ : BufTy).Contents (Elt F) → (⟨S128x512x38x38, .i1⟩ : BufTy).Contents (Elt F)),
    StableHlo.unary main_arg0 main_call5_v1 (broadcastInDim S128x512x38x38 ![0, 1, 2, 3] bcast_S1x512x38x38_S128x512x38x38_0_1_2_3 : (⟨S1x512x38x38, .f32⟩ : BufTy).Contents (Elt F) → (⟨S128x512x38x38, .f32⟩ : BufTy).Contents (Elt F)),
    StableHlo.unary main_cst_13 main_call5_v2 (broadcastInDim S128x512x38x38 ![] bcast_S_S128x512x38x38 : (⟨S_, .f32⟩ : BufTy).Contents (Elt F) → (⟨S128x512x38x38, .f32⟩ : BufTy).Contents (Elt F)),
    StableHlo.ternary main_call5_v0 main_call5_v1 main_call5_v2 main_v100 (select : (⟨S128x512x38x38, .i1⟩ : BufTy).Contents (Elt F) → (⟨S128x512x38x38, .f32⟩ : BufTy).Contents (Elt F) → (⟨S128x512x38x38, .f32⟩ : BufTy).Contents (Elt F) → (⟨S128x512x38x38, .f32⟩ : BufTy).Contents (Elt F)),
    StableHlo.nullary main_cst_14 (constant S_ .f32 0xFF800000#32),
    StableHlo.binary main_v100 main_cst_14 main_v101 ((fun x v => Host.reduce FloatOps.maximumf x v reducesTo_S128x512x38x38_S128x512x38_d3 h_S_) : (⟨S128x512x38x38, .f32⟩ : BufTy).Contents (Elt F) → (⟨S_, .f32⟩ : BufTy).Contents (Elt F) → (⟨S128x512x38, .f32⟩ : BufTy).Contents (Elt F)),
    StableHlo.unary main_v91 main_v102 ((extractStridedSlice S128x1x38 ![0, 2, 0] · slices_S128x7x38_S128x1x38_0_2_0) : (⟨S128x7x38, .i1⟩ : BufTy).Contents (Elt F) → (⟨S128x1x38, .i1⟩ : BufTy).Contents (Elt F)) ]
set_option maxRecDepth 8192 in
theorem ops_c2_sub : (ops_c2 : List (HloOp τ sig (Elt F))).Forall fun op => op.bufs ⊆ tcRefs τ sig :=
  ⟨StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub ..⟩

/-- 56 operations of @main (a stretch of its window main_part2), in order. -/
abbrev ops_c3 : List (HloOp τ sig (Elt F)) :=
  [ StableHlo.reshape main_v102 main_v103 rfl shapeCasts_S128x1x38_S128x38,
    StableHlo.unary main_v103 main_v104 (broadcastInDim S128x1x1x38 ![0, 3] bcast_S128x38_S128x1x1x38_0_3 : (⟨S128x38, .i1⟩ : BufTy).Contents (Elt F) → (⟨S128x1x1x38, .i1⟩ : BufTy).Contents (Elt F)),
    StableHlo.nullary main_cst_15 (constant S_ .f32 0xFF800000#32),
    StableHlo.unary main_v104 main_call6_v0 (broadcastInDim S128x512x38x38 ![0, 1, 2, 3] bcast_S128x1x1x38_S128x512x38x38_0_1_2_3 : (⟨S128x1x1x38, .i1⟩ : BufTy).Contents (Elt F) → (⟨S128x512x38x38, .i1⟩ : BufTy).Contents (Elt F)),
    StableHlo.unary main_arg0 main_call6_v1 (broadcastInDim S128x512x38x38 ![0, 1, 2, 3] bcast_S1x512x38x38_S128x512x38x38_0_1_2_3 : (⟨S1x512x38x38, .f32⟩ : BufTy).Contents (Elt F) → (⟨S128x512x38x38, .f32⟩ : BufTy).Contents (Elt F)),
    StableHlo.unary main_cst_15 main_call6_v2 (broadcastInDim S128x512x38x38 ![] bcast_S_S128x512x38x38 : (⟨S_, .f32⟩ : BufTy).Contents (Elt F) → (⟨S128x512x38x38, .f32⟩ : BufTy).Contents (Elt F)),
    StableHlo.ternary main_call6_v0 main_call6_v1 main_call6_v2 main_v105 (select : (⟨S128x512x38x38, .i1⟩ : BufTy).Contents (Elt F) → (⟨S128x512x38x38, .f32⟩ : BufTy).Contents (Elt F) → (⟨S128x512x38x38, .f32⟩ : BufTy).Contents (Elt F) → (⟨S128x512x38x38, .f32⟩ : BufTy).Contents (Elt F)),
    StableHlo.nullary main_cst_16 (constant S_ .f32 0xFF800000#32),
    StableHlo.binary main_v105 main_cst_16 main_v106 ((fun x v => Host.reduce FloatOps.maximumf x v reducesTo_S128x512x38x38_S128x512x38_d3 h_S_) : (⟨S128x512x38x38, .f32⟩ : BufTy).Contents (Elt F) → (⟨S_, .f32⟩ : BufTy).Contents (Elt F) → (⟨S128x512x38, .f32⟩ : BufTy).Contents (Elt F)),
    StableHlo.unary main_v91 main_v107 ((extractStridedSlice S128x1x38 ![0, 3, 0] · slices_S128x7x38_S128x1x38_0_3_0) : (⟨S128x7x38, .i1⟩ : BufTy).Contents (Elt F) → (⟨S128x1x38, .i1⟩ : BufTy).Contents (Elt F)),
    StableHlo.reshape main_v107 main_v108 rfl shapeCasts_S128x1x38_S128x38,
    StableHlo.unary main_v108 main_v109 (broadcastInDim S128x1x1x38 ![0, 3] bcast_S128x38_S128x1x1x38_0_3 : (⟨S128x38, .i1⟩ : BufTy).Contents (Elt F) → (⟨S128x1x1x38, .i1⟩ : BufTy).Contents (Elt F)),
    StableHlo.nullary main_cst_17 (constant S_ .f32 0xFF800000#32),
    StableHlo.unary main_v109 main_call7_v0 (broadcastInDim S128x512x38x38 ![0, 1, 2, 3] bcast_S128x1x1x38_S128x512x38x38_0_1_2_3 : (⟨S128x1x1x38, .i1⟩ : BufTy).Contents (Elt F) → (⟨S128x512x38x38, .i1⟩ : BufTy).Contents (Elt F)),
    StableHlo.unary main_arg0 main_call7_v1 (broadcastInDim S128x512x38x38 ![0, 1, 2, 3] bcast_S1x512x38x38_S128x512x38x38_0_1_2_3 : (⟨S1x512x38x38, .f32⟩ : BufTy).Contents (Elt F) → (⟨S128x512x38x38, .f32⟩ : BufTy).Contents (Elt F)),
    StableHlo.unary main_cst_17 main_call7_v2 (broadcastInDim S128x512x38x38 ![] bcast_S_S128x512x38x38 : (⟨S_, .f32⟩ : BufTy).Contents (Elt F) → (⟨S128x512x38x38, .f32⟩ : BufTy).Contents (Elt F)),
    StableHlo.ternary main_call7_v0 main_call7_v1 main_call7_v2 main_v110 (select : (⟨S128x512x38x38, .i1⟩ : BufTy).Contents (Elt F) → (⟨S128x512x38x38, .f32⟩ : BufTy).Contents (Elt F) → (⟨S128x512x38x38, .f32⟩ : BufTy).Contents (Elt F) → (⟨S128x512x38x38, .f32⟩ : BufTy).Contents (Elt F)),
    StableHlo.nullary main_cst_18 (constant S_ .f32 0xFF800000#32),
    StableHlo.binary main_v110 main_cst_18 main_v111 ((fun x v => Host.reduce FloatOps.maximumf x v reducesTo_S128x512x38x38_S128x512x38_d3 h_S_) : (⟨S128x512x38x38, .f32⟩ : BufTy).Contents (Elt F) → (⟨S_, .f32⟩ : BufTy).Contents (Elt F) → (⟨S128x512x38, .f32⟩ : BufTy).Contents (Elt F)),
    StableHlo.unary main_v91 main_v112 ((extractStridedSlice S128x1x38 ![0, 4, 0] · slices_S128x7x38_S128x1x38_0_4_0) : (⟨S128x7x38, .i1⟩ : BufTy).Contents (Elt F) → (⟨S128x1x38, .i1⟩ : BufTy).Contents (Elt F)),
    StableHlo.reshape main_v112 main_v113 rfl shapeCasts_S128x1x38_S128x38,
    StableHlo.unary main_v113 main_v114 (broadcastInDim S128x1x1x38 ![0, 3] bcast_S128x38_S128x1x1x38_0_3 : (⟨S128x38, .i1⟩ : BufTy).Contents (Elt F) → (⟨S128x1x1x38, .i1⟩ : BufTy).Contents (Elt F)),
    StableHlo.nullary main_cst_19 (constant S_ .f32 0xFF800000#32),
    StableHlo.unary main_v114 main_call8_v0 (broadcastInDim S128x512x38x38 ![0, 1, 2, 3] bcast_S128x1x1x38_S128x512x38x38_0_1_2_3 : (⟨S128x1x1x38, .i1⟩ : BufTy).Contents (Elt F) → (⟨S128x512x38x38, .i1⟩ : BufTy).Contents (Elt F)),
    StableHlo.unary main_arg0 main_call8_v1 (broadcastInDim S128x512x38x38 ![0, 1, 2, 3] bcast_S1x512x38x38_S128x512x38x38_0_1_2_3 : (⟨S1x512x38x38, .f32⟩ : BufTy).Contents (Elt F) → (⟨S128x512x38x38, .f32⟩ : BufTy).Contents (Elt F)),
    StableHlo.unary main_cst_19 main_call8_v2 (broadcastInDim S128x512x38x38 ![] bcast_S_S128x512x38x38 : (⟨S_, .f32⟩ : BufTy).Contents (Elt F) → (⟨S128x512x38x38, .f32⟩ : BufTy).Contents (Elt F)),
    StableHlo.ternary main_call8_v0 main_call8_v1 main_call8_v2 main_v115 (select : (⟨S128x512x38x38, .i1⟩ : BufTy).Contents (Elt F) → (⟨S128x512x38x38, .f32⟩ : BufTy).Contents (Elt F) → (⟨S128x512x38x38, .f32⟩ : BufTy).Contents (Elt F) → (⟨S128x512x38x38, .f32⟩ : BufTy).Contents (Elt F)),
    StableHlo.nullary main_cst_20 (constant S_ .f32 0xFF800000#32),
    StableHlo.binary main_v115 main_cst_20 main_v116 ((fun x v => Host.reduce FloatOps.maximumf x v reducesTo_S128x512x38x38_S128x512x38_d3 h_S_) : (⟨S128x512x38x38, .f32⟩ : BufTy).Contents (Elt F) → (⟨S_, .f32⟩ : BufTy).Contents (Elt F) → (⟨S128x512x38, .f32⟩ : BufTy).Contents (Elt F)),
    StableHlo.unary main_v91 main_v117 ((extractStridedSlice S128x1x38 ![0, 5, 0] · slices_S128x7x38_S128x1x38_0_5_0) : (⟨S128x7x38, .i1⟩ : BufTy).Contents (Elt F) → (⟨S128x1x38, .i1⟩ : BufTy).Contents (Elt F)),
    StableHlo.reshape main_v117 main_v118 rfl shapeCasts_S128x1x38_S128x38,
    StableHlo.unary main_v118 main_v119 (broadcastInDim S128x1x1x38 ![0, 3] bcast_S128x38_S128x1x1x38_0_3 : (⟨S128x38, .i1⟩ : BufTy).Contents (Elt F) → (⟨S128x1x1x38, .i1⟩ : BufTy).Contents (Elt F)),
    StableHlo.nullary main_cst_21 (constant S_ .f32 0xFF800000#32),
    StableHlo.unary main_v119 main_call9_v0 (broadcastInDim S128x512x38x38 ![0, 1, 2, 3] bcast_S128x1x1x38_S128x512x38x38_0_1_2_3 : (⟨S128x1x1x38, .i1⟩ : BufTy).Contents (Elt F) → (⟨S128x512x38x38, .i1⟩ : BufTy).Contents (Elt F)),
    StableHlo.unary main_arg0 main_call9_v1 (broadcastInDim S128x512x38x38 ![0, 1, 2, 3] bcast_S1x512x38x38_S128x512x38x38_0_1_2_3 : (⟨S1x512x38x38, .f32⟩ : BufTy).Contents (Elt F) → (⟨S128x512x38x38, .f32⟩ : BufTy).Contents (Elt F)),
    StableHlo.unary main_cst_21 main_call9_v2 (broadcastInDim S128x512x38x38 ![] bcast_S_S128x512x38x38 : (⟨S_, .f32⟩ : BufTy).Contents (Elt F) → (⟨S128x512x38x38, .f32⟩ : BufTy).Contents (Elt F)),
    StableHlo.ternary main_call9_v0 main_call9_v1 main_call9_v2 main_v120 (select : (⟨S128x512x38x38, .i1⟩ : BufTy).Contents (Elt F) → (⟨S128x512x38x38, .f32⟩ : BufTy).Contents (Elt F) → (⟨S128x512x38x38, .f32⟩ : BufTy).Contents (Elt F) → (⟨S128x512x38x38, .f32⟩ : BufTy).Contents (Elt F)),
    StableHlo.nullary main_cst_22 (constant S_ .f32 0xFF800000#32),
    StableHlo.binary main_v120 main_cst_22 main_v121 ((fun x v => Host.reduce FloatOps.maximumf x v reducesTo_S128x512x38x38_S128x512x38_d3 h_S_) : (⟨S128x512x38x38, .f32⟩ : BufTy).Contents (Elt F) → (⟨S_, .f32⟩ : BufTy).Contents (Elt F) → (⟨S128x512x38, .f32⟩ : BufTy).Contents (Elt F)),
    StableHlo.unary main_v91 main_v122 ((extractStridedSlice S128x1x38 ![0, 6, 0] · slices_S128x7x38_S128x1x38_0_6_0) : (⟨S128x7x38, .i1⟩ : BufTy).Contents (Elt F) → (⟨S128x1x38, .i1⟩ : BufTy).Contents (Elt F)),
    StableHlo.reshape main_v122 main_v123 rfl shapeCasts_S128x1x38_S128x38,
    StableHlo.unary main_v123 main_v124 (broadcastInDim S128x1x1x38 ![0, 3] bcast_S128x38_S128x1x1x38_0_3 : (⟨S128x38, .i1⟩ : BufTy).Contents (Elt F) → (⟨S128x1x1x38, .i1⟩ : BufTy).Contents (Elt F)),
    StableHlo.nullary main_cst_23 (constant S_ .f32 0xFF800000#32),
    StableHlo.unary main_v124 main_call10_v0 (broadcastInDim S128x512x38x38 ![0, 1, 2, 3] bcast_S128x1x1x38_S128x512x38x38_0_1_2_3 : (⟨S128x1x1x38, .i1⟩ : BufTy).Contents (Elt F) → (⟨S128x512x38x38, .i1⟩ : BufTy).Contents (Elt F)),
    StableHlo.unary main_arg0 main_call10_v1 (broadcastInDim S128x512x38x38 ![0, 1, 2, 3] bcast_S1x512x38x38_S128x512x38x38_0_1_2_3 : (⟨S1x512x38x38, .f32⟩ : BufTy).Contents (Elt F) → (⟨S128x512x38x38, .f32⟩ : BufTy).Contents (Elt F)),
    StableHlo.unary main_cst_23 main_call10_v2 (broadcastInDim S128x512x38x38 ![] bcast_S_S128x512x38x38 : (⟨S_, .f32⟩ : BufTy).Contents (Elt F) → (⟨S128x512x38x38, .f32⟩ : BufTy).Contents (Elt F)),
    StableHlo.ternary main_call10_v0 main_call10_v1 main_call10_v2 main_v125 (select : (⟨S128x512x38x38, .i1⟩ : BufTy).Contents (Elt F) → (⟨S128x512x38x38, .f32⟩ : BufTy).Contents (Elt F) → (⟨S128x512x38x38, .f32⟩ : BufTy).Contents (Elt F) → (⟨S128x512x38x38, .f32⟩ : BufTy).Contents (Elt F)),
    StableHlo.nullary main_cst_24 (constant S_ .f32 0xFF800000#32),
    StableHlo.binary main_v125 main_cst_24 main_v126 ((fun x v => Host.reduce FloatOps.maximumf x v reducesTo_S128x512x38x38_S128x512x38_d3 h_S_) : (⟨S128x512x38x38, .f32⟩ : BufTy).Contents (Elt F) → (⟨S_, .f32⟩ : BufTy).Contents (Elt F) → (⟨S128x512x38, .f32⟩ : BufTy).Contents (Elt F)),
    StableHlo.unary main_v96 main_v127 (broadcastInDim S128x512x38x1 ![0, 1, 2] bcast_S128x512x38_S128x512x38x1_0_1_2 : (⟨S128x512x38, .f32⟩ : BufTy).Contents (Elt F) → (⟨S128x512x38x1, .f32⟩ : BufTy).Contents (Elt F)),
    StableHlo.unary main_v101 main_v128 (broadcastInDim S128x512x38x1 ![0, 1, 2] bcast_S128x512x38_S128x512x38x1_0_1_2 : (⟨S128x512x38, .f32⟩ : BufTy).Contents (Elt F) → (⟨S128x512x38x1, .f32⟩ : BufTy).Contents (Elt F)),
    StableHlo.unary main_v106 main_v129 (broadcastInDim S128x512x38x1 ![0, 1, 2] bcast_S128x512x38_S128x512x38x1_0_1_2 : (⟨S128x512x38, .f32⟩ : BufTy).Contents (Elt F) → (⟨S128x512x38x1, .f32⟩ : BufTy).Contents (Elt F)),
    StableHlo.unary main_v111 main_v130 (broadcastInDim S128x512x38x1 ![0, 1, 2] bcast_S128x512x38_S128x512x38x1_0_1_2 : (⟨S128x512x38, .f32⟩ : BufTy).Contents (Elt F) → (⟨S128x512x38x1, .f32⟩ : BufTy).Contents (Elt F)),
    StableHlo.unary main_v116 main_v131 (broadcastInDim S128x512x38x1 ![0, 1, 2] bcast_S128x512x38_S128x512x38x1_0_1_2 : (⟨S128x512x38, .f32⟩ : BufTy).Contents (Elt F) → (⟨S128x512x38x1, .f32⟩ : BufTy).Contents (Elt F)),
    StableHlo.unary main_v121 main_v132 (broadcastInDim S128x512x38x1 ![0, 1, 2] bcast_S128x512x38_S128x512x38x1_0_1_2 : (⟨S128x512x38, .f32⟩ : BufTy).Contents (Elt F) → (⟨S128x512x38x1, .f32⟩ : BufTy).Contents (Elt F)),
    StableHlo.unary main_v126 main_v133 (broadcastInDim S128x512x38x1 ![0, 1, 2] bcast_S128x512x38_S128x512x38x1_0_1_2 : (⟨S128x512x38, .f32⟩ : BufTy).Contents (Elt F) → (⟨S128x512x38x1, .f32⟩ : BufTy).Contents (Elt F)) ]
set_option maxRecDepth 8192 in
theorem ops_c3_sub : (ops_c3 : List (HloOp τ sig (Elt F))).Forall fun op => op.bufs ⊆ tcRefs τ sig :=
  ⟨StableHlo.reshape_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- 1 operations of @main (a stretch of its window main_part2), in order. -/
abbrev ops_c4 : List (HloOp τ sig (Elt F)) :=
  [ StableHlo.nary ![main_v127, main_v128, main_v129, main_v130, main_v131, main_v132, main_v133] main_v134 (fun u => concatenate S128x512x38x7 3 [⟨S128x512x38x1, u 0⟩, ⟨S128x512x38x1, u 1⟩, ⟨S128x512x38x1, u 2⟩, ⟨S128x512x38x1, u 3⟩, ⟨S128x512x38x1, u 4⟩, ⟨S128x512x38x1, u 5⟩, ⟨S128x512x38x1, u 6⟩] concatenates_S128x512x38x1_S128x512x38x1_S128x512x38x1_S128x512x38x1_S128x512x38x1_S128x512x38x1_S128x512x38x1_S128x512x38x7_d3) ]
set_option maxRecDepth 8192 in
theorem ops_c4_sub : (ops_c4 : List (HloOp τ sig (Elt F))).Forall fun op => op.bufs ⊆ tcRefs τ sig :=
  StableHlo.nary_bufs_sub ..

/-- 22 operations of @main (a stretch of its window main_part2), in order. -/
abbrev ops_c5 : List (HloOp τ sig (Elt F)) :=
  [ StableHlo.unary main_v54 main_v135 ((extractStridedSlice S128x1x38 ![0, 0, 0] · slices_S128x7x38_S128x1x38_0_0_0) : (⟨S128x7x38, .i1⟩ : BufTy).Contents (Elt F) → (⟨S128x1x38, .i1⟩ : BufTy).Contents (Elt F)),
    StableHlo.reshape main_v135 main_v136 rfl shapeCasts_S128x1x38_S128x38,
    StableHlo.unary main_v136 main_v137 (broadcastInDim S128x1x38x1 ![0, 2] bcast_S128x38_S128x1x38x1_0_2 : (⟨S128x38, .i1⟩ : BufTy).Contents (Elt F) → (⟨S128x1x38x1, .i1⟩ : BufTy).Contents (Elt F)),
    StableHlo.nullary main_cst_25 (constant S_ .f32 0xFF800000#32),
    StableHlo.unary main_v137 main_call11_v0 (broadcastInDim S128x512x38x7 ![0, 1, 2, 3] bcast_S128x1x38x1_S128x512x38x7_0_1_2_3 : (⟨S128x1x38x1, .i1⟩ : BufTy).Contents (Elt F) → (⟨S128x512x38x7, .i1⟩ : BufTy).Contents (Elt F)),
    StableHlo.unary main_cst_25 main_call11_v1 (broadcastInDim S128x512x38x7 ![] bcast_S_S128x512x38x7 : (⟨S_, .f32⟩ : BufTy).Contents (Elt F) → (⟨S128x512x38x7, .f32⟩ : BufTy).Contents (Elt F)),
    StableHlo.ternary main_call11_v0 main_v134 main_call11_v1 main_v138 (select : (⟨S128x512x38x7, .i1⟩ : BufTy).Contents (Elt F) → (⟨S128x512x38x7, .f32⟩ : BufTy).Contents (Elt F) → (⟨S128x512x38x7, .f32⟩ : BufTy).Contents (Elt F) → (⟨S128x512x38x7, .f32⟩ : BufTy).Contents (Elt F)),
    StableHlo.nullary main_cst_26 (constant S_ .f32 0xFF800000#32),
    StableHlo.binary main_v138 main_cst_26 main_v139 ((fun x v => Host.reduce FloatOps.maximumf x v reducesTo_S128x512x38x7_S128x512x7_d2 h_S_) : (⟨S128x512x38x7, .f32⟩ : BufTy).Contents (Elt F) → (⟨S_, .f32⟩ : BufTy).Contents (Elt F) → (⟨S128x512x7, .f32⟩ : BufTy).Contents (Elt F)),
    StableHlo.unary main_v54 main_v140 ((extractStridedSlice S128x1x38 ![0, 1, 0] · slices_S128x7x38_S128x1x38_0_1_0) : (⟨S128x7x38, .i1⟩ : BufTy).Contents (Elt F) → (⟨S128x1x38, .i1⟩ : BufTy).Contents (Elt F)),
    StableHlo.reshape main_v140 main_v141 rfl shapeCasts_S128x1x38_S128x38,
    StableHlo.unary main_v141 main_v142 (broadcastInDim S128x1x38x1 ![0, 2] bcast_S128x38_S128x1x38x1_0_2 : (⟨S128x38, .i1⟩ : BufTy).Contents (Elt F) → (⟨S128x1x38x1, .i1⟩ : BufTy).Contents (Elt F)),
    StableHlo.nullary main_cst_27 (constant S_ .f32 0xFF800000#32),
    StableHlo.unary main_v142 main_call12_v0 (broadcastInDim S128x512x38x7 ![0, 1, 2, 3] bcast_S128x1x38x1_S128x512x38x7_0_1_2_3 : (⟨S128x1x38x1, .i1⟩ : BufTy).Contents (Elt F) → (⟨S128x512x38x7, .i1⟩ : BufTy).Contents (Elt F)),
    StableHlo.unary main_cst_27 main_call12_v1 (broadcastInDim S128x512x38x7 ![] bcast_S_S128x512x38x7 : (⟨S_, .f32⟩ : BufTy).Contents (Elt F) → (⟨S128x512x38x7, .f32⟩ : BufTy).Contents (Elt F)),
    StableHlo.ternary main_call12_v0 main_v134 main_call12_v1 main_v143 (select : (⟨S128x512x38x7, .i1⟩ : BufTy).Contents (Elt F) → (⟨S128x512x38x7, .f32⟩ : BufTy).Contents (Elt F) → (⟨S128x512x38x7, .f32⟩ : BufTy).Contents (Elt F) → (⟨S128x512x38x7, .f32⟩ : BufTy).Contents (Elt F)),
    StableHlo.nullary main_cst_28 (constant S_ .f32 0xFF800000#32),
    StableHlo.binary main_v143 main_cst_28 main_v144 ((fun x v => Host.reduce FloatOps.maximumf x v reducesTo_S128x512x38x7_S128x512x7_d2 h_S_) : (⟨S128x512x38x7, .f32⟩ : BufTy).Contents (Elt F) → (⟨S_, .f32⟩ : BufTy).Contents (Elt F) → (⟨S128x512x7, .f32⟩ : BufTy).Contents (Elt F)),
    StableHlo.unary main_v54 main_v145 ((extractStridedSlice S128x1x38 ![0, 2, 0] · slices_S128x7x38_S128x1x38_0_2_0) : (⟨S128x7x38, .i1⟩ : BufTy).Contents (Elt F) → (⟨S128x1x38, .i1⟩ : BufTy).Contents (Elt F)),
    StableHlo.reshape main_v145 main_v146 rfl shapeCasts_S128x1x38_S128x38,
    StableHlo.unary main_v146 main_v147 (broadcastInDim S128x1x38x1 ![0, 2] bcast_S128x38_S128x1x38x1_0_2 : (⟨S128x38, .i1⟩ : BufTy).Contents (Elt F) → (⟨S128x1x38x1, .i1⟩ : BufTy).Contents (Elt F)),
    StableHlo.nullary main_cst_29 (constant S_ .f32 0xFF800000#32) ]
set_option maxRecDepth 8192 in
theorem ops_c5_sub : (ops_c5 : List (HloOp τ sig (Elt F))).Forall fun op => op.bufs ⊆ tcRefs τ sig :=
  ⟨StableHlo.unary_bufs_sub .., StableHlo.reshape_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub ..⟩

/-- 48 operations of @main (a stretch of its window main_part3), in order. -/
abbrev ops_c6 : List (HloOp τ sig (Elt F)) :=
  [ StableHlo.unary main_v147 main_call13_v0 (broadcastInDim S128x512x38x7 ![0, 1, 2, 3] bcast_S128x1x38x1_S128x512x38x7_0_1_2_3 : (⟨S128x1x38x1, .i1⟩ : BufTy).Contents (Elt F) → (⟨S128x512x38x7, .i1⟩ : BufTy).Contents (Elt F)),
    StableHlo.unary main_cst_29 main_call13_v1 (broadcastInDim S128x512x38x7 ![] bcast_S_S128x512x38x7 : (⟨S_, .f32⟩ : BufTy).Contents (Elt F) → (⟨S128x512x38x7, .f32⟩ : BufTy).Contents (Elt F)),
    StableHlo.ternary main_call13_v0 main_v134 main_call13_v1 main_v148 (select : (⟨S128x512x38x7, .i1⟩ : BufTy).Contents (Elt F) → (⟨S128x512x38x7, .f32⟩ : BufTy).Contents (Elt F) → (⟨S128x512x38x7, .f32⟩ : BufTy).Contents (Elt F) → (⟨S128x512x38x7, .f32⟩ : BufTy).Contents (Elt F)),
    StableHlo.nullary main_cst_30 (constant S_ .f32 0xFF800000#32),
    StableHlo.binary main_v148 main_cst_30 main_v149 ((fun x v => Host.reduce FloatOps.maximumf x v reducesTo_S128x512x38x7_S128x512x7_d2 h_S_) : (⟨S128x512x38x7, .f32⟩ : BufTy).Contents (Elt F) → (⟨S_, .f32⟩ : BufTy).Contents (Elt F) → (⟨S128x512x7, .f32⟩ : BufTy).Contents (Elt F)),
    StableHlo.unary main_v54 main_v150 ((extractStridedSlice S128x1x38 ![0, 3, 0] · slices_S128x7x38_S128x1x38_0_3_0) : (⟨S128x7x38, .i1⟩ : BufTy).Contents (Elt F) → (⟨S128x1x38, .i1⟩ : BufTy).Contents (Elt F)),
    StableHlo.reshape main_v150 main_v151 rfl shapeCasts_S128x1x38_S128x38,
    StableHlo.unary main_v151 main_v152 (broadcastInDim S128x1x38x1 ![0, 2] bcast_S128x38_S128x1x38x1_0_2 : (⟨S128x38, .i1⟩ : BufTy).Contents (Elt F) → (⟨S128x1x38x1, .i1⟩ : BufTy).Contents (Elt F)),
    StableHlo.nullary main_cst_31 (constant S_ .f32 0xFF800000#32),
    StableHlo.unary main_v152 main_call14_v0 (broadcastInDim S128x512x38x7 ![0, 1, 2, 3] bcast_S128x1x38x1_S128x512x38x7_0_1_2_3 : (⟨S128x1x38x1, .i1⟩ : BufTy).Contents (Elt F) → (⟨S128x512x38x7, .i1⟩ : BufTy).Contents (Elt F)),
    StableHlo.unary main_cst_31 main_call14_v1 (broadcastInDim S128x512x38x7 ![] bcast_S_S128x512x38x7 : (⟨S_, .f32⟩ : BufTy).Contents (Elt F) → (⟨S128x512x38x7, .f32⟩ : BufTy).Contents (Elt F)),
    StableHlo.ternary main_call14_v0 main_v134 main_call14_v1 main_v153 (select : (⟨S128x512x38x7, .i1⟩ : BufTy).Contents (Elt F) → (⟨S128x512x38x7, .f32⟩ : BufTy).Contents (Elt F) → (⟨S128x512x38x7, .f32⟩ : BufTy).Contents (Elt F) → (⟨S128x512x38x7, .f32⟩ : BufTy).Contents (Elt F)),
    StableHlo.nullary main_cst_32 (constant S_ .f32 0xFF800000#32),
    StableHlo.binary main_v153 main_cst_32 main_v154 ((fun x v => Host.reduce FloatOps.maximumf x v reducesTo_S128x512x38x7_S128x512x7_d2 h_S_) : (⟨S128x512x38x7, .f32⟩ : BufTy).Contents (Elt F) → (⟨S_, .f32⟩ : BufTy).Contents (Elt F) → (⟨S128x512x7, .f32⟩ : BufTy).Contents (Elt F)),
    StableHlo.unary main_v54 main_v155 ((extractStridedSlice S128x1x38 ![0, 4, 0] · slices_S128x7x38_S128x1x38_0_4_0) : (⟨S128x7x38, .i1⟩ : BufTy).Contents (Elt F) → (⟨S128x1x38, .i1⟩ : BufTy).Contents (Elt F)),
    StableHlo.reshape main_v155 main_v156 rfl shapeCasts_S128x1x38_S128x38,
    StableHlo.unary main_v156 main_v157 (broadcastInDim S128x1x38x1 ![0, 2] bcast_S128x38_S128x1x38x1_0_2 : (⟨S128x38, .i1⟩ : BufTy).Contents (Elt F) → (⟨S128x1x38x1, .i1⟩ : BufTy).Contents (Elt F)),
    StableHlo.nullary main_cst_33 (constant S_ .f32 0xFF800000#32),
    StableHlo.unary main_v157 main_call15_v0 (broadcastInDim S128x512x38x7 ![0, 1, 2, 3] bcast_S128x1x38x1_S128x512x38x7_0_1_2_3 : (⟨S128x1x38x1, .i1⟩ : BufTy).Contents (Elt F) → (⟨S128x512x38x7, .i1⟩ : BufTy).Contents (Elt F)),
    StableHlo.unary main_cst_33 main_call15_v1 (broadcastInDim S128x512x38x7 ![] bcast_S_S128x512x38x7 : (⟨S_, .f32⟩ : BufTy).Contents (Elt F) → (⟨S128x512x38x7, .f32⟩ : BufTy).Contents (Elt F)),
    StableHlo.ternary main_call15_v0 main_v134 main_call15_v1 main_v158 (select : (⟨S128x512x38x7, .i1⟩ : BufTy).Contents (Elt F) → (⟨S128x512x38x7, .f32⟩ : BufTy).Contents (Elt F) → (⟨S128x512x38x7, .f32⟩ : BufTy).Contents (Elt F) → (⟨S128x512x38x7, .f32⟩ : BufTy).Contents (Elt F)),
    StableHlo.nullary main_cst_34 (constant S_ .f32 0xFF800000#32),
    StableHlo.binary main_v158 main_cst_34 main_v159 ((fun x v => Host.reduce FloatOps.maximumf x v reducesTo_S128x512x38x7_S128x512x7_d2 h_S_) : (⟨S128x512x38x7, .f32⟩ : BufTy).Contents (Elt F) → (⟨S_, .f32⟩ : BufTy).Contents (Elt F) → (⟨S128x512x7, .f32⟩ : BufTy).Contents (Elt F)),
    StableHlo.unary main_v54 main_v160 ((extractStridedSlice S128x1x38 ![0, 5, 0] · slices_S128x7x38_S128x1x38_0_5_0) : (⟨S128x7x38, .i1⟩ : BufTy).Contents (Elt F) → (⟨S128x1x38, .i1⟩ : BufTy).Contents (Elt F)),
    StableHlo.reshape main_v160 main_v161 rfl shapeCasts_S128x1x38_S128x38,
    StableHlo.unary main_v161 main_v162 (broadcastInDim S128x1x38x1 ![0, 2] bcast_S128x38_S128x1x38x1_0_2 : (⟨S128x38, .i1⟩ : BufTy).Contents (Elt F) → (⟨S128x1x38x1, .i1⟩ : BufTy).Contents (Elt F)),
    StableHlo.nullary main_cst_35 (constant S_ .f32 0xFF800000#32),
    StableHlo.unary main_v162 main_call16_v0 (broadcastInDim S128x512x38x7 ![0, 1, 2, 3] bcast_S128x1x38x1_S128x512x38x7_0_1_2_3 : (⟨S128x1x38x1, .i1⟩ : BufTy).Contents (Elt F) → (⟨S128x512x38x7, .i1⟩ : BufTy).Contents (Elt F)),
    StableHlo.unary main_cst_35 main_call16_v1 (broadcastInDim S128x512x38x7 ![] bcast_S_S128x512x38x7 : (⟨S_, .f32⟩ : BufTy).Contents (Elt F) → (⟨S128x512x38x7, .f32⟩ : BufTy).Contents (Elt F)),
    StableHlo.ternary main_call16_v0 main_v134 main_call16_v1 main_v163 (select : (⟨S128x512x38x7, .i1⟩ : BufTy).Contents (Elt F) → (⟨S128x512x38x7, .f32⟩ : BufTy).Contents (Elt F) → (⟨S128x512x38x7, .f32⟩ : BufTy).Contents (Elt F) → (⟨S128x512x38x7, .f32⟩ : BufTy).Contents (Elt F)),
    StableHlo.nullary main_cst_36 (constant S_ .f32 0xFF800000#32),
    StableHlo.binary main_v163 main_cst_36 main_v164 ((fun x v => Host.reduce FloatOps.maximumf x v reducesTo_S128x512x38x7_S128x512x7_d2 h_S_) : (⟨S128x512x38x7, .f32⟩ : BufTy).Contents (Elt F) → (⟨S_, .f32⟩ : BufTy).Contents (Elt F) → (⟨S128x512x7, .f32⟩ : BufTy).Contents (Elt F)),
    StableHlo.unary main_v54 main_v165 ((extractStridedSlice S128x1x38 ![0, 6, 0] · slices_S128x7x38_S128x1x38_0_6_0) : (⟨S128x7x38, .i1⟩ : BufTy).Contents (Elt F) → (⟨S128x1x38, .i1⟩ : BufTy).Contents (Elt F)),
    StableHlo.reshape main_v165 main_v166 rfl shapeCasts_S128x1x38_S128x38,
    StableHlo.unary main_v166 main_v167 (broadcastInDim S128x1x38x1 ![0, 2] bcast_S128x38_S128x1x38x1_0_2 : (⟨S128x38, .i1⟩ : BufTy).Contents (Elt F) → (⟨S128x1x38x1, .i1⟩ : BufTy).Contents (Elt F)),
    StableHlo.nullary main_cst_37 (constant S_ .f32 0xFF800000#32),
    StableHlo.unary main_v167 main_call17_v0 (broadcastInDim S128x512x38x7 ![0, 1, 2, 3] bcast_S128x1x38x1_S128x512x38x7_0_1_2_3 : (⟨S128x1x38x1, .i1⟩ : BufTy).Contents (Elt F) → (⟨S128x512x38x7, .i1⟩ : BufTy).Contents (Elt F)),
    StableHlo.unary main_cst_37 main_call17_v1 (broadcastInDim S128x512x38x7 ![] bcast_S_S128x512x38x7 : (⟨S_, .f32⟩ : BufTy).Contents (Elt F) → (⟨S128x512x38x7, .f32⟩ : BufTy).Contents (Elt F)),
    StableHlo.ternary main_call17_v0 main_v134 main_call17_v1 main_v168 (select : (⟨S128x512x38x7, .i1⟩ : BufTy).Contents (Elt F) → (⟨S128x512x38x7, .f32⟩ : BufTy).Contents (Elt F) → (⟨S128x512x38x7, .f32⟩ : BufTy).Contents (Elt F) → (⟨S128x512x38x7, .f32⟩ : BufTy).Contents (Elt F)),
    StableHlo.nullary main_cst_38 (constant S_ .f32 0xFF800000#32),
    StableHlo.binary main_v168 main_cst_38 main_v169 ((fun x v => Host.reduce FloatOps.maximumf x v reducesTo_S128x512x38x7_S128x512x7_d2 h_S_) : (⟨S128x512x38x7, .f32⟩ : BufTy).Contents (Elt F) → (⟨S_, .f32⟩ : BufTy).Contents (Elt F) → (⟨S128x512x7, .f32⟩ : BufTy).Contents (Elt F)),
    StableHlo.unary main_v139 main_v170 (broadcastInDim S128x512x1x7 ![0, 1, 3] bcast_S128x512x7_S128x512x1x7_0_1_3 : (⟨S128x512x7, .f32⟩ : BufTy).Contents (Elt F) → (⟨S128x512x1x7, .f32⟩ : BufTy).Contents (Elt F)),
    StableHlo.unary main_v144 main_v171 (broadcastInDim S128x512x1x7 ![0, 1, 3] bcast_S128x512x7_S128x512x1x7_0_1_3 : (⟨S128x512x7, .f32⟩ : BufTy).Contents (Elt F) → (⟨S128x512x1x7, .f32⟩ : BufTy).Contents (Elt F)),
    StableHlo.unary main_v149 main_v172 (broadcastInDim S128x512x1x7 ![0, 1, 3] bcast_S128x512x7_S128x512x1x7_0_1_3 : (⟨S128x512x7, .f32⟩ : BufTy).Contents (Elt F) → (⟨S128x512x1x7, .f32⟩ : BufTy).Contents (Elt F)),
    StableHlo.unary main_v154 main_v173 (broadcastInDim S128x512x1x7 ![0, 1, 3] bcast_S128x512x7_S128x512x1x7_0_1_3 : (⟨S128x512x7, .f32⟩ : BufTy).Contents (Elt F) → (⟨S128x512x1x7, .f32⟩ : BufTy).Contents (Elt F)),
    StableHlo.unary main_v159 main_v174 (broadcastInDim S128x512x1x7 ![0, 1, 3] bcast_S128x512x7_S128x512x1x7_0_1_3 : (⟨S128x512x7, .f32⟩ : BufTy).Contents (Elt F) → (⟨S128x512x1x7, .f32⟩ : BufTy).Contents (Elt F)),
    StableHlo.unary main_v164 main_v175 (broadcastInDim S128x512x1x7 ![0, 1, 3] bcast_S128x512x7_S128x512x1x7_0_1_3 : (⟨S128x512x7, .f32⟩ : BufTy).Contents (Elt F) → (⟨S128x512x1x7, .f32⟩ : BufTy).Contents (Elt F)),
    StableHlo.unary main_v169 main_v176 (broadcastInDim S128x512x1x7 ![0, 1, 3] bcast_S128x512x7_S128x512x1x7_0_1_3 : (⟨S128x512x7, .f32⟩ : BufTy).Contents (Elt F) → (⟨S128x512x1x7, .f32⟩ : BufTy).Contents (Elt F)) ]
set_option maxRecDepth 8192 in
theorem ops_c6_sub : (ops_c6 : List (HloOp τ sig (Elt F))).Forall fun op => op.bufs ⊆ tcRefs τ sig :=
  ⟨StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.reshape_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- 1 operations of @main (a stretch of its window main_part3), in order. -/
abbrev ops_c7 : List (HloOp τ sig (Elt F)) :=
  [ StableHlo.nary ![main_v170, main_v171, main_v172, main_v173, main_v174, main_v175, main_v176] main_v177 (fun u => concatenate S128x512x7x7 2 [⟨S128x512x1x7, u 0⟩, ⟨S128x512x1x7, u 1⟩, ⟨S128x512x1x7, u 2⟩, ⟨S128x512x1x7, u 3⟩, ⟨S128x512x1x7, u 4⟩, ⟨S128x512x1x7, u 5⟩, ⟨S128x512x1x7, u 6⟩] concatenates_S128x512x1x7_S128x512x1x7_S128x512x1x7_S128x512x1x7_S128x512x1x7_S128x512x1x7_S128x512x1x7_S128x512x7x7_d2) ]
set_option maxRecDepth 8192 in
theorem ops_c7_sub : (ops_c7 : List (HloOp τ sig (Elt F))).Forall fun op => op.bufs ⊆ tcRefs τ sig :=
  StableHlo.nary_bufs_sub ..

/-- The operations of @main's window main_part0. -/
abbrev ops_main_part0 : List (HloOp τ sig (Elt F)) := ops_c0
/-- The operations of @main's window main_part1. -/
abbrev ops_main_part1 : List (HloOp τ sig (Elt F)) := ops_c1 ++ ops_c2
/-- The operations of @main's window main_part2. -/
abbrev ops_main_part2 : List (HloOp τ sig (Elt F)) := ops_c3 ++ ops_c4 ++ ops_c5
/-- The operations of @main's window main_part3. -/
abbrev ops_main_part3 : List (HloOp τ sig (Elt F)) := ops_c6 ++ ops_c7

/-- @main's operations, in order. -/
abbrev ops : List (HloOp τ sig (Elt F)) := ops_c0 ++ ops_c1 ++ ops_c2 ++ ops_c3 ++ ops_c4 ++ ops_c5 ++ ops_c6 ++ ops_c7

end Cert.ReferenceIdeal.RefRun

end
-- ==== Proof.RefRun.lean ====
/-
  The reference program runs as the straight line of its host operations: @main is that line (window by
  window, the called functions' bodies unfolding to their operations at each call), every operation touches
  TensorCore buffers only, nothing is scoped; so every weakly fair execution terminates without a fault, with
  every buffer holding the fold of the operations over the launch contents.
-/
import proofs.«123092_j51488067944902_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops_main_part0 := rfl
set_option maxRecDepth 8192 in
set_option maxHeartbeats 4000000 in
theorem main_part1_eq (c : Dev nD) : main_part1 (F := F) c = seq ops_main_part1 := rfl
set_option maxRecDepth 8192 in
set_option maxHeartbeats 4000000 in
theorem main_part2_eq (c : Dev nD) : main_part2 (F := F) c = seq ops_main_part2 := rfl
set_option maxRecDepth 8192 in
set_option maxHeartbeats 4000000 in
theorem main_part3_eq (c : Dev nD) : main_part3 (F := F) c = seq ops_main_part3 := rfl

/-- The list of all operations is the windows' lists one after the other. -/
theorem ops_eq_parts : (ops : List (HloOp τ sig (Elt F))) = ops_main_part0 ++ (ops_main_part1 ++ (ops_main_part2 ++ ops_main_part3)) := by
  simp only [ops, ops_main_part0, ops_main_part1, ops_main_part2, ops_main_part3, List.append_assoc]

/-- @main is the straight line of its operations. -/
theorem main_eq (c : Dev nD) : main (F := F) c = seq ops := by
  rw [ops_eq_parts]
  simp only [seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op h => ?_
  rcases List.mem_append.mp h with h | h
  · rcases List.mem_append.mp h with h | h
    · rcases List.mem_append.mp h with h | h
      · rcases List.mem_append.mp h with h | h
        · rcases List.mem_append.mp h with h | h
          · rcases List.mem_append.mp h with h | h
            · rcases List.mem_append.mp h with h | h
              · exact List.forall_iff_forall_mem.mp ops_c0_sub op h
              · exact List.forall_iff_forall_mem.mp ops_c1_sub op h
            · exact List.forall_iff_forall_mem.mp ops_c2_sub op h
          · exact List.forall_iff_forall_mem.mp ops_c3_sub op h
        · exact List.forall_iff_forall_mem.mp ops_c4_sub op h
      · exact List.forall_iff_forall_mem.mp ops_c5_sub op h
    · exact List.forall_iff_forall_mem.mp ops_c6_sub op h
  · exact List.forall_iff_forall_mem.mp ops_c7_sub op h

/-- On the one device, for any float values, from any memory with zero counters: every weakly fair execution of @main
    terminates, and every TensorCore buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefKept.lean ====
/-
  Three bookkeeping facts about the reference's line of operations: it never writes its two arguments; the contents
  after the whole line are the contents after its eight stretches one after the other; and the first two stretches
  (which compute the membership tables) leave the feature map as it was.
-/
import proofs.«123092_j51488067944902_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after the whole line are the contents after its stretches, one after the other. -/
theorem after_ops (V : Valuation τ sig (Elt F)) :
    after ops V = after ops_c7 (after ops_c6 (after ops_c5 (after ops_c4 (after ops_c3 (after ops_c2 (after ops_c1 (after ops_c0 V))))))) := by
  simp only [ops, StableHlo.after_append]

set_option maxRecDepth 16384 in
set_option maxHeartbeats 8000000 in
/-- No operation writes the feature map. -/
theorem kept_arg0 (V : Valuation τ sig (Elt F)) : after ops V (main_arg0 : DevRef τ sig) = V (main_arg0 : DevRef τ sig) := by
  rw [after_ops]
  simp only [ops_c0, ops_c1, ops_c2, ops_c3, ops_c4, ops_c5, ops_c6, ops_c7]
  after_results_simp

set_option maxRecDepth 16384 in
set_option maxHeartbeats 8000000 in
/-- No operation writes the boxes. -/
theorem kept_arg1 (V : Valuation τ sig (Elt F)) : after ops V (main_arg1 : DevRef τ sig) = V (main_arg1 : DevRef τ sig) := by
  rw [after_ops]
  simp only [ops_c0, ops_c1, ops_c2, ops_c3, ops_c4, ops_c5, ops_c6, ops_c7]
  after_results_simp

set_option maxRecDepth 16384 in
set_option maxHeartbeats 8000000 in
/-- The stretches that compute the membership tables leave the feature map as it was. -/
theorem masks_keep_arg0 (V : Valuation τ sig (Elt F)) :
    after ops_c1 (after ops_c0 V) (main_arg0 : DevRef τ sig) = V (main_arg0 : DevRef τ sig) := by
  simp only [ops_c0, ops_c1]
  after_results_simp

end Cert.ReferenceIdeal.RefRun

end
-- ==== Proof.MaskAgree.lean ====
/-
  The two programs compute their membership tables by the same host operations on the box coordinates: from equal
  box arrays the kernel program's row and column membership tables are the reference program's.

  Both sides are read back as the composition of their operations over the launch contents; the two compositions
  are the same chain of operations (scale, floor, convert, the four columns, the bin bounds by floor division,
  the two comparisons against the positions, their conjunction), applied to the two programs' box arrays.
-/
import proofs.«123092_j51488067944902_1_alg».proof.Proof.Gen.KernelIdeal.Frame.Runs
import proofs.«123092_j51488067944902_1_alg».proof.Proof.RefOps
import Idealize.ShloMosaic.Lib.StableHlo.Run
import Idealize.ShloMosaic.PureOps.Ideal

noncomputable section

namespace Cert.MaskAgree

open Idealize.ShloMosaic Idealize.ShloMosaic.TcCoe Idealize.SL.Sem Idealize.ShloMosaic.StableHlo

/-- The kernel program's host operations before the region, as one list. -/
abbrev opsK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12]

set_option maxRecDepth 16384 in
set_option maxHeartbeats 8000000 in
/-- The column membership tables agree. -/
theorem maskW (VK : Valuation Cert.KernelIdeal.τ Cert.KernelIdeal.sig (Elt Ideal))
    (VR : Valuation Cert.ReferenceIdeal.τ Cert.ReferenceIdeal.sig (Elt Ideal))
    (h : (VR (Cert.ReferenceIdeal.main_arg1 : DevRef Cert.ReferenceIdeal.τ Cert.ReferenceIdeal.sig) : Cert.ReferenceIdeal.S128x4.Idx → EReal)
      = VK (Cert.KernelIdeal.main_arg1 : DevRef Cert.KernelIdeal.τ Cert.KernelIdeal.sig)) :
    (after opsK VK (Cert.KernelIdeal.main_v92 : DevRef Cert.KernelIdeal.τ Cert.KernelIdeal.sig) : Cert.KernelIdeal.S128x7x38.Idx → BitVec 1)
      = after Cert.ReferenceIdeal.RefRun.ops_c1 (after Cert.ReferenceIdeal.RefRun.ops_c0 VR)
          (Cert.ReferenceIdeal.main_v91 : DevRef Cert.ReferenceIdeal.τ Cert.ReferenceIdeal.sig) := by
  simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12,
    Cert.ReferenceIdeal.RefRun.ops_c0, Cert.ReferenceIdeal.RefRun.ops_c1,
    List.flatten_cons, List.flatten_nil, List.append_nil, List.cons_append, List.nil_append]
  after_results_simp
  rw [h]
  rfl

set_option maxRecDepth 16384 in
set_option maxHeartbeats 8000000 in
/-- The row membership tables agree. -/
theorem maskH (VK : Valuation Cert.KernelIdeal.τ Cert.KernelIdeal.sig (Elt Ideal))
    (VR : Valuation Cert.ReferenceIdeal.τ Cert.ReferenceIdeal.sig (Elt Ideal))
    (h : (VR (Cert.ReferenceIdeal.main_arg1 : DevRef Cert.ReferenceIdeal.τ Cert.ReferenceIdeal.sig) : Cert.ReferenceIdeal.S128x4.Idx → EReal)
      = VK (Cert.KernelIdeal.main_arg1 : DevRef Cert.KernelIdeal.τ Cert.KernelIdeal.sig)) :
    (after opsK VK (Cert.KernelIdeal.main_v54 : DevRef Cert.KernelIdeal.τ Cert.KernelIdeal.sig) : Cert.KernelIdeal.S128x7x38.Idx → BitVec 1)
      = after Cert.ReferenceIdeal.RefRun.ops_c1 (after Cert.ReferenceIdeal.RefRun.ops_c0 VR)
          (Cert.ReferenceIdeal.main_v54 : DevRef Cert.ReferenceIdeal.τ Cert.ReferenceIdeal.sig) := by
  simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12,
    Cert.ReferenceIdeal.RefRun.ops_c0, Cert.ReferenceIdeal.RefRun.ops_c1,
    List.flatten_cons, List.flatten_nil, List.append_nil, List.cons_append, List.nil_append]
  after_results_simp
  rw [h]
  rfl

end Cert.MaskAgree

end
-- ==== Proof.Bridge.lean ====
/-
  The two idealized programs end with equal results, given what each one's result array holds.

  The kernel program's result array is the pooling by additive biases of what the region finds: the feature map without
  its unit axis and the two bias tables, which are the biases of the kernel program's membership tables. The reference's
  result is the pooling by selection of the feature map and the reference's membership tables. The membership tables of
  the two programs agree because the box arrays do; the feature maps agree entry by entry; and pooling by biases of
  membership bits is pooling by selection.
-/
import proofs.«123092_j51488067944902_1_alg».proof.Defs
import proofs.«123092_j51488067944902_1_alg».proof.Proof.Gen.KernelIdeal.Value
import proofs.«123092_j51488067944902_1_alg».proof.Proof.Gen.ReferenceIdeal
import proofs.«123092_j51488067944902_1_alg».proof.Proof.Gen.Pre_finite_inputs
import proofs.«123092_j51488067944902_1_alg».proof.Proof.Spec
import proofs.«123092_j51488067944902_1_alg».proof.Proof.KHost
import proofs.«123092_j51488067944902_1_alg».proof.Proof.RefRun
import proofs.«123092_j51488067944902_1_alg».proof.Proof.RefKept
import proofs.«123092_j51488067944902_1_alg».proof.Proof.MaskAgree

noncomputable section

namespace Cert.Bridge

open Idealize.ShloMosaic Idealize.ShloMosaic.TcCoe Idealize.SL.Sem Idealize.ShloMosaic.StableHlo
open Cert.RoiPool Idealize.ShloMosaic.ValueIdx

/-- The reference's frame: its run with the result dropped. -/
theorem frame_reference : Cert.frame_ReferenceIdeal := fun m ρ _ =>
  (θ_run Cert.ReferenceIdeal.defs _ _).mono
    (fun _ h c => ⟨(h c Cert.ReferenceIdeal.main_arg0).trans (Cert.ReferenceIdeal.RefRun.kept_arg0 _),
      (h c Cert.ReferenceIdeal.main_arg1).trans (Cert.ReferenceIdeal.RefRun.kept_arg1 _)⟩)
    (Cert.ReferenceIdeal.RefRun.run_main (F := Ideal) m ρ)

/-- The two runs side by side. -/
theorem algebraic_of
    (hK : ∀ (m : (ℓ : Loc Cert.KernelIdeal.nD Cert.KernelIdeal.τ Cert.KernelIdeal.sig) → Buf (Elt Ideal) ℓ) (c : Dev Cert.KernelIdeal.nD),
      (Cert.KernelIdeal.Gen.dats (F := Ideal) m 0 c).arrAt 3 Cert.KernelIdeal.cfg0.N
        = pooledK (Cert.KernelIdeal.Gen.V m c Cert.KernelIdeal.main_v94) (Cert.KernelIdeal.Gen.V m c Cert.KernelIdeal.main_v93)
            (Cert.KernelIdeal.Gen.V m c Cert.KernelIdeal.main_v55))
    (hR : ∀ W : Valuation Cert.ReferenceIdeal.τ Cert.ReferenceIdeal.sig (Elt Ideal),
      (after Cert.ReferenceIdeal.RefRun.ops_c7 (after Cert.ReferenceIdeal.RefRun.ops_c6 (after Cert.ReferenceIdeal.RefRun.ops_c5
        (after Cert.ReferenceIdeal.RefRun.ops_c4 (after Cert.ReferenceIdeal.RefRun.ops_c3 (after Cert.ReferenceIdeal.RefRun.ops_c2 W)))))
          (Cert.ReferenceIdeal.main_v177 : DevRef Cert.ReferenceIdeal.τ Cert.ReferenceIdeal.sig) : Sout.Idx → EReal)
        = pooledR (W (Cert.ReferenceIdeal.main_arg0 : DevRef Cert.ReferenceIdeal.τ Cert.ReferenceIdeal.sig))
            (W (Cert.ReferenceIdeal.main_v91 : DevRef Cert.ReferenceIdeal.τ Cert.ReferenceIdeal.sig))
            (W (Cert.ReferenceIdeal.main_v54 : DevRef Cert.ReferenceIdeal.τ Cert.ReferenceIdeal.sig))) :
    Cert.algebraic_KernelIdeal_ReferenceIdeal := by
  intro m ρ m' ρ' _ hagree
  refine ⟨fun c => pooledK (Cert.KernelIdeal.Gen.V m c Cert.KernelIdeal.main_v94) (Cert.KernelIdeal.Gen.V m c Cert.KernelIdeal.main_v93)
      (Cert.KernelIdeal.Gen.V m c Cert.KernelIdeal.main_v55), ?_, ?_⟩
  · exact (θ_run Cert.KernelIdeal.defs _ _).mono (fun r h c => ⟨(h c).1.trans (hK m c), (h c).2⟩)
      (Cert.KernelIdeal.Value.run_blocks (F := Ideal) m ρ)
  · refine (θ_run Cert.ReferenceIdeal.defs _ _).mono
      (fun r h c => ⟨(h c Cert.ReferenceIdeal.main_v177).trans ?_,
        (h c Cert.ReferenceIdeal.main_arg0).trans (Cert.ReferenceIdeal.RefRun.kept_arg0 _),
        (h c Cert.ReferenceIdeal.main_arg1).trans (Cert.ReferenceIdeal.RefRun.kept_arg1 _)⟩)
      (Cert.ReferenceIdeal.RefRun.run_main (F := Ideal) m' ρ')
    rw [Cert.ReferenceIdeal.RefRun.after_ops]
    refine (hR _).trans ?_
    beta_reduce
    rw [Cert.KernelIdeal.KHost.biasW, Cert.KernelIdeal.KHost.biasH]
    rw [← Cert.MaskAgree.maskW (fun b => m (c, b)) (launchContents m' c) (hagree c).2,
      ← Cert.MaskAgree.maskH (fun b => m (c, b)) (launchContents m' c) (hagree c).2]
    refine (pooledK_eq_pooledR _ _ _ _ fun ch h w => ?_).symm
    rw [Cert.KernelIdeal.KHost.x2d_apply, Cert.KernelIdeal.Gen.V_main_arg0, Cert.ReferenceIdeal.RefRun.masks_keep_arg0]
    exact congrFun (hagree c).1.symm _

end Cert.Bridge

end
-- ==== Proof.RLayout.lean ====
/-
  Two facts about layout shared by the two passes of the pooling.

  Row k of a table over (box, bin, position) can be cut out for every bin k; and a join of seven arrays of unit
  extent along an axis, read at an index, is the array the index's coordinate on that axis names, read at the same
  other coordinates and 0 on the axis.
-/
import proofs.«123092_j51488067944902_1_alg».proof.Proof.RefOps
import proofs.«123092_j51488067944902_1_alg».proof.Proof.Spec
import Idealize.ShloMosaic.Lib.Pipeline.Value
import Idealize.ShloMosaic.Lib.ValueIdx

noncomputable section

namespace Cert.ReferenceIdeal.RValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.RoiPool

/-- Row k of a table over (box, bin, position) can be cut out, for every bin k. -/
theorem slices_bin (k : Fin 7) : S128x7x38.Slices ![0, k.val, 0] S128x1x38 := by
  match k with
  | ⟨0, _⟩ => exact slices_S128x7x38_S128x1x38_0_0_0
  | ⟨1, _⟩ => exact slices_S128x7x38_S128x1x38_0_1_0
  | ⟨2, _⟩ => exact slices_S128x7x38_S128x1x38_0_2_0
  | ⟨3, _⟩ => exact slices_S128x7x38_S128x1x38_0_3_0
  | ⟨4, _⟩ => exact slices_S128x7x38_S128x1x38_0_4_0
  | ⟨5, _⟩ => exact slices_S128x7x38_S128x1x38_0_5_0
  | ⟨6, _⟩ => exact slices_S128x7x38_S128x1x38_0_6_0

/-- Seven unit-extent pieces joined along the last axis, read at (n, c, h, pw): piece pw at (n, c, h, 0). -/
theorem cat3_apply (u : Fin 7 → (S128x512x38x1.Idx → EReal))
    (hcat : Shape.Concatenates [S128x512x38x1, S128x512x38x1, S128x512x38x1, S128x512x38x1, S128x512x38x1, S128x512x38x1, S128x512x38x1] S128x512x38x7 3)
    (n : Fin 128) (c : Fin 512) (h : Fin 38) (pw : Fin 7) :
    concatenate S128x512x38x7 3 [⟨S128x512x38x1, u 0⟩, ⟨S128x512x38x1, u 1⟩, ⟨S128x512x38x1, u 2⟩, ⟨S128x512x38x1, u 3⟩,
        ⟨S128x512x38x1, u 4⟩, ⟨S128x512x38x1, u 5⟩, ⟨S128x512x38x1, u 6⟩] hcat (ix4 n c h pw)
      = u pw (ix4 n c h (0 : Fin 1)) := by
  refine concatenate_ofFn_unit_apply (t := S128x512x38x7) (s₁ := S128x512x38x1) 3 u hcat rfl rfl (ix4 n c h pw) pw rfl
    (ix4 n c h (0 : Fin 1)) fun b hb => ?_
  match b, hb with
  | ⟨0, _⟩, _ => rfl
  | ⟨1, _⟩, _ => rfl
  | ⟨2, _⟩, _ => rfl
  | ⟨3, _⟩, hb => exact absurd rfl hb

/-- Seven unit-extent pieces joined along the third axis, read at (n, c, ph, pw): piece ph at (n, c, 0, pw). -/
theorem cat2_apply (u : Fin 7 → (S128x512x1x7.Idx → EReal))
    (hcat : Shape.Concatenates [S128x512x1x7, S128x512x1x7, S128x512x1x7, S128x512x1x7, S128x512x1x7, S128x512x1x7, S128x512x1x7] S128x512x7x7 2)
    (n : Fin 128) (c : Fin 512) (ph pw : Fin 7) :
    concatenate S128x512x7x7 2 [⟨S128x512x1x7, u 0⟩, ⟨S128x512x1x7, u 1⟩, ⟨S128x512x1x7, u 2⟩, ⟨S128x512x1x7, u 3⟩,
        ⟨S128x512x1x7, u 4⟩, ⟨S128x512x1x7, u 5⟩, ⟨S128x512x1x7, u 6⟩] hcat (ix4 n c ph pw)
      = u ph (ix4 n c (0 : Fin 1) pw) := by
  refine concatenate_ofFn_unit_apply (t := S128x512x7x7) (s₁ := S128x512x1x7) 2 u hcat rfl rfl (ix4 n c ph pw) ph rfl
    (ix4 n c (0 : Fin 1) pw) fun b hb => ?_
  match b, hb with
  | ⟨0, _⟩, _ => rfl
  | ⟨1, _⟩, _ => rfl
  | ⟨2, _⟩, hb => exact absurd rfl hb
  | ⟨3, _⟩, _ => rfl

end Cert.ReferenceIdeal.RValue

end
-- ==== Proof.RStage1.lean ====
/-
  The first pass of the pooling, read at an index.

  For each of the seven column bins pw the program cuts row pw out of the column-membership table, spreads it
  over channels and rows, keeps the feature map where the bit is set and -∞ elsewhere, and takes the maximum
  along the columns; the seven results, each with a unit last axis, are joined along that axis. Read at
  (n, c, h, pw) the joined table is therefore the maximum over the columns w with membership bit (n, pw, w) set
  of the feature map at (c, h, w), from -∞. Each layout operation is read at an index by naming the operand's
  index coordinate by coordinate; the maximum along the last axis is the fold over that axis's coordinates.
-/
import proofs.«123092_j51488067944902_1_alg».proof.Proof.RefOps
import proofs.«123092_j51488067944902_1_alg».proof.Proof.Spec
import Idealize.ShloMosaic.Lib.Pipeline.Value
import Idealize.ShloMosaic.Lib.ValueIdx
import Idealize.ShloMosaic.PureOps.Ideal.Laws
import proofs.«123092_j51488067944902_1_alg».proof.Proof.RLayout

noncomputable section

namespace Cert.ReferenceIdeal.RValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.RoiPool

/-- The per-row maxima over the columns of one bin, as the program computes them. -/
def colStage (off : Fin 3 → Nat) (hsl : S128x7x38.Slices off S128x1x38)
    (x : S1x512x38x38.Idx → EReal) (mw : S128x7x38.Idx → BitVec 1) : S128x512x38x1.Idx → EReal :=
  broadcastInDim S128x512x38x1 ![0, 1, 2] bcast_S128x512x38_S128x512x38x1_0_1_2
    (Host.reduce (FloatOps.maximumf (F := Ideal) (φ := .f32))
      (select
        (broadcastInDim S128x512x38x38 ![0, 1, 2, 3] bcast_S128x1x1x38_S128x512x38x38_0_1_2_3
          (broadcastInDim S128x1x1x38 ![0, 3] bcast_S128x38_S128x1x1x38_0_3
            (shapeCast S128x38 (extractStridedSlice S128x1x38 off mw hsl) shapeCasts_S128x1x38_S128x38)))
        (broadcastInDim S128x512x38x38 ![0, 1, 2, 3] bcast_S1x512x38x38_S128x512x38x38_0_1_2_3 x)
        (broadcastInDim S128x512x38x38 ![] bcast_S_S128x512x38x38 (constant (F := Ideal) S_ .f32 0xFF800000#32)))
      (constant (F := Ideal) S_ .f32 0xFF800000#32) reducesTo_S128x512x38x38_S128x512x38_d3 h_S_)

theorem reduces_d3 : S128x512x38x38.Reduces [3] S128x512x38 := by decide

/-- Over (n, c, h), the index with column w put back on the last axis is (n, c, h, w). -/
theorem lift_d3 (n : Fin 128) (c : Fin 512) (h w : Fin 38) :
    reduces_d3.lift (ix3 n c h) w = ix4 n c h w := by
  funext a; apply Fin.ext
  fin_cases a <;> rfl

/-- The column mask of bin k, spread over channels and rows, read at (n, c, h, w): the table at (n, k, w). -/
theorem maskW_apply (k : Nat) (hk : k < 7) (hsl : S128x7x38.Slices ![0, k, 0] S128x1x38) (mw : S128x7x38.Idx → BitVec 1)
    (n : Fin 128) (c : Fin 512) (h w : Fin 38) :
    broadcastInDim S128x512x38x38 ![0, 1, 2, 3] bcast_S128x1x1x38_S128x512x38x38_0_1_2_3
        (broadcastInDim S128x1x1x38 ![0, 3] bcast_S128x38_S128x1x1x38_0_3
          (shapeCast S128x38 (extractStridedSlice S128x1x38 ![0, k, 0] mw hsl) shapeCasts_S128x1x38_S128x38)) (ix4 n c h w)
      = mw (ix3 n (⟨k, hk⟩ : Fin 7) w) := by
  refine (broadcastInDim_apply _ _ _ (ix4 n c h w) (ix4 n (0 : Fin 1) (0 : Fin 1) w) fun a => ?_).trans ?_
  · match a with
    | ⟨0, _⟩ => rfl
    | ⟨1, _⟩ => rfl
    | ⟨2, _⟩ => rfl
    | ⟨3, _⟩ => rfl
  refine (broadcastInDim_apply _ _ _ (ix4 n (0 : Fin 1) (0 : Fin 1) w) (ix2 n w) fun a => ?_).trans ?_
  · match a with
    | ⟨0, _⟩ => rfl
    | ⟨1, _⟩ => rfl
  refine (shapeCast_apply _ _ (ix2 n w) (ix3 n (0 : Fin 1) w) ?_).trans ?_
  · rw [Shape.rowMajor_val_three, Shape.rowMajor_val_two]
    show (n.val * 1 + 0) * 38 + w.val = n.val * 38 + w.val
    omega
  refine extractStridedSlice_apply _ _ _ (ix3 n (0 : Fin 1) w) (ix3 n (⟨k, hk⟩ : Fin 7) w) fun a => ?_
  match a with
  | ⟨0, _⟩ => show n.val = 0 + n.val; omega
  | ⟨1, _⟩ => show k = k + 0; omega
  | ⟨2, _⟩ => show w.val = 0 + w.val; omega

/-- The feature map spread over the boxes, read at (n, c, h, w): the map at (0, c, h, w). -/
theorem xB_apply (x : S1x512x38x38.Idx → EReal) (n : Fin 128) (c : Fin 512) (h w : Fin 38) :
    broadcastInDim S128x512x38x38 ![0, 1, 2, 3] bcast_S1x512x38x38_S128x512x38x38_0_1_2_3 x (ix4 n c h w)
      = x (ix4 (0 : Fin 1) c h w) := by
  refine broadcastInDim_apply _ _ _ (ix4 n c h w) (ix4 (0 : Fin 1) c h w) fun a => ?_
  match a with
  | ⟨0, _⟩ => rfl
  | ⟨1, _⟩ => rfl
  | ⟨2, _⟩ => rfl
  | ⟨3, _⟩ => rfl

/-- Stage 1 at (n, c, h, 0): the maximum over the columns of bin k of row h. -/
theorem colStage_apply (k : Nat) (hk : k < 7) (hsl : S128x7x38.Slices ![0, k, 0] S128x1x38)
    (x : S1x512x38x38.Idx → EReal) (mw : S128x7x38.Idx → BitVec 1) (n : Fin 128) (c : Fin 512) (h : Fin 38) :
    colStage ![0, k, 0] hsl x mw (ix4 n c h (0 : Fin 1))
      = foldMax fun w => Scalar.select (mw (ix3 n (⟨k, hk⟩ : Fin 7) w)) (x (ix4 (0 : Fin 1) c h w)) negInf := by
  unfold colStage
  refine (broadcastInDim_apply _ _ _ (ix4 n c h (0 : Fin 1)) (ix3 n c h) fun a => ?_).trans ?_
  · match a with
    | ⟨0, _⟩ => rfl
    | ⟨1, _⟩ => rfl
    | ⟨2, _⟩ => rfl
  refine (Host.reduce_eq_fold_single _ _ _ _ reduces_d3 _ _).trans ?_
  unfold foldMax
  refine congrArg (fun f => Finset.fold max negInf f (Finset.univ : Finset (Fin 38))) (funext fun w : Fin 38 => ?_)
  show Scalar.select _ _ _ = _
  have e : reduces_d3.lift (ix3 n c h) w = ix4 n c h w := lift_d3 n c h w
  rw [e, maskW_apply k hk hsl mw n c h, xB_apply]
  rfl

set_option maxRecDepth 8192 in
/-- What the first pass leaves for column bin 0. -/
theorem v127_eq (W : Valuation τ sig (Elt Ideal)) :
    after ops_c3 (after ops_c2 W) (main_v127 : DevRef τ sig)
      = colStage ![0, 0, 0] slices_S128x7x38_S128x1x38_0_0_0 (W (main_arg0 : DevRef τ sig)) (W (main_v91 : DevRef τ sig)) := by
  after_results_simp
  rfl

set_option maxRecDepth 8192 in
/-- What the first pass leaves for column bin 1. -/
theorem v128_eq (W : Valuation τ sig (Elt Ideal)) :
    after ops_c3 (after ops_c2 W) (main_v128 : DevRef τ sig)
      = colStage ![0, 1, 0] slices_S128x7x38_S128x1x38_0_1_0 (W (main_arg0 : DevRef τ sig)) (W (main_v91 : DevRef τ sig)) := by
  after_results_simp
  rfl

set_option maxRecDepth 8192 in
/-- What the first pass leaves for column bin 2. -/
theorem v129_eq (W : Valuation τ sig (Elt Ideal)) :
    after ops_c3 (after ops_c2 W) (main_v129 : DevRef τ sig)
      = colStage ![0, 2, 0] slices_S128x7x38_S128x1x38_0_2_0 (W (main_arg0 : DevRef τ sig)) (W (main_v91 : DevRef τ sig)) := by
  after_results_simp
  rfl

set_option maxRecDepth 8192 in
/-- What the first pass leaves for column bin 3. -/
theorem v130_eq (W : Valuation τ sig (Elt Ideal)) :
    after ops_c3 (after ops_c2 W) (main_v130 : DevRef τ sig)
      = colStage ![0, 3, 0] slices_S128x7x38_S128x1x38_0_3_0 (W (main_arg0 : DevRef τ sig)) (W (main_v91 : DevRef τ sig)) := by
  after_results_simp
  rfl

set_option maxRecDepth 8192 in
/-- What the first pass leaves for column bin 4. -/
theorem v131_eq (W : Valuation τ sig (Elt Ideal)) :
    after ops_c3 (after ops_c2 W) (main_v131 : DevRef τ sig)
      = colStage ![0, 4, 0] slices_S128x7x38_S128x1x38_0_4_0 (W (main_arg0 : DevRef τ sig)) (W (main_v91 : DevRef τ sig)) := by
  after_results_simp
  rfl

set_option maxRecDepth 8192 in
/-- What the first pass leaves for column bin 5. -/
theorem v132_eq (W : Valuation τ sig (Elt Ideal)) :
    after ops_c3 (after ops_c2 W) (main_v132 : DevRef τ sig)
      = colStage ![0, 5, 0] slices_S128x7x38_S128x1x38_0_5_0 (W (main_arg0 : DevRef τ sig)) (W (main_v91 : DevRef τ sig)) := by
  after_results_simp
  rfl

set_option maxRecDepth 8192 in
/-- What the first pass leaves for column bin 6. -/
theorem v133_eq (W : Valuation τ sig (Elt Ideal)) :
    after ops_c3 (after ops_c2 W) (main_v133 : DevRef τ sig)
      = colStage ![0, 6, 0] slices_S128x7x38_S128x1x38_0_6_0 (W (main_arg0 : DevRef τ sig)) (W (main_v91 : DevRef τ sig)) := by
  after_results_simp
  rfl

set_option maxRecDepth 8192 in
/-- The table of per-row column maxima is the join of the seven column bins' arrays along the last axis: when the
    seven arrays are u 0, …, u 6, at (n, c, h, pw) it reads u pw at (n, c, h, 0). -/
theorem v134_apply (U : Valuation τ sig (Elt Ideal)) (u : Fin 7 → (S128x512x38x1.Idx → EReal))
    (h0 : U (main_v127 : DevRef τ sig) = u 0) (h1 : U (main_v128 : DevRef τ sig) = u 1)
    (h2 : U (main_v129 : DevRef τ sig) = u 2) (h3 : U (main_v130 : DevRef τ sig) = u 3)
    (h4 : U (main_v131 : DevRef τ sig) = u 4) (h5 : U (main_v132 : DevRef τ sig) = u 5)
    (h6 : U (main_v133 : DevRef τ sig) = u 6) (n : Fin 128) (c : Fin 512) (h : Fin 38) (pw : Fin 7) :
    (after ops_c4 U (main_v134 : DevRef τ sig) : S128x512x38x7.Idx → EReal) (ix4 n c h pw) = u pw (ix4 n c h (0 : Fin 1)) := by
  have e : (after ops_c4 U (main_v134 : DevRef τ sig) : S128x512x38x7.Idx → EReal)
      = concatenate S128x512x38x7 3 [⟨S128x512x38x1, U (main_v127 : DevRef τ sig)⟩, ⟨S128x512x38x1, U (main_v128 : DevRef τ sig)⟩,
          ⟨S128x512x38x1, U (main_v129 : DevRef τ sig)⟩, ⟨S128x512x38x1, U (main_v130 : DevRef τ sig)⟩,
          ⟨S128x512x38x1, U (main_v131 : DevRef τ sig)⟩, ⟨S128x512x38x1, U (main_v132 : DevRef τ sig)⟩,
          ⟨S128x512x38x1, U (main_v133 : DevRef τ sig)⟩]
          concatenates_S128x512x38x1_S128x512x38x1_S128x512x38x1_S128x512x38x1_S128x512x38x1_S128x512x38x1_S128x512x38x1_S128x512x38x7_d3 := by
    after_results_simp
    rfl
  rw [e, h0, h1, h2, h3, h4, h5, h6]
  exact cat3_apply u _ n c h pw

/-- THE FIRST PASS: after it, the table of per-row column maxima holds at (n, c, h, pw) the maximum, over the columns w
    of bin pw of box n, of the feature map at (c, h, w), and -∞ when the bin is empty. -/
theorem stage1_apply (W : Valuation τ sig (Elt Ideal)) (n : Fin 128) (c : Fin 512) (h : Fin 38) (pw : Fin 7) :
    (after ops_c4 (after ops_c3 (after ops_c2 W)) (main_v134 : DevRef τ sig) : S128x512x38x7.Idx → EReal) (ix4 n c h pw)
      = foldMax fun w => Scalar.select ((W (main_v91 : DevRef τ sig) : S128x7x38.Idx → BitVec 1) (ix3 n pw w))
          ((W (main_arg0 : DevRef τ sig) : S1x512x38x38.Idx → EReal) (ix4 (0 : Fin 1) c h w)) negInf :=
  (v134_apply (after ops_c3 (after ops_c2 W))
    (fun k : Fin 7 => colStage ![0, k.val, 0] (slices_bin k) (W (main_arg0 : DevRef τ sig)) (W (main_v91 : DevRef τ sig)))
    (v127_eq W) (v128_eq W) (v129_eq W) (v130_eq W) (v131_eq W) (v132_eq W) (v133_eq W) n c h pw).trans
    (colStage_apply pw.val pw.isLt (slices_bin pw) _ _ n c h)

end Cert.ReferenceIdeal.RValue

end
-- ==== Proof.RStage2.lean ====
/-
  The second pass of the pooling, read at an index.

  For each of the seven row bins ph the program cuts row ph out of the row-membership table, spreads it over
  channels and column bins, keeps the table of per-row column maxima where the bit is set and -∞ elsewhere, and
  takes the maximum along the rows; the seven results, each with a unit third axis, are joined along that axis.
  Read at (n, c, ph, pw) the result is therefore the maximum over the rows h with membership bit (n, ph, h) set of
  the table at (n, c, h, pw), from -∞.
-/
import proofs.«123092_j51488067944902_1_alg».proof.Proof.RefOps
import proofs.«123092_j51488067944902_1_alg».proof.Proof.Spec
import Idealize.ShloMosaic.Lib.Pipeline.Value
import Idealize.ShloMosaic.Lib.ValueIdx
import Idealize.ShloMosaic.PureOps.Ideal.Laws
import proofs.«123092_j51488067944902_1_alg».proof.Proof.RLayout

noncomputable section

namespace Cert.ReferenceIdeal.RValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.RoiPool

/-- The maxima over the rows of one bin, as the program computes them from the table of per-row column maxima. -/
def rowStage (off : Fin 3 → Nat) (hsl : S128x7x38.Slices off S128x1x38)
    (v : S128x512x38x7.Idx → EReal) (mh : S128x7x38.Idx → BitVec 1) : S128x512x1x7.Idx → EReal :=
  broadcastInDim S128x512x1x7 ![0, 1, 3] bcast_S128x512x7_S128x512x1x7_0_1_3
    (Host.reduce (FloatOps.maximumf (F := Ideal) (φ := .f32))
      (select
        (broadcastInDim S128x512x38x7 ![0, 1, 2, 3] bcast_S128x1x38x1_S128x512x38x7_0_1_2_3
          (broadcastInDim S128x1x38x1 ![0, 2] bcast_S128x38_S128x1x38x1_0_2
            (shapeCast S128x38 (extractStridedSlice S128x1x38 off mh hsl) shapeCasts_S128x1x38_S128x38)))
        v
        (broadcastInDim S128x512x38x7 ![] bcast_S_S128x512x38x7 (constant (F := Ideal) S_ .f32 0xFF800000#32)))
      (constant (F := Ideal) S_ .f32 0xFF800000#32) reducesTo_S128x512x38x7_S128x512x7_d2 h_S_)

theorem reduces_d2 : S128x512x38x7.Reduces [2] S128x512x7 := by decide

/-- Over (n, c, pw), the index with row h put back on the third axis is (n, c, h, pw). -/
theorem lift_d2 (n : Fin 128) (c : Fin 512) (pw : Fin 7) (h : Fin 38) :
    reduces_d2.lift (ix3 n c pw) h = ix4 n c h pw := by
  funext a; apply Fin.ext
  fin_cases a <;> rfl

/-- The row mask of bin k, spread over channels and column bins, read at (n, c, h, pw): the table at (n, k, h). -/
theorem maskH_apply (k : Nat) (hk : k < 7) (hsl : S128x7x38.Slices ![0, k, 0] S128x1x38) (mh : S128x7x38.Idx → BitVec 1)
    (n : Fin 128) (c : Fin 512) (h : Fin 38) (pw : Fin 7) :
    broadcastInDim S128x512x38x7 ![0, 1, 2, 3] bcast_S128x1x38x1_S128x512x38x7_0_1_2_3
        (broadcastInDim S128x1x38x1 ![0, 2] bcast_S128x38_S128x1x38x1_0_2
          (shapeCast S128x38 (extractStridedSlice S128x1x38 ![0, k, 0] mh hsl) shapeCasts_S128x1x38_S128x38)) (ix4 n c h pw)
      = mh (ix3 n (⟨k, hk⟩ : Fin 7) h) := by
  refine (broadcastInDim_apply _ _ _ (ix4 n c h pw) (ix4 n (0 : Fin 1) h (0 : Fin 1)) fun a => ?_).trans ?_
  · match a with
    | ⟨0, _⟩ => rfl
    | ⟨1, _⟩ => rfl
    | ⟨2, _⟩ => rfl
    | ⟨3, _⟩ => rfl
  refine (broadcastInDim_apply _ _ _ (ix4 n (0 : Fin 1) h (0 : Fin 1)) (ix2 n h) fun a => ?_).trans ?_
  · match a with
    | ⟨0, _⟩ => rfl
    | ⟨1, _⟩ => rfl
  refine (shapeCast_apply _ _ (ix2 n h) (ix3 n (0 : Fin 1) h) ?_).trans ?_
  · rw [Shape.rowMajor_val_three, Shape.rowMajor_val_two]
    show (n.val * 1 + 0) * 38 + h.val = n.val * 38 + h.val
    omega
  refine extractStridedSlice_apply _ _ _ (ix3 n (0 : Fin 1) h) (ix3 n (⟨k, hk⟩ : Fin 7) h) fun a => ?_
  match a with
  | ⟨0, _⟩ => show n.val = 0 + n.val; omega
  | ⟨1, _⟩ => show k = k + 0; omega
  | ⟨2, _⟩ => show h.val = 0 + h.val; omega

/-- Stage 2 at (n, c, 0, pw): the maximum over the rows of bin k of the per-row maxima of column bin pw. -/
theorem rowStage_apply (k : Nat) (hk : k < 7) (hsl : S128x7x38.Slices ![0, k, 0] S128x1x38)
    (v : S128x512x38x7.Idx → EReal) (mh : S128x7x38.Idx → BitVec 1) (n : Fin 128) (c : Fin 512) (pw : Fin 7) :
    rowStage ![0, k, 0] hsl v mh (ix4 n c (0 : Fin 1) pw)
      = foldMax fun h => Scalar.select (mh (ix3 n (⟨k, hk⟩ : Fin 7) h)) (v (ix4 n c h pw)) negInf := by
  unfold rowStage
  refine (broadcastInDim_apply _ _ _ (ix4 n c (0 : Fin 1) pw) (ix3 n c pw) fun a => ?_).trans ?_
  · match a with
    | ⟨0, _⟩ => rfl
    | ⟨1, _⟩ => rfl
    | ⟨2, _⟩ => rfl
  refine (Host.reduce_eq_fold_single _ _ _ _ reduces_d2 _ _).trans ?_
  unfold foldMax
  refine congrArg (fun f => Finset.fold max negInf f (Finset.univ : Finset (Fin 38))) (funext fun h : Fin 38 => ?_)
  show Scalar.select _ _ _ = _
  have e : reduces_d2.lift (ix3 n c pw) h = ix4 n c h pw := lift_d2 n c pw h
  rw [e, maskH_apply k hk hsl mh n c h pw]
  rfl

set_option maxRecDepth 8192 in
/-- What the second pass leaves for row bin 0. -/
theorem v170_eq (U : Valuation τ sig (Elt Ideal)) :
    after ops_c6 (after ops_c5 U) (main_v170 : DevRef τ sig)
      = rowStage ![0, 0, 0] slices_S128x7x38_S128x1x38_0_0_0 (U (main_v134 : DevRef τ sig)) (U (main_v54 : DevRef τ sig)) := by
  after_results_simp
  rfl

set_option maxRecDepth 8192 in
/-- What the second pass leaves for row bin 1. -/
theorem v171_eq (U : Valuation τ sig (Elt Ideal)) :
    after ops_c6 (after ops_c5 U) (main_v171 : DevRef τ sig)
      = rowStage ![0, 1, 0] slices_S128x7x38_S128x1x38_0_1_0 (U (main_v134 : DevRef τ sig)) (U (main_v54 : DevRef τ sig)) := by
  after_results_simp
  rfl

set_option maxRecDepth 8192 in
/-- What the second pass leaves for row bin 2. -/
theorem v172_eq (U : Valuation τ sig (Elt Ideal)) :
    after ops_c6 (after ops_c5 U) (main_v172 : DevRef τ sig)
      = rowStage ![0, 2, 0] slices_S128x7x38_S128x1x38_0_2_0 (U (main_v134 : DevRef τ sig)) (U (main_v54 : DevRef τ sig)) := by
  after_results_simp
  rfl

set_option maxRecDepth 8192 in
/-- What the second pass leaves for row bin 3. -/
theorem v173_eq (U : Valuation τ sig (Elt Ideal)) :
    after ops_c6 (after ops_c5 U) (main_v173 : DevRef τ sig)
      = rowStage ![0, 3, 0] slices_S128x7x38_S128x1x38_0_3_0 (U (main_v134 : DevRef τ sig)) (U (main_v54 : DevRef τ sig)) := by
  after_results_simp
  rfl

set_option maxRecDepth 8192 in
/-- What the second pass leaves for row bin 4. -/
theorem v174_eq (U : Valuation τ sig (Elt Ideal)) :
    after ops_c6 (after ops_c5 U) (main_v174 : DevRef τ sig)
      = rowStage ![0, 4, 0] slices_S128x7x38_S128x1x38_0_4_0 (U (main_v134 : DevRef τ sig)) (U (main_v54 : DevRef τ sig)) := by
  after_results_simp
  rfl

set_option maxRecDepth 8192 in
/-- What the second pass leaves for row bin 5. -/
theorem v175_eq (U : Valuation τ sig (Elt Ideal)) :
    after ops_c6 (after ops_c5 U) (main_v175 : DevRef τ sig)
      = rowStage ![0, 5, 0] slices_S128x7x38_S128x1x38_0_5_0 (U (main_v134 : DevRef τ sig)) (U (main_v54 : DevRef τ sig)) := by
  after_results_simp
  rfl

set_option maxRecDepth 8192 in
/-- What the second pass leaves for row bin 6. -/
theorem v176_eq (U : Valuation τ sig (Elt Ideal)) :
    after ops_c6 (after ops_c5 U) (main_v176 : DevRef τ sig)
      = rowStage ![0, 6, 0] slices_S128x7x38_S128x1x38_0_6_0 (U (main_v134 : DevRef τ sig)) (U (main_v54 : DevRef τ sig)) := by
  after_results_simp
  rfl

set_option maxRecDepth 8192 in
/-- The result is the join of the seven row bins' arrays along the third axis: when the seven arrays are u 0, …, u 6,
    at (n, c, ph, pw) it reads u ph at (n, c, 0, pw). -/
theorem v177_apply (U : Valuation τ sig (Elt Ideal)) (u : Fin 7 → (S128x512x1x7.Idx → EReal))
    (h0 : U (main_v170 : DevRef τ sig) = u 0) (h1 : U (main_v171 : DevRef τ sig) = u 1)
    (h2 : U (main_v172 : DevRef τ sig) = u 2) (h3 : U (main_v173 : DevRef τ sig) = u 3)
    (h4 : U (main_v174 : DevRef τ sig) = u 4) (h5 : U (main_v175 : DevRef τ sig) = u 5)
    (h6 : U (main_v176 : DevRef τ sig) = u 6) (n : Fin 128) (c : Fin 512) (ph pw : Fin 7) :
    (after ops_c7 U (main_v177 : DevRef τ sig) : S128x512x7x7.Idx → EReal) (ix4 n c ph pw) = u ph (ix4 n c (0 : Fin 1) pw) := by
  have e : (after ops_c7 U (main_v177 : DevRef τ sig) : S128x512x7x7.Idx → EReal)
      = concatenate S128x512x7x7 2 [⟨S128x512x1x7, U (main_v170 : DevRef τ sig)⟩, ⟨S128x512x1x7, U (main_v171 : DevRef τ sig)⟩,
          ⟨S128x512x1x7, U (main_v172 : DevRef τ sig)⟩, ⟨S128x512x1x7, U (main_v173 : DevRef τ sig)⟩,
          ⟨S128x512x1x7, U (main_v174 : DevRef τ sig)⟩, ⟨S128x512x1x7, U (main_v175 : DevRef τ sig)⟩,
          ⟨S128x512x1x7, U (main_v176 : DevRef τ sig)⟩]
          concatenates_S128x512x1x7_S128x512x1x7_S128x512x1x7_S128x512x1x7_S128x512x1x7_S128x512x1x7_S128x512x1x7_S128x512x7x7_d2 := by
    after_results_simp
    rfl
  rw [e, h0, h1, h2, h3, h4, h5, h6]
  exact cat2_apply u _ n c ph pw

/-- THE SECOND PASS: after it, the result holds at (n, c, ph, pw) the maximum, over the rows h of bin ph of box n, of the
    table of per-row column maxima at (n, c, h, pw), and -∞ when the bin is empty. -/
theorem stage2_apply (U : Valuation τ sig (Elt Ideal)) (n : Fin 128) (c : Fin 512) (ph pw : Fin 7) :
    (after ops_c7 (after ops_c6 (after ops_c5 U)) (main_v177 : DevRef τ sig) : S128x512x7x7.Idx → EReal) (ix4 n c ph pw)
      = foldMax fun h => Scalar.select ((U (main_v54 : DevRef τ sig) : S128x7x38.Idx → BitVec 1) (ix3 n ph h))
          ((U (main_v134 : DevRef τ sig) : S128x512x38x7.Idx → EReal) (ix4 n c h pw)) negInf :=
  (v177_apply (after ops_c6 (after ops_c5 U))
    (fun k : Fin 7 => rowStage ![0, k.val, 0] (slices_bin k) (U (main_v134 : DevRef τ sig)) (U (main_v54 : DevRef τ sig)))
    (v170_eq U) (v171_eq U) (v172_eq U) (v173_eq U) (v174_eq U) (v175_eq U) (v176_eq U) n c ph pw).trans
    (rowStage_apply ph.val ph.isLt (slices_bin ph) _ _ n c pw)

end Cert.ReferenceIdeal.RValue

end
-- ==== Proof.RValue.lean ====
/-
  The reference's result, read at an index, is the pooling by selection of the feature map under the two
  membership tables.

  The second pass reads the row-membership table and the table of per-row column maxima as the first pass leaves
  them; the first pass does not write the row-membership table, and leaves in the other table, at (n, c, h, pw),
  the maximum over the columns of bin pw. Substituting one into the other gives, at (n, c, ph, pw), the maximum
  over the rows of bin ph of the maxima over the columns of bin pw: the two-pass pooling of the specification.
-/
import proofs.«123092_j51488067944902_1_alg».proof.Proof.RStage1
import proofs.«123092_j51488067944902_1_alg».proof.Proof.RStage2

noncomputable section

namespace Cert.ReferenceIdeal.RValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.RoiPool

set_option maxRecDepth 8192 in
/-- The first pass and the join after it write nothing to the row-membership table. -/
theorem v54_keep (W : Valuation τ sig (Elt Ideal)) :
    after ops_c4 (after ops_c3 (after ops_c2 W)) (main_v54 : DevRef τ sig) = W (main_v54 : DevRef τ sig) := by
  after_results_simp

/-- THE REFERENCE'S VALUE: from any contents W, after the two passes the result buffer holds the pooling by selection
    of the feature map W holds, under the column- and row-membership tables W holds. -/
theorem out_eq (W : Valuation τ sig (Elt Ideal)) :
    (after ops_c7 (after ops_c6 (after ops_c5 (after ops_c4 (after ops_c3 (after ops_c2 W))))) (main_v177 : DevRef τ sig)
        : S128x512x7x7.Idx → EReal)
      = pooledR (W (main_arg0 : DevRef τ sig)) (W (main_v91 : DevRef τ sig)) (W (main_v54 : DevRef τ sig)) := by
  funext i
  obtain ⟨n, c, ph, pw, rfl⟩ : ∃ (n : Fin 128) (c : Fin 512) (ph pw : Fin 7), i = ix4 n c ph pw :=
    ⟨_, _, _, _, eq_ix4 i⟩
  rw [stage2_apply, v54_keep W]
  show _ = pooledRAt _ _ _ n c ph pw
  unfold pooledRAt
  refine congrArg foldMax (funext fun h => ?_)
  rw [stage1_apply]

end Cert.ReferenceIdeal.RValue

end
-- ==== Proof.KPayload.lean ====
/-
  The arithmetic of one grid point, read entry by entry.

  The body takes two maxima in a row. For every output column pw it adds row pw of the column table to every
  row of the feature map and takes the maximum over the 38 columns: tmp(c, pw, h) = max_w (x(c, h, w) + bw(pw, w)).
  Then for every output row ph it adds row ph of the row table along the last axis of tmp and takes the maximum
  over the 38 rows: out(c, ph, pw) = max_h (tmp(c, pw, h) + bh(ph, h)). Each maximum starts from -∞.

  The program spells the fourteen maxima in slightly different ways (a table row is cut out before or inside the
  expression); every spelling unfolds to one of two expressions, the first maximum (a vector of 38 biases against
  the feature map) and the second (a vector of 38 biases against tmp). They are read here at explicit coordinates.
-/
import proofs.«123092_j51488067944902_1_alg».proof.Proof.Spec
import proofs.«123092_j51488067944902_1_alg».proof.Proof.Gen.KernelIdeal.Skeleton
import Idealize.ShloMosaic.Lib.ValueLayout
import Idealize.ShloMosaic.PureOps.Ideal.Laws

noncomputable section

namespace Cert.KernelIdeal.KValue

open Cert.KernelIdeal Cert.KernelIdeal.Gen Cert.RoiPool Idealize.ShloMosaic Idealize.ShloMosaic.ValueIdx

/-! ## The two maxima as functions of explicit coordinates -/

/-- The first maximum: over the columns of row h of channel c, with the biases of output column pw. -/
def tmpAt (x0 : S512x38x38.Idx → EReal) (x1 : S1x7x38.Idx → EReal) (c : Fin 512) (pw : Fin 7) (h : Fin 38) : EReal :=
  foldMax fun w => x0 (ix3 c h w) + x1 (ix3 (0 : Fin 1) pw w)

/-- The first maxima as one array over (channel, output column, row). -/
def tmpFn (x0 : S512x38x38.Idx → EReal) (x1 : S1x7x38.Idx → EReal) : S512x7x38.Idx → EReal :=
  fun j => tmpAt x0 x1 (j 0) (j 1) (j 2)

/-- The second maximum: over the rows, with the biases of output row ph. -/
def blockAt (x0 : S512x38x38.Idx → EReal) (x1 x2 : S1x7x38.Idx → EReal) (c : Fin 512) (ph pw : Fin 7) : EReal :=
  foldMax fun h => tmpAt x0 x1 c pw h + x2 (ix3 (0 : Fin 1) ph h)

/-- One grid point's output block as one function of its three input blocks. -/
def blockFn (x0 : S512x38x38.Idx → EReal) (x1 x2 : S1x7x38.Idx → EReal) : S1x512x7x7.Idx → EReal :=
  fun y => blockAt x0 x1 x2 (y 1) (y 2) (y 3)

theorem tmpFn_apply (x0 : S512x38x38.Idx → EReal) (x1 : S1x7x38.Idx → EReal) (c : Fin 512) (pw : Fin 7) (h : Fin 38) :
    tmpFn x0 x1 (ix3 c pw h) = tmpAt x0 x1 c pw h := rfl

theorem blockFn_apply (x0 : S512x38x38.Idx → EReal) (x1 x2 : S1x7x38.Idx → EReal) (u : Fin 1) (c : Fin 512) (ph pw : Fin 7) :
    blockFn x0 x1 x2 (ix4 u c ph pw) = blockAt x0 x1 x2 c ph pw := rfl

/-! ## Layout steps -/

/-- A vector of 38 entries spread along the last axis of a rank-3 array reads, at (i, j, w), its entry w. -/
theorem spread_apply {n0 n1 : Nat} (b : FVec Ideal S38 .f32) (hb : S1x1x38.Broadcasts ⟨3, ![n0, n1, 38]⟩)
    (i : Fin n0) (j : Fin n1) (w : Fin 38) :
    broadcastTo ⟨3, ![n0, n1, 38]⟩ (shapeCast S1x1x38 b shapeCasts_S38_S1x1x38) hb (ix3 i j w) = b (ix1 w) := by
  refine (broadcastTo_apply _ hb (ix3 i j w) (ix3 (0 : Fin 1) (0 : Fin 1) w) fun a => ?_).trans ?_
  · match a with
    | ⟨0, _⟩ => rfl
    | ⟨1, _⟩ => rfl
    | ⟨2, _⟩ => rfl
  · refine shapeCast_apply b shapeCasts_S38_S1x1x38 _ (ix1 w) ?_
    rw [Shape.rowMajor_val_one, Shape.rowMajor_val_three]
    show w.val = (0 * 1 + 0) * 38 + w.val
    omega

/-- Row p of a 7 × 38 table, cut out and flattened, reads entry (p, w) at w. -/
theorem row_apply (v : FVec Ideal S7x38 .f32) (o : Nat) (hs : S7x38.Slices ![o, 0] S1x38) (p : Fin 7) (hp : p.val = o)
    (w : Fin 38) :
    shapeCast S38 (extractStridedSlice S1x38 ![o, 0] v hs) shapeCasts_S1x38_S38 (ix1 w) = v (ix2 p w) :=
  (shapeCast_1a_a_apply _ _ w).trans (slice2_axis0_apply o v hs (0 : Fin 1) w p (by rw [hp]; rfl))

/-- A table block with its leading unit axis dropped reads entry (0, p, w) at (p, w). -/
theorem table_apply (x : Vec Ideal S1x7x38 .f32) (p : Fin 7) (w : Fin 38) :
    k0_pay5 x (ix2 p w) = x (ix3 (0 : Fin 1) p w) :=
  shapeCast_1ab_ab_apply x shapeCasts_S1x7x38_S7x38 p w

/-- The feature map passes through its identity cast unchanged. -/
theorem map_apply (x : Vec Ideal S512x38x38 .f32) : k0_pay4 x = x :=
  shapeCast_self x shapeCasts_S512x38x38_S512x38x38

/-- The index over (c, h) with column w put back on the reduced axis. -/
theorem lift1 (c : Fin 512) (h w : Fin 38) : reduces_S512x38x38_S512x38.lift (ix2 c h) w = ix3 c h w :=
  funext fun a => Fin.ext (by match a with | ⟨0, _⟩ => rfl | ⟨1, _⟩ => rfl | ⟨2, _⟩ => rfl)

/-- The index over (c, pw) with row h put back on the reduced axis. -/
theorem lift2 (c : Fin 512) (pw : Fin 7) (h : Fin 38) : reduces_S512x7x38_S512x7.lift (ix2 c pw) h = ix3 c pw h :=
  funext fun a => Fin.ext (by match a with | ⟨0, _⟩ => rfl | ⟨1, _⟩ => rfl | ⟨2, _⟩ => rfl)

/-! ## The two expressions at an entry -/

/-- The first maximum with a vector of biases: at (c, ·, h), the maximum over w of v(c, h, w) + b(w). -/
theorem colmax_apply (v : FVec Ideal S512x38x38 .f32) (b : FVec Ideal S38 .f32) (c : Fin 512) (u : Fin 1) (h : Fin 38) :
    k0_pay11 v b (ix3 c u h) = foldMax fun w => v (ix3 c h w) + b (ix1 w) := by
  unfold k0_pay11
  refine (shapeCast_apply _ shapeCasts_S512x38_S512x1x38 (ix3 c u h) (ix2 c h) ?_).trans ?_
  · rw [Shape.rowMajor_val_two, Shape.rowMajor_val_three]
    show c.val * 38 + h.val = (c.val * 1 + u.val) * 38 + h.val
    omega
  refine (Ideal.multiReduction_maximumf_single (φ := .f32)
    (addf v (broadcastTo S512x38x38 (shapeCast S1x1x38 b shapeCasts_S38_S1x1x38) broadcasts_S1x1x38_S512x38x38))
    (0xFF800000#32 : BitVec 32) reduces_S512x38x38_S512x38 (.inl rfl) rfl (ix2 c h)).trans ?_
  show Finset.fold max negInf _ (Finset.univ : Finset (Fin 38)) = Finset.fold max negInf _ (Finset.univ : Finset (Fin 38))
  refine congrArg (fun f => Finset.fold max negInf f (Finset.univ : Finset (Fin 38))) (funext fun (w : Fin 38) => ?_)
  show addf v _ (reduces_S512x38x38_S512x38.lift (ix2 c h) w) = _
  rw [lift1, addf_apply]
  exact congrArg (v (ix3 c h w) + ·) (spread_apply b broadcasts_S1x1x38_S512x38x38 c h w)

/-- The second maximum with a vector of biases: at (·, c, ·, pw), the maximum over h of t(c, pw, h) + b(h). -/
theorem rowmax_apply (t : Vec Ideal S512x7x38 .f32) (b : FVec Ideal S38 .f32) (u : Fin 1) (c : Fin 512) (u' : Fin 1) (pw : Fin 7) :
    k0_pay16 t b (ix4 u c u' pw) = foldMax fun h => t (ix3 c pw h) + b (ix1 h) := by
  unfold k0_pay16
  refine (shapeCast_apply _ shapeCasts_S512x7_S1x512x1x7 (ix4 u c u' pw) (ix2 c pw) ?_).trans ?_
  · rw [Shape.rowMajor_val_two, Shape.rowMajor_val_four]
    show c.val * 7 + pw.val = ((u.val * 512 + c.val) * 1 + u'.val) * 7 + pw.val
    omega
  refine (Ideal.multiReduction_maximumf_single (φ := .f32)
    (addf (F := Ideal) (φ := .f32) t (broadcastTo S512x7x38 (shapeCast S1x1x38 b shapeCasts_S38_S1x1x38) broadcasts_S1x1x38_S512x7x38))
    (0xFF800000#32 : BitVec 32) reduces_S512x7x38_S512x7 (.inl rfl) rfl (ix2 c pw)).trans ?_
  show Finset.fold max negInf _ (Finset.univ : Finset (Fin 38)) = Finset.fold max negInf _ (Finset.univ : Finset (Fin 38))
  refine congrArg (fun f => Finset.fold max negInf f (Finset.univ : Finset (Fin 38))) (funext fun (h : Fin 38) => ?_)
  show addf (F := Ideal) (φ := .f32) t _ (reduces_S512x7x38_S512x7.lift (ix2 c pw) h) = _
  rw [lift2, addf_apply]
  exact congrArg (t (ix3 c pw h) + ·) (spread_apply b broadcasts_S1x1x38_S512x7x38 c pw h)

/-- The first maximum with the biases of table row p. -/
theorem colmax_row (x0 : Vec Ideal S512x38x38 .f32) (x1 : Vec Ideal S1x7x38 .f32) (o : Nat) (hs : S7x38.Slices ![o, 0] S1x38)
    (p : Fin 7) (hp : p.val = o) (c : Fin 512) (u : Fin 1) (h : Fin 38) :
    k0_pay11 (k0_pay4 x0) (shapeCast S38 (extractStridedSlice S1x38 ![o, 0] (k0_pay5 x1) hs) shapeCasts_S1x38_S38) (ix3 c u h)
      = tmpAt x0 x1 c p h := by
  rw [colmax_apply, map_apply]
  unfold tmpAt
  refine congrArg foldMax (funext fun w => ?_)
  rw [row_apply _ o hs p hp w, table_apply]

/-- The second maximum with the biases of table row p. -/
theorem rowmax_row (t : Vec Ideal S512x7x38 .f32) (x2 : Vec Ideal S1x7x38 .f32) (o : Nat) (hs : S7x38.Slices ![o, 0] S1x38)
    (p : Fin 7) (hp : p.val = o) (u : Fin 1) (c : Fin 512) (u' : Fin 1) (pw : Fin 7) :
    k0_pay16 t (shapeCast S38 (extractStridedSlice S1x38 ![o, 0] (k0_pay5 x2) hs) shapeCasts_S1x38_S38) (ix4 u c u' pw)
      = foldMax fun h => t (ix3 c pw h) + x2 (ix3 (0 : Fin 1) p h) := by
  rw [rowmax_apply]
  refine congrArg foldMax (funext fun h => ?_)
  rw [row_apply _ o hs p hp h, table_apply]

/-! ## The seven first maxima as the program spells them -/

section scratch
variable (x0 : Vec Ideal S512x38x38 .f32) (x1 : Vec Ideal S1x7x38 .f32) (c : Fin 512) (u : Fin 1) (h : Fin 38)

theorem tmp0 : k0_pay7 x0 x1 (ix3 c u h) = tmpAt x0 x1 c 0 h := colmax_row x0 x1 0 slices_S7x38_o0_0_S1x38 0 rfl c u h
theorem tmp1 : k0_pay8 x0 x1 (ix3 c u h) = tmpAt x0 x1 c 1 h := colmax_row x0 x1 1 slices_S7x38_o1_0_S1x38 1 rfl c u h
theorem tmp2 : k0_pay9 x0 x1 (ix3 c u h) = tmpAt x0 x1 c 2 h := colmax_row x0 x1 2 slices_S7x38_o2_0_S1x38 2 rfl c u h
theorem tmp3 : k0_pay11 (k0_pay4 x0) (k0_pay10 x1) (ix3 c u h) = tmpAt x0 x1 c 3 h :=
  colmax_row x0 x1 3 slices_S7x38_o3_0_S1x38 3 rfl c u h
theorem tmp4 : k0_pay12 (k0_pay4 x0) (k0_pay5 x1) (ix3 c u h) = tmpAt x0 x1 c 4 h :=
  colmax_row x0 x1 4 slices_S7x38_o4_0_S1x38 4 rfl c u h
theorem tmp5 : k0_pay13 (k0_pay4 x0) (k0_pay5 x1) (ix3 c u h) = tmpAt x0 x1 c 5 h :=
  colmax_row x0 x1 5 slices_S7x38_o5_0_S1x38 5 rfl c u h
theorem tmp6 : k0_pay14 (k0_pay4 x0) (k0_pay5 x1) (ix3 c u h) = tmpAt x0 x1 c 6 h :=
  colmax_row x0 x1 6 slices_S7x38_o6_0_S1x38 6 rfl c u h

end scratch

/-! ## The seven second maxima as the program spells them -/

section output
variable (t : Vec Ideal S512x7x38 .f32) (x2 : Vec Ideal S1x7x38 .f32) (u : Fin 1) (c : Fin 512) (u' : Fin 1) (pw : Fin 7)

theorem out0 : k0_pay16 t (k0_pay15 (k0_pay6 x2)) (ix4 u c u' pw) = foldMax fun h => t (ix3 c pw h) + x2 (ix3 (0 : Fin 1) 0 h) :=
  rowmax_row t x2 0 slices_S7x38_o0_0_S1x38 0 rfl u c u' pw
theorem out1 : k0_pay17 (k0_pay6 x2) t (ix4 u c u' pw) = foldMax fun h => t (ix3 c pw h) + x2 (ix3 (0 : Fin 1) 1 h) :=
  rowmax_row t x2 1 slices_S7x38_o1_0_S1x38 1 rfl u c u' pw
theorem out2 : k0_pay18 (k0_pay6 x2) t (ix4 u c u' pw) = foldMax fun h => t (ix3 c pw h) + x2 (ix3 (0 : Fin 1) 2 h) :=
  rowmax_row t x2 2 slices_S7x38_o2_0_S1x38 2 rfl u c u' pw
theorem out3 : k0_pay19 (k0_pay6 x2) t (ix4 u c u' pw) = foldMax fun h => t (ix3 c pw h) + x2 (ix3 (0 : Fin 1) 3 h) :=
  rowmax_row t x2 3 slices_S7x38_o3_0_S1x38 3 rfl u c u' pw
theorem out4 : k0_pay1 t (k0_pay20 (k0_pay6 x2)) (ix4 u c u' pw) = foldMax fun h => t (ix3 c pw h) + x2 (ix3 (0 : Fin 1) 4 h) :=
  rowmax_row t x2 4 slices_S7x38_o4_0_S1x38 4 rfl u c u' pw
theorem out5 : k0_pay2 (k0_pay6 x2) t (ix4 u c u' pw) = foldMax fun h => t (ix3 c pw h) + x2 (ix3 (0 : Fin 1) 5 h) :=
  rowmax_row t x2 5 slices_S7x38_o5_0_S1x38 5 rfl u c u' pw
theorem out6 : k0_pay3 (k0_pay6 x2) t (ix4 u c u' pw) = foldMax fun h => t (ix3 c pw h) + x2 (ix3 (0 : Fin 1) 6 h) :=
  rowmax_row t x2 6 slices_S7x38_o6_0_S1x38 6 rfl u c u' pw

end output

end Cert.KernelIdeal.KValue

end
-- ==== Proof.KBlock.lean ====
/-
  One grid point's output block as one function of its three input blocks.

  The body writes its seven first maxima into the seven slices tmp[:, pw, :] of a scratch array and then reads the
  whole scratch back: the seven slices tile the scratch, and each holds the first maxima of its output column, so the
  array read back is the one function tmpFn of the feature map and the column table. The seven second maxima are then
  written into the seven slices out[0, :, ph, :] of the output block, which they tile; each is the second maximum of
  its output row taken over tmpFn. So the output block is blockFn of the three input blocks, entry by entry.
-/
import proofs.«123092_j51488067944902_1_alg».proof.Proof.KPayload
import proofs.«123092_j51488067944902_1_alg».proof.Proof.Gen.KernelIdeal.Frame
import Idealize.ShloMosaic.Lib.Pipeline.Value
import Idealize.ShloMosaic.Lib.Tactic

set_option maxRecDepth 16384

noncomputable section

namespace Cert.KernelIdeal.KValue

open Cert.KernelIdeal Cert.KernelIdeal.Gen Cert.RoiPool Idealize.ShloMosaic Idealize.ShloMosaic.ValueIdx
open Idealize.ShloMosaic.TcCoe Idealize.ShloMosaic.Tactic Idealize.SL.Sem

theorem hz3 : (![0, 0, 0] : Fin 3 → Nat) = fun _ => 0 := funext fun a => by fin_cases a <;> rfl

/-- Slice o of the scratch along its middle axis: its entry (c, ·, h) is the scratch's entry (c, o, h). -/
theorem emb_tmp (o : Nat) (p : Fin 7) (hp : p.val = o) (inb : ∀ a, (![0, o, 0] : Fin 3 → Nat) a + S512x1x38.size a ≤ S512x7x38.size a)
    (c : Fin 512) (u : Fin 1) (h : Fin 38) :
    (Rect.unit (s := S512x7x38) ![0, o, 0] S512x1x38.size inb).emb (ix3 c u h) = ix3 c p h := by
  funext a; apply Fin.ext
  match a with
  | ⟨0, _⟩ => show 0 + 1 * c.val = c.val; omega
  | ⟨1, _⟩ => show o + 1 * u.val = p.val; omega
  | ⟨2, _⟩ => show 0 + 1 * h.val = h.val; omega

/-- Slice o of the output block along its row axis: its entry (·, c, ·, pw) is the block's entry (0, c, o, pw). -/
theorem emb_out (o : Nat) (p : Fin 7) (hp : p.val = o) (inb : ∀ a, (![0, 0, o, 0] : Fin 4 → Nat) a + (![1, 512, 1, 7] : Fin 4 → Nat) a ≤ S1x512x7x7.size a)
    (u : Fin 1) (c : Fin 512) (u' : Fin 1) (pw : Fin 7) :
    (Rect.unit (s := S1x512x7x7) ![0, 0, o, 0] ![1, 512, 1, 7] inb).emb (ix4 u c u' pw) = ix4 (0 : Fin 1) c p pw := by
  funext a; apply Fin.ext
  match a with
  | ⟨0, _⟩ => show 0 + 1 * u.val = 0; omega
  | ⟨1, _⟩ => show 0 + 1 * c.val = c.val; omega
  | ⟨2, _⟩ => show o + 1 * u'.val = p.val; omega
  | ⟨3, _⟩ => show 0 + 1 * pw.val = pw.val; omega

/-- Seven writes, each holding the part of one function G that its rectangle names, leave G at every entry some
    rectangle holds. -/
theorem canon_seven {S : Shape} {e : EltTy} (G : S.Idx → Elt Ideal e) (r6 r5 r4 r3 r2 r1 r0 : Rect S)
    (w6 : r6.shape.Idx → Elt Ideal e) (w5 : r5.shape.Idx → Elt Ideal e) (w4 : r4.shape.Idx → Elt Ideal e)
    (w3 : r3.shape.Idx → Elt Ideal e) (w2 : r2.shape.Idx → Elt Ideal e) (w1 : r1.shape.Idx → Elt Ideal e)
    (w0 : r0.shape.Idx → Elt Ideal e)
    (h6 : ∀ x, w6 x = G (r6.emb x)) (h5 : ∀ x, w5 x = G (r5.emb x)) (h4 : ∀ x, w4 x = G (r4.emb x))
    (h3 : ∀ x, w3 x = G (r3.emb x)) (h2 : ∀ x, w2 x = G (r2.emb x)) (h1 : ∀ x, w1 x = G (r1.emb x))
    (h0 : ∀ x, w0 x = G (r0.emb x)) (y : S.Idx)
    (hy : ∃ p ∈ ([⟨r6, w6⟩, ⟨r5, w5⟩, ⟨r4, w4⟩, ⟨r3, w3⟩, ⟨r2, w2⟩, ⟨r1, w1⟩, ⟨r0, w0⟩] : List (View.Piece (Elt Ideal) S e)), y ∈ p.1.set) :
    View.canon ([⟨r6, w6⟩, ⟨r5, w5⟩, ⟨r4, w4⟩, ⟨r3, w3⟩, ⟨r2, w2⟩, ⟨r1, w1⟩, ⟨r0, w0⟩] : List (View.Piece (Elt Ideal) S e)) y = G y := by
  refine View.canon_apply_of_pieces G _ ?_ y hy
  intro p hp
  simp only [List.mem_cons, List.not_mem_nil, or_false] at hp
  rcases hp with rfl | rfl | rfl | rfl | rfl | rfl | rfl
  exacts [h6, h5, h4, h3, h2, h1, h0]

/-- The seven slices the body writes into the scratch, last first. -/
abbrev tmpPieces (x0 : Vec Ideal S512x38x38 .f32) (x1 : Vec Ideal S1x7x38 .f32) : List (View.Piece (Elt Ideal) S512x7x38 .f32) :=
  [
    ⟨Rect.unit ![0, 6, 0] S512x1x38.size inb_S512x7x38_S512x1x38_0_6_0, k0_pay14 (k0_pay4 x0) (k0_pay5 x1)⟩,
    ⟨Rect.unit ![0, 5, 0] S512x1x38.size inb_S512x7x38_S512x1x38_0_5_0, k0_pay13 (k0_pay4 x0) (k0_pay5 x1)⟩,
    ⟨Rect.unit ![0, 4, 0] S512x1x38.size inb_S512x7x38_S512x1x38_0_4_0, k0_pay12 (k0_pay4 x0) (k0_pay5 x1)⟩,
    ⟨Rect.unit ![0, 3, 0] S512x1x38.size inb_S512x7x38_S512x1x38_0_3_0, k0_pay11 (k0_pay4 x0) (k0_pay10 x1)⟩,
    ⟨Rect.unit ![0, 2, 0] S512x1x38.size inb_S512x7x38_S512x1x38_0_2_0, k0_pay9 x0 x1⟩,
    ⟨Rect.unit ![0, 1, 0] S512x1x38.size inb_S512x7x38_S512x1x38_0_1_0, k0_pay8 x0 x1⟩,
    ⟨Rect.unit ![0, 0, 0] S512x1x38.size inb_S512x7x38_S512x1x38_0_0_0, k0_pay7 x0 x1⟩]

/-- A slice whose entries are the first maxima of output column p agrees with tmpFn where it sits. -/
theorem piece_tmp (x0 : Vec Ideal S512x38x38 .f32) (x1 : Vec Ideal S1x7x38 .f32) (o : Nat) (p : Fin 7) (hp : p.val = o)
    (inb : ∀ a, (![0, o, 0] : Fin 3 → Nat) a + S512x1x38.size a ≤ S512x7x38.size a) (P : FVec Ideal S512x1x38 .f32)
    (hP : ∀ (c : Fin 512) (u : Fin 1) (h : Fin 38), P (ix3 c u h) = tmpAt x0 x1 c p h) (x : S512x1x38.Idx) :
    P x = tmpFn x0 x1 ((Rect.unit (s := S512x7x38) ![0, o, 0] S512x1x38.size inb).emb x) := by
  obtain ⟨c, u, h, rfl⟩ : ∃ (c : Fin 512) (u : Fin 1) (h : Fin 38), x = ix3 c u h := ⟨x 0, x 1, x 2, eq_ix3 x⟩
  rw [emb_tmp o p hp]
  exact hP c u h

/-- The seven slices tile the scratch. -/
theorem tmpPieces_cover (x0 : Vec Ideal S512x38x38 .f32) (x1 : Vec Ideal S1x7x38 .f32) (y : S512x7x38.Idx) :
    ∃ p ∈ tmpPieces x0 x1, y ∈ p.1.set :=
  View.cover_of_tiledL (tmpPieces x0 x1) S512x1x38.size (by sl_kernel_rfl) y

/-- The scratch read back whole after the seven slice stores is tmpFn. -/
theorem scratch_eq {κ : Kind} {sp : Space} (v : View sig κ sp S512x7x38 .f32) (x0 : Vec Ideal S512x38x38 .f32) (x1 : Vec Ideal S1x7x38 .f32) :
    v.readCov (tmpPieces x0 x1) (Rect.unit (s := S512x7x38) ![0, 0, 0] S512x7x38.size inb_S512x7x38_S512x7x38_0_0_0).toLoadRect
      = tmpFn x0 x1 := by
  rw [View.readCov_eq_canon_ld _ _ _ (tmpPieces_cover x0 x1), View.ld_unit_zero (S := S512x7x38) hz3]
  funext y
  exact canon_seven (tmpFn x0 x1) _ _ _ _ _ _ _ _ _ _ _ _ _ _
    (piece_tmp x0 x1 6 6 rfl inb_S512x7x38_S512x1x38_0_6_0 (k0_pay14 (k0_pay4 x0) (k0_pay5 x1)) (tmp6 x0 x1))
    (piece_tmp x0 x1 5 5 rfl inb_S512x7x38_S512x1x38_0_5_0 (k0_pay13 (k0_pay4 x0) (k0_pay5 x1)) (tmp5 x0 x1))
    (piece_tmp x0 x1 4 4 rfl inb_S512x7x38_S512x1x38_0_4_0 (k0_pay12 (k0_pay4 x0) (k0_pay5 x1)) (tmp4 x0 x1))
    (piece_tmp x0 x1 3 3 rfl inb_S512x7x38_S512x1x38_0_3_0 (k0_pay11 (k0_pay4 x0) (k0_pay10 x1)) (tmp3 x0 x1))
    (piece_tmp x0 x1 2 2 rfl inb_S512x7x38_S512x1x38_0_2_0 (k0_pay9 x0 x1) (tmp2 x0 x1))
    (piece_tmp x0 x1 1 1 rfl inb_S512x7x38_S512x1x38_0_1_0 (k0_pay8 x0 x1) (tmp1 x0 x1))
    (piece_tmp x0 x1 0 0 rfl inb_S512x7x38_S512x1x38_0_0_0 (k0_pay7 x0 x1) (tmp0 x0 x1))
    y (tmpPieces_cover x0 x1 y)

/-- A slice whose entries are the second maxima of output row p, taken over tmpFn, agrees with blockFn where it sits. -/
theorem piece_out (x0 : Vec Ideal S512x38x38 .f32) (x1 x2 : Vec Ideal S1x7x38 .f32) (o : Nat) (p : Fin 7) (hp : p.val = o)
    (inb : ∀ a, (![0, 0, o, 0] : Fin 4 → Nat) a + (![1, 512, 1, 7] : Fin 4 → Nat) a ≤ S1x512x7x7.size a)
    (P : FVec Ideal S1x512x1x7 .f32)
    (hP : ∀ (u : Fin 1) (c : Fin 512) (u' : Fin 1) (pw : Fin 7),
      P (ix4 u c u' pw) = foldMax fun h => tmpFn x0 x1 (ix3 c pw h) + x2 (ix3 (0 : Fin 1) p h))
    (x : S1x512x1x7.Idx) :
    P x = blockFn x0 x1 x2 ((Rect.unit (s := S1x512x7x7) ![0, 0, o, 0] ![1, 512, 1, 7] inb).emb x) := by
  obtain ⟨u, c, u', pw, rfl⟩ : ∃ (u : Fin 1) (c : Fin 512) (u' : Fin 1) (pw : Fin 7), x = ix4 u c u' pw :=
    ⟨x 0, x 1, x 2, x 3, eq_ix4 x⟩
  rw [emb_out o p hp]
  exact hP u c u' pw

/-- What one grid point leaves in the output block: blockFn of its three input blocks. -/
theorem block_eq (c : Dev nD) (i : grid0.Coords) (arg1 : Memref sig .tc .vmem S512x38x38 .f32) (harg1 : arg1.IsWhole)
    (arg2 : Memref sig .tc .vmem S1x7x38 .f32) (harg2 : arg2.IsWhole) (arg3 : Memref sig .tc .vmem S1x7x38 .f32) (harg3 : arg3.IsWhole)
    (arg4 : Memref sig .tc .vmem S1x512x7x7 .f32) (harg4 : arg4.IsWhole) (arg5 : Memref sig .tc .vmem S512x7x38 .f32) (harg5 : arg5.IsWhole)
    (x0 : Vec Ideal S512x38x38 .f32) (x1 x2 : Vec Ideal S1x7x38 .f32) :
    out0_A_3 (F := Ideal) c i arg1 harg1 arg2 harg2 arg3 harg3 arg4 harg4 arg5 harg5 x0 x1 x2 = blockFn x0 x1 x2 := by
  unfold out0_A_3
  rw [View.read_writes_eq_canon _ _ _ (cover0_A_3 c i arg1 harg1 arg2 harg2 arg3 harg3 arg4 harg4 arg5 harg5 x0 x1 x2)]
  funext y
  have hy := cover0_A_3 c i arg1 harg1 arg2 harg2 arg3 harg3 arg4 harg4 arg5 harg5 x0 x1 x2 y
  revert hy
  unfold kernelRun0_A
  dsimp only
  sl_unfold_words
  rw [scratch_eq]
  simp only [View.readAt_eq_ld, harg1.read_unread, harg2.read_unread, harg3.read_unread,
    View.ld_unit_zero (S := S512x38x38) hz3, View.ld_unit_zero (S := S1x7x38) hz3]
  intro hy
  exact canon_seven (blockFn x0 x1 x2) _ _ _ _ _ _ _ _ _ _ _ _ _ _
    (piece_out x0 x1 x2 6 6 rfl inb_S1x512x7x7_S1x512x1x7_0_0_6_0 (k0_pay3 (k0_pay6 x2) (tmpFn x0 x1)) (out6 (tmpFn x0 x1) x2))
    (piece_out x0 x1 x2 5 5 rfl inb_S1x512x7x7_S1x512x1x7_0_0_5_0 (k0_pay2 (k0_pay6 x2) (tmpFn x0 x1)) (out5 (tmpFn x0 x1) x2))
    (piece_out x0 x1 x2 4 4 rfl inb_S1x512x7x7_S1x512x1x7_0_0_4_0 (k0_pay1 (tmpFn x0 x1) (k0_pay20 (k0_pay6 x2))) (out4 (tmpFn x0 x1) x2))
    (piece_out x0 x1 x2 3 3 rfl inb_S1x512x7x7_S1x512x1x7_0_0_3_0 (k0_pay19 (k0_pay6 x2) (tmpFn x0 x1)) (out3 (tmpFn x0 x1) x2))
    (piece_out x0 x1 x2 2 2 rfl inb_S1x512x7x7_S1x512x1x7_0_0_2_0 (k0_pay18 (k0_pay6 x2) (tmpFn x0 x1)) (out2 (tmpFn x0 x1) x2))
    (piece_out x0 x1 x2 1 1 rfl inb_S1x512x7x7_S1x512x1x7_0_0_1_0 (k0_pay17 (k0_pay6 x2) (tmpFn x0 x1)) (out1 (tmpFn x0 x1) x2))
    (piece_out x0 x1 x2 0 0 rfl inb_S1x512x7x7_S1x512x1x7_0_0_0_0 (k0_pay16 (tmpFn x0 x1) (k0_pay15 (k0_pay6 x2))) (out0 (tmpFn x0 x1) x2))
    y hy

end Cert.KernelIdeal.KValue

end
-- ==== Proof.KFinal.lean ====
/-
  From one grid point to the whole output array.

  Grid point n reads the whole feature map (its block index is 0 on every axis) and row n of each table (block
  index n on the leading axis, 0 elsewhere), and writes rows [n] of the output (block index n on the leading axis).
  So what point n writes back is the part of the pooled array whose leading coordinate is n, and as n runs over the
  128 boxes these parts fill the array: entry (n, c, ph, pw) is written by point n and by no other.
-/
import proofs.«123092_j51488067944902_1_alg».proof.Proof.KBlock
import proofs.«123092_j51488067944902_1_alg».proof.Proof.Gen.KernelIdeal.Value

set_option maxRecDepth 16384

noncomputable section

namespace Cert.KernelIdeal.KValue

open Cert.KernelIdeal Cert.KernelIdeal.Gen Cert.RoiPool Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ)

/-- The four windows' index maps, decided once over the 128 grid points: the feature map's block never moves; each
    table's and the output's block index is the grid point on the leading axis and 0 on the others. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

/-- A grid point as a box number. -/
def boxOf (t : Fin cfg0.N) : Fin 128 := Fin.cast N_0 t

theorem boxOf_val (t : Fin cfg0.N) : (boxOf t).val = t.val := rfl

/-- The feature-map block at any grid point is the feature map. -/
theorem read0 (c : Dev nD) (t : Fin cfg0.N) (ch : Fin 512) (h w : Fin 38) :
    iblk m c 0 t (ix3 ch h w) = V m c main_v94 (ix3 ch h w) := by
  obtain ⟨e0, e1, e2, -⟩ := idx_facts t
  show V m c main_v94 (((cfg0.win 0).blk t).view.emb (ix3 ch h w)) = V m c main_v94 (ix3 ch h w)
  refine congrArg (V m c main_v94) (funext fun a => Fin.ext ?_)
  match a with
  | ⟨0, _⟩ => show win0_0.index t (0 : Fin 3) * 512 + 1 * ch.val = ch.val; rw [e0]; omega
  | ⟨1, _⟩ => show win0_0.index t (1 : Fin 3) * 38 + 1 * h.val = h.val; rw [e1]; omega
  | ⟨2, _⟩ => show win0_0.index t (2 : Fin 3) * 38 + 1 * w.val = w.val; rw [e2]; omega

/-- The column-table block at grid point t is row t of the column table. -/
theorem read1 (c : Dev nD) (t : Fin cfg0.N) (p : Fin 7) (w : Fin 38) :
    iblk m c 1 t (ix3 (0 : Fin 1) p w) = V m c main_v93 (ix3 (boxOf t) p w) := by
  obtain ⟨-, -, -, e0, e1, e2, -⟩ := idx_facts t
  show V m c main_v93 (((cfg0.win 1).blk t).view.emb (ix3 (0 : Fin 1) p w)) = V m c main_v93 (ix3 (boxOf t) p w)
  refine congrArg (V m c main_v93) (funext fun a => Fin.ext ?_)
  match a with
  | ⟨0, _⟩ => show win0_1.index t (0 : Fin 3) * 1 + 1 * 0 = t.val; rw [e0]; omega
  | ⟨1, _⟩ => show win0_1.index t (1 : Fin 3) * 7 + 1 * p.val = p.val; rw [e1]; omega
  | ⟨2, _⟩ => show win0_1.index t (2 : Fin 3) * 38 + 1 * w.val = w.val; rw [e2]; omega

/-- The row-table block at grid point t is row t of the row table. -/
theorem read2 (c : Dev nD) (t : Fin cfg0.N) (p : Fin 7) (h : Fin 38) :
    iblk m c 2 t (ix3 (0 : Fin 1) p h) = V m c main_v55 (ix3 (boxOf t) p h) := by
  obtain ⟨-, -, -, -, -, -, e0, e1, e2, -⟩ := idx_facts t
  show V m c main_v55 (((cfg0.win 2).blk t).view.emb (ix3 (0 : Fin 1) p h)) = V m c main_v55 (ix3 (boxOf t) p h)
  refine congrArg (V m c main_v55) (funext fun a => Fin.ext ?_)
  match a with
  | ⟨0, _⟩ => show win0_2.index t (0 : Fin 3) * 1 + 1 * 0 = t.val; rw [e0]; omega
  | ⟨1, _⟩ => show win0_2.index t (1 : Fin 3) * 7 + 1 * p.val = p.val; rw [e1]; omega
  | ⟨2, _⟩ => show win0_2.index t (2 : Fin 3) * 38 + 1 * h.val = h.val; rw [e2]; omega

/-- Where the output block's entries sit in the output array at grid point t. -/
theorem emb3 (t : Fin cfg0.N) (u : Fin 1) (ch : Fin 512) (ph pw : Fin 7) :
    ((cfg0.win 3).blk t).view.emb (ix4 u ch ph pw) = ix4 (boxOf t) ch ph pw := by
  obtain ⟨-, -, -, -, -, -, -, -, -, e0, e1, e2, e3⟩ := idx_facts t
  funext a; apply Fin.ext
  match a with
  | ⟨0, _⟩ => show win0_3.index t (0 : Fin 4) * 1 + 1 * u.val = t.val; rw [e0]; omega
  | ⟨1, _⟩ => show win0_3.index t (1 : Fin 4) * 512 + 1 * ch.val = ch.val; rw [e1]; omega
  | ⟨2, _⟩ => show win0_3.index t (2 : Fin 4) * 7 + 1 * ph.val = ph.val; rw [e2]; omega
  | ⟨3, _⟩ => show win0_3.index t (3 : Fin 4) * 7 + 1 * pw.val = pw.val; rw [e3]; omega

/-- One block of the pooled array from the blocks of its inputs: if three blocks agree with the feature map and with
    row n of the two tables, blockFn of them is the pooled array at leading coordinate n. -/
theorem blockAt_eq_pooled (x : Sx2d.Idx → EReal) (bw bh : Sbin.Idx → EReal) (b0 : S512x38x38.Idx → EReal)
    (b1 b2 : S1x7x38.Idx → EReal) (n : Fin 128)
    (h0 : ∀ (ch : Fin 512) (h w : Fin 38), b0 (ix3 ch h w) = x (ix3 ch h w))
    (h1 : ∀ (p : Fin 7) (w : Fin 38), b1 (ix3 (0 : Fin 1) p w) = bw (ix3 n p w))
    (h2 : ∀ (p : Fin 7) (h : Fin 38), b2 (ix3 (0 : Fin 1) p h) = bh (ix3 n p h))
    (ch : Fin 512) (ph pw : Fin 7) :
    blockAt b0 b1 b2 ch ph pw = pooledKAt x bw bh n ch ph pw := by
  unfold blockAt tmpAt pooledKAt
  simp only [h0, h1, h2]

/-- What grid point t writes back is block t of the pooled array of the three arrays as the region finds them. -/
theorem flushed_eq (c : Dev nD) (t : Fin cfg0.N) :
    (dats (F := Ideal) m 0 c).flushed 3 t
      = ((cfg0.win 3).blk t).view.read (Elt Ideal) (pooledK (V m c main_v94) (V m c main_v93) (V m c main_v55)) := by
  rw [Value.flushed3_A]
  rw [block_eq c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t)]
  funext j
  obtain ⟨u, ch, ph, pw, rfl⟩ : ∃ (u : Fin 1) (ch : Fin 512) (ph pw : Fin 7), j = ix4 u ch ph pw :=
    ⟨j 0, j 1, j 2, j 3, eq_ix4 j⟩
  show blockAt (iblk m c 0 t) (iblk m c 1 t) (iblk m c 2 t) ch ph pw
    = pooledK (V m c main_v94) (V m c main_v93) (V m c main_v55) (((cfg0.win 3).blk t).view.emb (ix4 u ch ph pw))
  rw [emb3 t u ch ph pw, pooledK_apply]
  exact blockAt_eq_pooled _ _ _ _ _ _ (boxOf t) (read0 m c t) (read1 m c t) (read2 m c t) ch ph pw

/-- An index of the output array is in grid point t's block iff each coordinate is in the block's range on its axis. -/
theorem mem_blk (t : Fin cfg0.N) (i : S128x512x7x7.Idx) :
    i ∈ ((cfg0.win 3).blk t).view.set
      ↔ ∀ a : Fin 4, win0_3.index t a * S1x512x7x7.size a ≤ (i a).val ∧ (i a).val < win0_3.index t a * S1x512x7x7.size a + S1x512x7x7.size a := by
  show i ∈ ((View.whole main_v95).slice (win0_3.rect t)).set ↔ _
  rw [View.set_slice_whole, Rect.mem_set_unit]
  exact Iff.rfl

/-- Every entry of the output array is written back by the grid point of its leading coordinate. -/
theorem cover (i : S128x512x7x7.Idx) :
    ∃ t : Fin cfg0.N, (cfg0.win 3).flush t = true ∧ i ∈ ((cfg0.win 3).blk t).view.set := by
  have hi0 : (i 0).val < 128 := (i 0).isLt
  have hi1 : (i 1).val < 512 := (i 1).isLt
  have hi2 : (i 2).val < 7 := (i 2).isLt
  have hi3 : (i 3).val < 7 := (i 3).isLt
  refine ⟨Fin.cast N_0.symm (⟨(i 0).val, hi0⟩ : Fin 128), flush0_3 _, ?_⟩
  obtain ⟨-, -, -, -, -, -, -, -, -, e0, e1, e2, e3⟩ := idx_facts (Fin.cast N_0.symm (⟨(i 0).val, hi0⟩ : Fin 128))
  have e0' : win0_3.index (Fin.cast N_0.symm (⟨(i 0).val, hi0⟩ : Fin 128)) (0 : Fin 4) = (i 0).val := e0
  rw [mem_blk]
  intro a
  match a with
  | ⟨0, _⟩ =>
    show win0_3.index _ (0 : Fin 4) * 1 ≤ (i 0).val ∧ (i 0).val < win0_3.index _ (0 : Fin 4) * 1 + 1
    rw [e0']; omega
  | ⟨1, _⟩ =>
    show win0_3.index _ (1 : Fin 4) * 512 ≤ (i 1).val ∧ (i 1).val < win0_3.index _ (1 : Fin 4) * 512 + 512
    rw [e1]; omega
  | ⟨2, _⟩ =>
    show win0_3.index _ (2 : Fin 4) * 7 ≤ (i 2).val ∧ (i 2).val < win0_3.index _ (2 : Fin 4) * 7 + 7
    rw [e2]; omega
  | ⟨3, _⟩ =>
    show win0_3.index _ (3 : Fin 4) * 7 ≤ (i 3).val ∧ (i 3).val < win0_3.index _ (3 : Fin 4) * 7 + 7
    rw [e3]; omega

/-- The output array after the run is the pooled array of the feature map and the two tables as the region finds them. -/
theorem final (m : (ℓ : Loc Cert.KernelIdeal.nD Cert.KernelIdeal.τ Cert.KernelIdeal.sig) → Buf (Elt Ideal) ℓ) (c : Dev Cert.KernelIdeal.nD) :
    (Cert.KernelIdeal.Gen.dats (F := Ideal) m 0 c).arrAt 3 Cert.KernelIdeal.cfg0.N
      = Cert.RoiPool.pooledK (Cert.KernelIdeal.Gen.V m c Cert.KernelIdeal.main_v94) (Cert.KernelIdeal.Gen.V m c Cert.KernelIdeal.main_v93) (Cert.KernelIdeal.Gen.V m c Cert.KernelIdeal.main_v55) :=
  (dats (F := Ideal) m 0 c).arrAt_eq_of_cover 3 (pooledK (V m c main_v94) (V m c main_v93) (V m c main_v55))
    (fun t _ => flushed_eq m c t) cover

end Cert.KernelIdeal.KValue

end
-- ==== Proof.lean ====
/-
  Region-of-interest max pooling: the Pallas kernel against its jnp reference, over the extended reals.

  For each of 128 boxes the box's rows and columns on the 38 × 38 feature map are cut into 7 × 7 bins, and each of
  the 512 channels is pooled to the maximum over each bin (an empty bin gives -∞). Both programs first turn the box
  coordinates into two membership tables (is position p in bin b of box n?), by the same integer operations; the
  proof never opens that computation, it only observes that the two programs apply the same chain of operations to
  equal box arrays.

  The kernel restricts a maximum to a bin by adding a bias (0 inside, -∞ outside) and takes the maximum over the
  columns into a scratch buffer, then over the rows; the reference selects (the value inside, -∞ outside) and does the
  same two passes with whole-array operations. On the extended reals a + 0 = a and a + (-∞) = -∞, so biasing and
  selecting agree entry by entry, and a maximum from -∞ over 38 entries is the same fold on both sides: the two
  results are one function of the feature map and the membership tables. No finiteness of the inputs is needed.

  The three frames: the kernel program's two are its launch and body run grid point by grid point; the reference's is
  its straight line of host operations run in order. The idealization rewrote nothing, so it preserves trivially.
-/
import proofs.«123092_j51488067944902_1_alg».proof.Defs
import proofs.«123092_j51488067944902_1_alg».proof.Proof.Gen.Kernel
import proofs.«123092_j51488067944902_1_alg».proof.Proof.Gen.Kernel.Skeleton
import proofs.«123092_j51488067944902_1_alg».proof.Proof.Gen.Kernel.Launch
import proofs.«123092_j51488067944902_1_alg».proof.Proof.Gen.Kernel.Points
import proofs.«123092_j51488067944902_1_alg».proof.Proof.Gen.Kernel.Frame
import proofs.«123092_j51488067944902_1_alg».proof.Proof.Gen.KernelIdeal
import proofs.«123092_j51488067944902_1_alg».proof.Proof.Gen.KernelIdeal.Skeleton
import proofs.«123092_j51488067944902_1_alg».proof.Proof.Gen.KernelIdeal.Launch
import proofs.«123092_j51488067944902_1_alg».proof.Proof.Gen.KernelIdeal.Points
import proofs.«123092_j51488067944902_1_alg».proof.Proof.Gen.KernelIdeal.Frame
import proofs.«123092_j51488067944902_1_alg».proof.Proof.Gen.KernelIdeal.Value
import proofs.«123092_j51488067944902_1_alg».proof.Proof.Gen.ReferenceIdeal
import proofs.«123092_j51488067944902_1_alg».proof.Proof.Gen.Pre_finite_inputs
import proofs.«123092_j51488067944902_1_alg».proof.Proof.Bridge
import proofs.«123092_j51488067944902_1_alg».proof.Proof.RValue
import proofs.«123092_j51488067944902_1_alg».proof.Proof.KFinal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Bridge.frame_reference,
  trivial,
  Cert.Bridge.algebraic_of Cert.KernelIdeal.KValue.final Cert.ReferenceIdeal.RValue.out_eq⟩

end Cert.Proof

end
